-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x64 : Shape := ⟨2, ![10000, 64]⟩
abbrev S5000x64 : Shape := ⟨2, ![5000, 64]⟩
abbrev S2x160000 : Shape := ⟨2, ![2, 160000]⟩
abbrev S64x256 : Shape := ⟨2, ![64, 256]⟩
abbrev S128x16 : Shape := ⟨2, ![128, 16]⟩
abbrev S64x64 : Shape := ⟨2, ![64, 64]⟩
abbrev S256x40 : Shape := ⟨2, ![256, 40]⟩
abbrev S_ : Shape := ⟨0, ![]⟩

class Facts : Prop where
  bcast_S_S10000x64 : S_.BroadcastsInDim S10000x64 (![] : Fin 0 → Fin S10000x64.rank)
  reducesTo_S10000x64_S_d0_1 : S10000x64.ReducesTo [0, 1] S_
  h_S_ : 0 < S_.numel
  bcast_S_S5000x64 : S_.BroadcastsInDim S5000x64 (![] : Fin 0 → Fin S5000x64.rank)
  reducesTo_S5000x64_S_d0_1 : S5000x64.ReducesTo [0, 1] S_
  bcast_S_S64x256 : S_.BroadcastsInDim S64x256 (![] : Fin 0 → Fin S64x256.rank)
  reducesTo_S64x256_S_d0_1 : S64x256.ReducesTo [0, 1] S_
  bcast_S_S128x16 : S_.BroadcastsInDim S128x16 (![] : Fin 0 → Fin S128x16.rank)
  reducesTo_S128x16_S_d0_1 : S128x16.ReducesTo [0, 1] S_
  bcast_S_S64x64 : S_.BroadcastsInDim S64x64 (![] : Fin 0 → Fin S64x64.rank)
  reducesTo_S64x64_S_d0_1 : S64x64.ReducesTo [0, 1] S_
  bcast_S_S256x40 : S_.BroadcastsInDim S256x40 (![] : Fin 0 → Fin S256x40.rank)
  reducesTo_S256x40_S_d0_1 : S256x40.ReducesTo [0, 1] S_

variable [Facts]

def fn_part1 {F : FTy → Type} [FloatOps F] (main_arg5 : FVec F S64x64 .f32) (main_arg6 : FVec F S64x64 .f32) (main_arg7 : FVec F S256x40 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S256x40 .f32 := Host.absf main_arg7
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  main_v33

def fn {F : FTy → Type} [FloatOps F] (main_arg0 : FVec F S10000x64 .f32) (main_arg1 : FVec F S5000x64 .f32) (main_arg2 : IVec S2x160000 32) (main_arg3 : FVec F S64x256 .f32) (main_arg4 : FVec F S128x16 .f32) (main_arg5 : FVec F S64x64 .f32) (main_arg6 : FVec F S64x64 .f32) (main_arg7 : FVec F S256x40 .f32) : IVec S_ 1 :=
  let main_v0 : FVec F S10000x64 .f32 := Host.absf main_arg0
  let main_cst : FVec F S_ .f32 := constant S_ .f32 0x7F800000#32
  let main_v1 : FVec F S10000x64 .f32 := broadcastInDim S10000x64 ![] bcast_S_S10000x64 main_cst
  let main_v2 : IVec S10000x64 1 := cmpf .olt main_v0 main_v1
  let main_c : IVec S_ 1 := constantI S_ 1 1#1
  let main_v3 : IVec S_ 1 := (fun x v => Host.reduce IntOp.andi x v reducesTo_S10000x64_S_d0_1 h_S_) main_v2 main_c
  let main_v4 : FVec F S5000x64 .f32 := Host.absf main_arg1
  let main_cst_0 : FVec F S_ .f32 := constant S_ .f32 0x7F800000#32
  let main_v5 : FVec F S5000x64 .f32 := broadcastInDim S5000x64 ![] bcast_S_S5000x64 main_cst_0
  let main_v6 : IVec S5000x64 1 := cmpf .olt main_v4 main_v5
  let main_c_1 : IVec S_ 1 := constantI S_ 1 1#1
  let main_v7 : IVec S_ 1 := (fun x v => Host.reduce IntOp.andi x v reducesTo_S5000x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_arg6 main_arg7 main_v13 main_v16
-- ==== Kernel.lean ====
abbrev S10000x64 : Shape := ⟨2, ![10000, 64]⟩
abbrev S5000x64 : Shape := ⟨2, ![5000, 64]⟩
abbrev S2x160000 : Shape := ⟨2, ![2, 160000]⟩
abbrev S64x256 : Shape := ⟨2, ![64, 256]⟩
abbrev S128x16 : Shape := ⟨2, ![128, 16]⟩
abbrev S64x64 : Shape := ⟨2, ![64, 64]⟩
abbrev S256x40 : Shape := ⟨2, ![256, 40]⟩
abbrev S10000x256 : Shape := ⟨2, ![10000, 256]⟩
abbrev S2000x64 : Shape := ⟨2, ![2000, 64]⟩
abbrev S2000x256 : Shape := ⟨2, ![2000, 256]⟩
abbrev S40000x64 : Shape := ⟨2, ![40000, 64]⟩
abbrev S5000x256 : Shape := ⟨2, ![5000, 256]⟩
abbrev S1000x64 : Shape := ⟨2, ![1000, 64]⟩
abbrev S1000x256 : Shape := ⟨2, ![1000, 256]⟩
abbrev S20000x64 : Shape := ⟨2, ![20000, 64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x64 : Shape := ⟨2, ![160000, 64]⟩
abbrev S160000x128 : Shape := ⟨2, ![160000, 128]⟩
abbrev S160000x16 : Shape := ⟨2, ![160000, 16]⟩
abbrev S2000x128 : Shape := ⟨2, ![2000, 128]⟩
abbrev S2000x16 : Shape := ⟨2, ![2000, 16]⟩
abbrev S4 : Shape := ⟨1, ![4]⟩
abbrev S4x4 : Shape := ⟨2, ![4, 4]⟩
abbrev S16 : Shape := ⟨1, ![16]⟩
abbrev S1x4 : Shape := ⟨2, ![1, 4]⟩
abbrev S1x16 : Shape := ⟨2, ![1, 16]⟩
abbrev S2560000 : Shape := ⟨1, ![2560000]⟩
abbrev S40000 : Shape := ⟨1, ![40000]⟩
abbrev S2560000x1 : Shape := ⟨2, ![2560000, 1]⟩
abbrev S20000 : Shape := ⟨1, ![20000]⟩
abbrev S2560000x64 : Shape := ⟨2, ![2560000, 64]⟩
abbrev S20000x1 : Shape := ⟨2, ![20000, 1]⟩
abbrev S40000x1 : Shape := ⟨2, ![40000, 1]⟩
abbrev S10000x40 : Shape := ⟨2, ![10000, 40]⟩
abbrev S2000x40 : Shape := ⟨2, ![2000, 40]⟩

abbrev nBuf : Space → Nat
  | .hbm => 217
  | .vmem => 30
  | .smem => 0
  | _ => 0

abbrev hbmTy0_0 (i : Nat) : BufTy := match i % 128 with
  | 0 => ⟨S10000x64, .f32⟩
  | 1 => ⟨S5000x64, .f32⟩
  | 2 => ⟨S2x160000, .i32⟩
  | 3 => ⟨S64x256, .f32⟩
  | 4 => ⟨S128x16, .f32⟩
  | 5 => ⟨S64x64, .f32⟩
  | 6 => ⟨S64x64, .f32⟩
  | 7 => ⟨S256x40, .f32⟩
  | 8 => ⟨S10000x256, .f32⟩
  | 9 => ⟨S40000x64, .f32⟩
  | 10 => ⟨S5000x256, .f32⟩
  | 11 => ⟨S20000x64, .f32⟩
  | 12 => ⟨S1x160000, .i32⟩
  | 13 => ⟨S160000, .i32⟩
  | 14 => ⟨S1x160000, .i32⟩
  | 15 => ⟨S160000, .i32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x64, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x64, .f32⟩
  | 34 => ⟨S160000x128, .f32⟩
  | 35 => ⟨S160000x16, .f32⟩
  | 36 => ⟨S4, .i32⟩
  | 37 => ⟨S4x4, .i32⟩
  | 38 => ⟨S16, .i32⟩
  | 39 => ⟨S4, .i32⟩
  | 40 => ⟨S1x4, .i32⟩
  | 41 => ⟨S4x4, .i32⟩
  | 42 => ⟨S16, .i32⟩
  | 43 => ⟨S160000x1, .i32⟩
  | 44 => ⟨S_, .i32⟩
  | 45 => ⟨S160000x1, .i32⟩
  | 46 => ⟨S160000x1, .i32⟩
  | 47 => ⟨S1x16, .i32⟩
  | 48 => ⟨S160000x16, .i32⟩
  | 49 => ⟨S160000x16, .i32⟩
  | 50 => ⟨S160000x16, .i32⟩
  | 51 => ⟨S2560000, .i32⟩
  | 52 => ⟨S160000x1, .i32⟩
  | 53 => ⟨S_, .i32⟩
  | 54 => ⟨S160000x1, .i32⟩
  | 55 => ⟨S160000x1, .i32⟩
  | 56 => ⟨S1x16, .i32⟩
  | 57 => ⟨S160000x16, .i32⟩
  | 58 => ⟨S160000x16, .i32⟩
  | 59 => ⟨S160000x16, .i32⟩
  | 60 => ⟨S2560000, .i32⟩
  | 61 => ⟨S2560000, .f32⟩
  | 62 => ⟨S40000x64, .f32⟩
  | 63 => ⟨S_, .f32⟩
  | 64 => ⟨S2560000, .f32⟩
  | 65 => ⟨S_, .f32⟩
  | 66 => ⟨S40000, .f32⟩
  | 67 => ⟨S2560000x1, .i32⟩
  | 68 => ⟨S40000, .f32⟩
  | 69 => ⟨S_, .f32⟩
  | 70 => ⟨S40000, .f32⟩
  | 71 => ⟨S40000, .i1⟩
  | 72 => ⟨S_, .f32⟩
  | 73 => ⟨S40000, .f32⟩
  | 74 => ⟨S40000, .f32⟩
  | 75 => ⟨S_, .f32⟩
  | 76 => ⟨S_, .f32⟩
  | 77 => ⟨S40000, .f32⟩
  | 78 => ⟨S40000, .f32⟩
  | 79 => ⟨S_, .f32⟩
  | 80 => ⟨S20000, .f32⟩
  | 81 => ⟨S2560000x1, .i32⟩
  | 82 => ⟨S20000, .f32⟩
  | 83 => ⟨S_, .f32⟩
  | 84 => ⟨S20000, .f32⟩
  | 85 => ⟨S20000, .i1⟩
  | 86 => ⟨S_, .f32⟩
  | 87 => ⟨S20000, .f32⟩
  | 88 => ⟨S20000, .f32⟩
  | 89 => ⟨S_, .f32⟩
  | 90 => ⟨S_, .f32⟩
  | 91 => ⟨S20000, .f32⟩
  | 92 => ⟨S20000, .f32⟩
  | 93 => ⟨S2560000x1, .f32⟩
  | 94 => ⟨S_, .i32⟩
  | 95 => ⟨S2560000, .i32⟩
  | 96 => ⟨S2560000, .i1⟩
  | 97 => ⟨S_, .i32⟩
  | 98 => ⟨S2560000, .i32⟩
  | 99 => ⟨S2560000, .i32⟩
  | 100 => ⟨S2560000, .i32⟩
  | 101 => ⟨S2560000x1, .i32⟩
  | 102 => ⟨S2560000x64, .f32⟩
  | 103 => ⟨S2560000x64, .f32⟩
  | 104 => ⟨S2560000x64, .f32⟩
  | 105 => ⟨S20000x1, .f32⟩
  | 106 => ⟨S_, .f32⟩
  | 107 => ⟨S20000x64, .f32⟩
  | 108 => ⟨S2560000x1, .i32⟩
  | 109 => ⟨S20000x64, .f32⟩
  | 110 => ⟨S20000x64, .f32⟩
  | 111 => ⟨S20000x64, .f32⟩
  | 112 => ⟨S2560000x1, .f32⟩
  | 113 => ⟨S_, .i32⟩
  | 114 => ⟨S2560000, .i32⟩
  | 115 => ⟨S2560000, .i1⟩
  | 116 => ⟨S_, .i32⟩
  | 117 => ⟨S2560000, .i32⟩
  | 118 => ⟨S2560000, .i32⟩
  | 119 => ⟨S2560000, .i32⟩
  | 120 => ⟨S2560000x1, .i32⟩
  | 121 => ⟨S2560000x64, .f32⟩
  | 122 => ⟨S2560000x64, .f32⟩
  | 123 => ⟨S2560000x64, .f32⟩
  | 124 => ⟨S40000x1, .f32⟩
  | 125 => ⟨S_, .f32⟩
  | 126 => ⟨S40000x64, .f32⟩
  | 127 => ⟨S2560000x1, .i32⟩
  | _ => ⟨S10000x64, .f32⟩

abbrev hbmTy0_1 (i : Nat) : BufTy := match i % 128 with
  | 0 => ⟨S40000x64, .f32⟩
  | 1 => ⟨S40000x64, .f32⟩
  | 2 => ⟨S40000x64, .f32⟩
  | 3 => ⟨S_, .f32⟩
  | 4 => ⟨S40000x64, .f32⟩
  | 5 => ⟨S40000x64, .i1⟩
  | 6 => ⟨S_, .f32⟩
  | 7 => ⟨S40000x64, .f32⟩
  | 8 => ⟨S40000x64, .i1⟩
  | 9 => ⟨S_, .f32⟩
  | 10 => ⟨S_, .f32⟩
  | 11 => ⟨S40000x64, .f32⟩
  | 12 => ⟨S40000x64, .f32⟩
  | 13 => ⟨S40000x64, .f32⟩
  | 14 => ⟨S_, .f32⟩
  | 15 => ⟨S40000x64, .f32⟩
  | 16 => ⟨S40000x64, .f32⟩
  | 17 => ⟨S40000x64, .f32⟩
  | 18 => ⟨S40000x64, .f32⟩
  | 19 => ⟨S_, .f32⟩
  | 20 => ⟨S2560000, .f32⟩
  | 21 => ⟨S_, .f32⟩
  | 22 => ⟨S40000, .f32⟩
  | 23 => ⟨S2560000x1, .i32⟩
  | 24 => ⟨S40000, .f32⟩
  | 25 => ⟨S_, .f32⟩
  | 26 => ⟨S40000, .f32⟩
  | 27 => ⟨S40000, .i1⟩
  | 28 => ⟨S_, .f32⟩
  | 29 => ⟨S40000, .f32⟩
  | 30 => ⟨S40000, .f32⟩
  | 31 => ⟨S_, .f32⟩
  | 32 => ⟨S_, .f32⟩
  | 33 => ⟨S40000, .f32⟩
  | 34 => ⟨S40000, .f32⟩
  | 35 => ⟨S_, .f32⟩
  | 36 => ⟨S20000, .f32⟩
  | 37 => ⟨S2560000x1, .i32⟩
  | 38 => ⟨S20000, .f32⟩
  | 39 => ⟨S_, .f32⟩
  | 40 => ⟨S20000, .f32⟩
  | 41 => ⟨S20000, .i1⟩
  | 42 => ⟨S_, .f32⟩
  | 43 => ⟨S20000, .f32⟩
  | 44 => ⟨S20000, .f32⟩
  | 45 => ⟨S_, .f32⟩
  | 46 => ⟨S_, .f32⟩
  | 47 => ⟨S20000, .f32⟩
  | 48 => ⟨S20000, .f32⟩
  | 49 => ⟨S2560000x1, .f32⟩
  | 50 => ⟨S_, .i32⟩
  | 51 => ⟨S2560000, .i32⟩
  | 52 => ⟨S2560000, .i1⟩
  | 53 => ⟨S_, .i32⟩
  | 54 => ⟨S2560000, .i32⟩
  | 55 => ⟨S2560000, .i32⟩
  | 56 => ⟨S2560000, .i32⟩
  | 57 => ⟨S2560000x1, .i32⟩
  | 58 => ⟨S2560000x64, .f32⟩
  | 59 => ⟨S2560000x64, .f32⟩
  | 60 => ⟨S2560000x64, .f32⟩
  | 61 => ⟨S20000x1, .f32⟩
  | 62 => ⟨S_, .f32⟩
  | 63 => ⟨S20000x64, .f32⟩
  | 64 => ⟨S2560000x1, .i32⟩
  | 65 => ⟨S20000x64, .f32⟩
  | 66 => ⟨S20000x64, .f32⟩
  | 67 => ⟨S20000x64, .f32⟩
  | 68 => ⟨S2560000x1, .f32⟩
  | 69 => ⟨S_, .i32⟩
  | 70 => ⟨S2560000, .i32⟩
  | 71 => ⟨S2560000, .i1⟩
  | 72 => ⟨S_, .i32⟩
  | 73 => ⟨S2560000, .i32⟩
  | 74 => ⟨S2560000, .i32⟩
  | 75 => ⟨S2560000, .i32⟩
  | 76 => ⟨S2560000x1, .i32⟩
  | 77 => ⟨S2560000x64, .f32⟩
  | 78 => ⟨S2560000x64, .f32⟩
  | 79 => ⟨S2560000x64, .f32⟩
  | 80 => ⟨S40000x1, .f32⟩
  | 81 => ⟨S_, .f32⟩
  | 82 => ⟨S40000x64, .f32⟩
  | 83 => ⟨S2560000x1, .i32⟩
  | 84 => ⟨S40000x64, .f32⟩
  | 85 => ⟨S40000x64, .f32⟩
  | 86 => ⟨S40000x64, .f32⟩
  | 87 => ⟨S10000x256, .f32⟩
  | 88 => ⟨S10000x40, .f32⟩
  | _ => ⟨S10000x64, .f32⟩

abbrev hbmTy (i : Nat) : BufTy := match i / 128 with
  | 0 => hbmTy0_0 i
  | 1 => hbmTy0_1 i
  | _ => ⟨S10000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x256, .f32⟩
  | .local _ .vmem, ⟨3, _⟩ => ⟨S2000x256, .f32⟩
  | .local _ .vmem, ⟨4, _⟩ => ⟨S2000x256, .f32⟩
  | .local _ .vmem, ⟨5, _⟩ => ⟨S1000x64, .f32⟩
  | .local _ .vmem, ⟨6, _⟩ => ⟨S1000x64, .f32⟩
  | .local _ .vmem, ⟨7, _⟩ => ⟨S64x256, .f32⟩
  | .local _ .vmem, ⟨8, _⟩ => ⟨S1000x256, .f32⟩
  | .local _ .vmem, ⟨9, _⟩ => ⟨S1000x256, .f32⟩
  | .local _ .vmem, ⟨10, _⟩ => ⟨S2000x128, .f32⟩
  | .local _ .vmem, ⟨11, _⟩ => ⟨S2000x128, .f32⟩
  | .local _ .vmem, ⟨12, _⟩ => ⟨S128x16, .f32⟩
  | .local _ .vmem, ⟨13, _⟩ => ⟨S2000x16, .f32⟩
  | .local _ .vmem, ⟨14, _⟩ => ⟨S2000x16, .f32⟩
  | .local _ .vmem, ⟨15, _⟩ => ⟨S2000x64, .f32⟩
  | .local _ .vmem, ⟨16, _⟩ => ⟨S2000x64, .f32⟩
  | .local _ .vmem, ⟨17, _⟩ => ⟨S64x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x64, .f32⟩
  | .local _ .vmem, ⟨23, _⟩ => ⟨S2000x64, .f32⟩
  | .local _ .vmem, ⟨24, _⟩ => ⟨S2000x64, .f32⟩
  | .local _ .vmem, ⟨25, _⟩ => ⟨S2000x256, .f32⟩
  | .local _ .vmem, ⟨26, _⟩ => ⟨S2000x256, .f32⟩
  | .local _ .vmem, ⟨27, _⟩ => ⟨S256x40, .f32⟩
  | .local _ .vmem, ⟨28, _⟩ => ⟨S2000x40, .f32⟩
  | .local _ .vmem, ⟨29, _⟩ => ⟨S2000x40, .f32⟩
  | _, _ => ⟨S10000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_6 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_call0_v0 : Ref sig .tc := ⟨.hbm, 76, rfl⟩
abbrev main_call0_v1 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_call1_v0 : Ref sig .tc := ⟨.hbm, 90, rfl⟩
abbrev main_call1_v1 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_16 : Ref sig .tc := ⟨.hbm, 113, rfl⟩
abbrev main_v83 : Ref sig .tc := ⟨.hbm, 114, rfl⟩
abbrev main_v84 : Ref sig .tc := ⟨.hbm, 115, rfl⟩
abbrev main_c_17 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_cst_1 : Ref sig .tc := ⟨.hbm, 137, rfl⟩
abbrev main_call2_call0_v0 : Ref sig .tc := ⟨.hbm, 138, rfl⟩
abbrev main_call2_call0_v1 : Ref sig .tc := ⟨.hbm, 139, rfl⟩
abbrev main_call2_v4 : Ref sig .tc := ⟨.hbm, 140, rfl⟩
abbrev main_call2_v5 : Ref sig .tc := ⟨.hbm, 141, rfl⟩
abbrev main_call2_cst_2 : Ref sig .tc := ⟨.hbm, 142, rfl⟩
abbrev main_call2_v6 : Ref sig .tc := ⟨.hbm, 143, rfl⟩
abbrev main_call2_v7 : Ref sig .tc := ⟨.hbm, 144, rfl⟩
abbrev main_v98 : Ref sig .tc := ⟨.hbm, 145, rfl⟩
abbrev main_v99 : Ref sig .tc := ⟨.hbm, 146, rfl⟩
abbrev main_cst_19 : Ref sig .tc := ⟨.hbm, 147, rfl⟩
abbrev main_v100 : Ref sig .tc := ⟨.hbm, 148, rfl⟩
abbrev main_cst_20 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_21 : Ref sig .tc := ⟨.hbm, 153, rfl⟩
abbrev main_v104 : Ref sig .tc := ⟨.hbm, 154, rfl⟩
abbrev main_v105 : Ref sig .tc := ⟨.hbm, 155, rfl⟩
abbrev main_cst_22 : Ref sig .tc := ⟨.hbm, 156, rfl⟩
abbrev main_v106 : Ref sig .tc := ⟨.hbm, 157, rfl⟩
abbrev main_v107 : Ref sig .tc := ⟨.hbm, 158, rfl⟩
abbrev main_cst_23 : Ref sig .tc := ⟨.hbm, 159, rfl⟩
abbrev main_call3_v0 : Ref sig .tc := ⟨.hbm, 160, rfl⟩
abbrev main_call3_v1 : Ref sig .tc := ⟨.hbm, 161, rfl⟩
abbrev main_v108 : Ref sig .tc := ⟨.hbm, 162, rfl⟩
abbrev main_cst_24 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_cst_25 : Ref sig .tc := ⟨.hbm, 167, rfl⟩
abbrev main_v112 : Ref sig .tc := ⟨.hbm, 168, rfl⟩
abbrev main_v113 : Ref sig .tc := ⟨.hbm, 169, rfl⟩
abbrev main_cst_26 : Ref sig .tc := ⟨.hbm, 170, rfl⟩
abbrev main_v114 : Ref sig .tc := ⟨.hbm, 171, rfl⟩
abbrev main_v115 : Ref sig .tc := ⟨.hbm, 172, rfl⟩
abbrev main_cst_27 : Ref sig .tc := ⟨.hbm, 173, rfl⟩
abbrev main_call4_v0 : Ref sig .tc := ⟨.hbm, 174, rfl⟩
abbrev main_call4_v1 : Ref sig .tc := ⟨.hbm, 175, rfl⟩
abbrev main_v116 : Ref sig .tc := ⟨.hbm, 176, rfl⟩
abbrev main_v117 : Ref sig .tc := ⟨.hbm, 177, rfl⟩
abbrev main_c_28 : Ref sig .tc := ⟨.hbm, 178, rfl⟩
abbrev main_v118 : Ref sig .tc := ⟨.hbm, 179, rfl⟩
abbrev main_v119 : Ref sig .tc := ⟨.hbm, 180, rfl⟩
abbrev main_c_29 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_30 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_c_31 : Ref sig .tc := ⟨.hbm, 197, rfl⟩
abbrev main_v134 : Ref sig .tc := ⟨.hbm, 198, rfl⟩
abbrev main_v135 : Ref sig .tc := ⟨.hbm, 199, rfl⟩
abbrev main_c_32 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_cst_33 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S2000x256_S2000x256_0_0 : ∀ a, (![0, 0] : Fin 2 → Nat) a + S2000x256.size a ≤ S2000x256.size a
  h_S2000x256 : 0 < S2000x256.numel
  shapeCasts_S10000x256_S40000x64 : S10000x256.ShapeCasts S40000x64
  inb_S1000x64_S1000x64_0_0 : ∀ a, (![0, 0] : Fin 2 → Nat) a + S1000x64.size a ≤ S1000x64.size a
  h_S1000x64 : 0 < S1000x64.numel
  inb_S1000x256_S1000x256_0_0 : ∀ a, (![0, 0] : Fin 2 → Nat) a + S1000x256.size a ≤ S1000x256.size a
  h_S1000x256 : 0 < S1000x256.numel
  shapeCasts_S5000x256_S20000x64 : S5000x256.ShapeCasts S20000x64
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x64_S160000x64_S160000x128_d1 : Shape.Concatenates [S160000x64, S160000x64] S160000x128 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x16_S128x16_0_0 : ∀ a, (![0, 0] : Fin 2 → Nat) a + S128x16.size a ≤ S128x16.size a
  h_S128x16 : 0 < S128x16.numel
  inb_S2000x16_S2000x16_0_0 : ∀ a, (![0, 0] : Fin 2 → Nat) a + S2000x16.size a ≤ S2000x16.size a
  h_S2000x16 : 0 < S2000x16.numel
  bcast_S4_S4x4_0 : S4.BroadcastsInDim S4x4 (![0] : Fin 1 → Fin S4x4.rank)
  shapeCasts_S4x4_S16 : S4x4.ShapeCasts S16
  shapeCasts_S4_S1x4 : S4.ShapeCasts S1x4
  bcast_S1x4_S4x4_0_1 : S1x4.BroadcastsInDim S4x4 (![0, 1] : Fin 2 → Fin S4x4.rank)
  bcast_S_S160000x1 : S_.BroadcastsInDim S160000x1 (![] : Fin 0 → Fin S160000x1.rank)
  bcast_S16_S1x16_1 : S16.BroadcastsInDim S1x16 (![1] : Fin 1 → Fin S1x16.rank)
  bcast_S160000x1_S160000x16_0_1 : S160000x1.BroadcastsInDim S160000x16 (![0, 1] : Fin 2 → Fin S160000x16.rank)
  bcast_S1x16_S160000x16_0_1 : S1x16.BroadcastsInDim S160000x16 (![0, 1] : Fin 2 → Fin S160000x16.rank)
  shapeCasts_S160000x16_S2560000 : S160000x16.ShapeCasts S2560000
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  bcast_S_S2560000 : S_.BroadcastsInDim S2560000 (![] : Fin 0 → Fin S2560000.rank)
  bcast_S_S40000 : S_.BroadcastsInDim S40000 (![] : Fin 0 → Fin S40000.rank)
  bcast_S2560000_S2560000x1_0 : S2560000.BroadcastsInDim S2560000x1 (![0] : Fin 1 → Fin S2560000x1.rank)
  bcast_S_S20000 : S_.BroadcastsInDim S20000 (![] : Fin 0 → Fin S20000.rank)
  bcast_S2560000x1_S2560000x64_0_1 : S2560000x1.BroadcastsInDim S2560000x64 (![0, 1] : Fin 2 → Fin S2560000x64.rank)
  bcast_S20000_S20000x1_0 : S20000.BroadcastsInDim S20000x1 (![0] : Fin 1 → Fin S20000x1.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  bcast_S40000_S40000x1_0 : S40000.BroadcastsInDim S40000x1 (![0] : Fin 1 → Fin S40000x1.rank)
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  shapeCasts_S40000x64_S10000x256 : S40000x64.ShapeCasts S10000x256
  shapeCasts_S2000x256_S2000x256 : S2000x256.ShapeCasts S2000x256
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  dot_S2000x64_S64x256_S2000x256_1_0_0_1_n_n_wf : DotDims.WF S2000x64 S64x256 S2000x256 [1] [0] [0] [1] [] []
  dot_S1000x64_S64x256_S1000x256_1_0_0_1_n_n_wf : DotDims.WF S1000x64 S64x256 S1000x256 [1] [0] [0] [1] [] []
  gather_S40000x64_S160000x1_S160000x64_1_0_n_n_0_1_164_wf : GatherDims.WF S40000x64 S160000x1 S160000x64 [1] [0] [] [0] [] 1 ![1, 64]
  gather_S20000x64_S160000x1_S160000x64_1_0_n_n_0_1_164_wf : GatherDims.WF S20000x64 S160000x1 S160000x64 [1] [0] [] [0] [] 1 ![1, 64]
  dot_S2000x128_S128x16_S2000x16_1_0_0_1_n_n_wf : DotDims.WF S2000x128 S128x16 S2000x16 [1] [0] [0] [1] [] []
  dot_S2000x64_S64x64_S2000x64_1_0_0_1_n_n_wf : DotDims.WF S2000x64 S64x64 S2000x64 [1] [0] [0] [1] [] []
  scatter_S40000_S2560000x1_S2560000_n_0_0_1_wf : ScatterDims.WF S40000 S2560000x1 S2560000 [] [0] [0] 1
  scatter_S20000_S2560000x1_S2560000_n_0_0_1_wf : ScatterDims.WF S20000 S2560000x1 S2560000 [] [0] [0] 1
  gather_S40000x64_S2560000x1_S2560000x64_1_0_n_n_0_1_164_wf : GatherDims.WF S40000x64 S2560000x1 S2560000x64 [1] [0] [] [0] [] 1 ![1, 64]
  scatter_S20000x64_S2560000x1_S2560000x64_1_0_0_1_wf : ScatterDims.WF S20000x64 S2560000x1 S2560000x64 [1] [0] [0] 1
  gather_S20000x64_S2560000x1_S2560000x64_1_0_n_n_0_1_164_wf : GatherDims.WF S20000x64 S2560000x1 S2560000x64 [1] [0] [] [0] [] 1 ![1, 64]
  scatter_S40000x64_S2560000x1_S2560000x64_1_0_0_1_wf : ScatterDims.WF S40000x64 S2560000x1 S2560000x64 [1] [0] [0] 1
  dot_S2000x256_S256x40_S2000x40_1_0_0_1_n_n_wf : DotDims.WF S2000x256 S256x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S10000x64.size a
  hwx0_0 : ∀ i : grid0.Coords, EltTy.bits .f32 = 32 ∨ (Rect.block (s := S10000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .f32 = 32 ∨ (Rect.block (s := S10000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S5000x64.size a
  hwx1_0 : ∀ i : grid1.Coords, EltTy.bits .f32 = 32 ∨ (Rect.block (s := S5000x64) S1000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S5000x256.size a
  hwx1_2 : ∀ i : grid1.Coords, EltTy.bits .f32 = 32 ∨ (Rect.block (s := S5000x256) S1000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S160000x128.size a
  hwx2_0 : ∀ i : grid2.Coords, EltTy.bits .f32 = 32 ∨ (Rect.block (s := S160000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S160000x16.size a
  hwx2_2 : ∀ i : grid2.Coords, EltTy.bits .f32 = 32 ∨ (Rect.block (s := S160000x16) S2000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S40000x64.size a
  hwx3_0 : ∀ i : grid3.Coords, EltTy.bits .f32 = 32 ∨ (Rect.block (s := S40000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S40000x64.size a
  hwx3_2 : ∀ i : grid3.Coords, EltTy.bits .f32 = 32 ∨ (Rect.block (s := S40000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S40000x64.size a
  hwx4_0 : ∀ i : grid4.Coords, EltTy.bits .f32 = 32 ∨ (Rect.block (s := S40000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S40000x64.size a
  hwx4_2 : ∀ i : grid4.Coords, EltTy.bits .f32 = 32 ∨ (Rect.block (s := S40000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S10000x256.size a
  hwx5_0 : ∀ i : grid5.Coords, EltTy.bits .f32 = 32 ∨ (Rect.block (s := S10000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x40.size a ≤ S256x40.size a
  hwx5_1 : ∀ i : grid5.Coords, EltTy.bits .f32 = 32 ∨ (Rect.block (s := S256x40) S256x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x40.size a ≤ S10000x40.size a
  hwx5_2 : ∀ i : grid5.Coords, EltTy.bits .f32 = 32 ∨ (Rect.block (s := S10000x40) S2000x40.size (cc5_transform_2 i) (hinb5_2 i)).WholeWords (EltTy.packing .f32)

variable [Facts₀]

def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S1000x64_S64x256_S1000x256_1_0_0_1_n_n : DotDims S1000x64 S64x256 S1000x256 where
  lhsContracting := [1]
  rhsContracting := [0]
  lhsNonContracting := [0]
  rhsNonContracting := [1]
  lhsBatch := []
  rhsBatch := []
  wf := dot_S1000x64_S64x256_S1000x256_1_0_0_1_n_n_wf
def gather_S40000x64_S160000x1_S160000x64_1_0_n_n_0_1_164 : GatherDims S40000x64 S160000x1 S160000x64 where
  offsetDims := [1]
  collapsedSliceDims := [0]
  operandBatchingDims := []
  startIndicesBatchingDims := []
  startIndexMap := [0]
  indexVectorDim := 1
  sliceSizes := ![1, 64]
  wf := gather_S40000x64_S160000x1_S160000x64_1_0_n_n_0_1_164_wf
def gather_S20000x64_S160000x1_S160000x64_1_0_n_n_0_1_164 : GatherDims S20000x64 S160000x1 S160000x64 where
  offsetDims := [1]
  collapsedSliceDims := [0]
  operandBatchingDims := []
  startIndicesBatchingDims := []
  startIndexMap := [0]
  indexVectorDim := 1
  sliceSizes := ![1, 64]
  wf := gather_S20000x64_S160000x1_S160000x64_1_0_n_n_0_1_164_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S40000_S2560000x1_S2560000_n_0_0_1 : ScatterDims S40000 S2560000x1 S2560000 where
  updateWindowDims := []
  insertedWindowDims := [0]
  scatterDimsToOperandDims := [0]
  indexVectorDim := 1
  wf := scatter_S40000_S2560000x1_S2560000_n_0_0_1_wf
def scatter_S20000_S2560000x1_S2560000_n_0_0_1 : ScatterDims S20000 S2560000x1 S2560000 where
  updateWindowDims := []
  insertedWindowDims := [0]
  scatterDimsToOperandDims := [0]
  indexVectorDim := 1
  wf := scatter_S20000_S2560000x1_S2560000_n_0_0_1_wf
def gather_S40000x64_S2560000x1_S2560000x64_1_0_n_n_0_1_164 : GatherDims S40000x64 S2560000x1 S2560000x64 where
  offsetDims := [1]
  collapsedSliceDims := [0]
  operandBatchingDims := []
  startIndicesBatchingDims := []
  startIndexMap := [0]
  indexVectorDim := 1
  sliceSizes := ![1, 64]
  wf := gather_S40000x64_S2560000x1_S2560000x64_1_0_n_n_0_1_164_wf
def scatter_S20000x64_S2560000x1_S2560000x64_1_0_0_1 : ScatterDims S20000x64 S2560000x1 S2560000x64 where
  updateWindowDims := [1]
  insertedWindowDims := [0]
  scatterDimsToOperandDims := [0]
  indexVectorDim := 1
  wf := scatter_S20000x64_S2560000x1_S2560000x64_1_0_0_1_wf
def gather_S20000x64_S2560000x1_S2560000x64_1_0_n_n_0_1_164 : GatherDims S20000x64 S2560000x1 S2560000x64 where
  offsetDims := [1]
  collapsedSliceDims := [0]
  operandBatchingDims := []
  startIndicesBatchingDims := []
  startIndexMap := [0]
  indexVectorDim := 1
  sliceSizes := ![1, 64]
  wf := gather_S20000x64_S2560000x1_S2560000x64_1_0_n_n_0_1_164_wf
def scatter_S40000x64_S2560000x1_S2560000x64_1_0_0_1 : ScatterDims S40000x64 S2560000x1 S2560000x64 where
  updateWindowDims := [1]
  insertedWindowDims := [0]
  scatterDimsToOperandDims := [0]
  indexVectorDim := 1
  wf := scatter_S40000x64_S2560000x1_S2560000x64_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v22) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v98) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v149) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S256x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v150) S2000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x64 : Shape := ⟨2, ![10000, 64]⟩
abbrev S5000x64 : Shape := ⟨2, ![5000, 64]⟩
abbrev S2x160000 : Shape := ⟨2, ![2, 160000]⟩
abbrev S64x256 : Shape := ⟨2, ![64, 256]⟩
abbrev S128x16 : Shape := ⟨2, ![128, 16]⟩
abbrev S64x64 : Shape := ⟨2, ![64, 64]⟩
abbrev S256x40 : Shape := ⟨2, ![256, 40]⟩
abbrev S10000x256 : Shape := ⟨2, ![10000, 256]⟩
abbrev S40000x64 : Shape := ⟨2, ![40000, 64]⟩
abbrev S5000x256 : Shape := ⟨2, ![5000, 256]⟩
abbrev S20000x64 : Shape := ⟨2, ![20000, 64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x64 : Shape := ⟨2, ![160000, 64]⟩
abbrev S160000x128 : Shape := ⟨2, ![160000, 128]⟩
abbrev S160000x16 : Shape := ⟨2, ![160000, 16]⟩
abbrev S4 : Shape := ⟨1, ![4]⟩
abbrev S4x4 : Shape := ⟨2, ![4, 4]⟩
abbrev S16 : Shape := ⟨1, ![16]⟩
abbrev S1x4 : Shape := ⟨2, ![1, 4]⟩
abbrev S1x16 : Shape := ⟨2, ![1, 16]⟩
abbrev S2560000 : Shape := ⟨1, ![2560000]⟩
abbrev S40000 : Shape := ⟨1, ![40000]⟩
abbrev S2560000x1 : Shape := ⟨2, ![2560000, 1]⟩
abbrev S20000 : Shape := ⟨1, ![20000]⟩
abbrev S2560000x64 : Shape := ⟨2, ![2560000, 64]⟩
abbrev S20000x1 : Shape := ⟨2, ![20000, 1]⟩
abbrev S40000x1 : Shape := ⟨2, ![40000, 1]⟩
abbrev S10000x40 : Shape := ⟨2, ![10000, 40]⟩

abbrev nBuf : Space → Nat
  | .hbm => 225
  | .vmem => 0
  | .smem => 0
  | _ => 0

abbrev hbmTy0_0 (i : Nat) : BufTy := match i % 128 with
  | 0 => ⟨S10000x64, .f32⟩
  | 1 => ⟨S5000x64, .f32⟩
  | 2 => ⟨S2x160000, .i32⟩
  | 3 => ⟨S64x256, .f32⟩
  | 4 => ⟨S128x16, .f32⟩
  | 5 => ⟨S64x64, .f32⟩
  | 6 => ⟨S64x64, .f32⟩
  | 7 => ⟨S256x40, .f32⟩
  | 8 => ⟨S10000x256, .f32⟩
  | 9 => ⟨S40000x64, .f32⟩
  | 10 => ⟨S5000x256, .f32⟩
  | 11 => ⟨S20000x64, .f32⟩
  | 12 => ⟨S1x160000, .i32⟩
  | 13 => ⟨S160000, .i32⟩
  | 14 => ⟨S1x160000, .i32⟩
  | 15 => ⟨S160000, .i32⟩
  | 16 => ⟨S_, .i32⟩
  | 17 => ⟨S160000, .i32⟩
  | 18 => ⟨S160000, .i1⟩
  | 19 => ⟨S_, .i32⟩
  | 20 => ⟨S160000, .i32⟩
  | 21 => ⟨S160000, .i32⟩
  | 22 => ⟨S160000, .i32⟩
  | 23 => ⟨S160000x1, .i32⟩
  | 24 => ⟨S160000x64, .f32⟩
  | 25 => ⟨S_, .i32⟩
  | 26 => ⟨S160000, .i32⟩
  | 27 => ⟨S160000, .i1⟩
  | 28 => ⟨S_, .i32⟩
  | 29 => ⟨S160000, .i32⟩
  | 30 => ⟨S160000, .i32⟩
  | 31 => ⟨S160000, .i32⟩
  | 32 => ⟨S160000x1, .i32⟩
  | 33 => ⟨S160000x64, .f32⟩
  | 34 => ⟨S160000x128, .f32⟩
  | 35 => ⟨S160000x16, .f32⟩
  | 36 => ⟨S160000x16, .f32⟩
  | 37 => ⟨S160000x16, .f32⟩
  | 38 => ⟨S_, .f32⟩
  | 39 => ⟨S160000x16, .f32⟩
  | 40 => ⟨S160000x16, .f32⟩
  | 41 => ⟨S_, .f32⟩
  | 42 => ⟨S160000x16, .f32⟩
  | 43 => ⟨S160000x16, .f32⟩
  | 44 => ⟨S4, .i32⟩
  | 45 => ⟨S4x4, .i32⟩
  | 46 => ⟨S16, .i32⟩
  | 47 => ⟨S4, .i32⟩
  | 48 => ⟨S1x4, .i32⟩
  | 49 => ⟨S4x4, .i32⟩
  | 50 => ⟨S16, .i32⟩
  | 51 => ⟨S160000x1, .i32⟩
  | 52 => ⟨S_, .i32⟩
  | 53 => ⟨S160000x1, .i32⟩
  | 54 => ⟨S160000x1, .i32⟩
  | 55 => ⟨S1x16, .i32⟩
  | 56 => ⟨S160000x16, .i32⟩
  | 57 => ⟨S160000x16, .i32⟩
  | 58 => ⟨S160000x16, .i32⟩
  | 59 => ⟨S2560000, .i32⟩
  | 60 => ⟨S160000x1, .i32⟩
  | 61 => ⟨S_, .i32⟩
  | 62 => ⟨S160000x1, .i32⟩
  | 63 => ⟨S160000x1, .i32⟩
  | 64 => ⟨S1x16, .i32⟩
  | 65 => ⟨S160000x16, .i32⟩
  | 66 => ⟨S160000x16, .i32⟩
  | 67 => ⟨S160000x16, .i32⟩
  | 68 => ⟨S2560000, .i32⟩
  | 69 => ⟨S2560000, .f32⟩
  | 70 => ⟨S40000x64, .f32⟩
  | 71 => ⟨S_, .f32⟩
  | 72 => ⟨S2560000, .f32⟩
  | 73 => ⟨S_, .f32⟩
  | 74 => ⟨S40000, .f32⟩
  | 75 => ⟨S2560000x1, .i32⟩
  | 76 => ⟨S40000, .f32⟩
  | 77 => ⟨S_, .f32⟩
  | 78 => ⟨S40000, .f32⟩
  | 79 => ⟨S40000, .i1⟩
  | 80 => ⟨S_, .f32⟩
  | 81 => ⟨S40000, .f32⟩
  | 82 => ⟨S40000, .f32⟩
  | 83 => ⟨S_, .f32⟩
  | 84 => ⟨S_, .f32⟩
  | 85 => ⟨S40000, .f32⟩
  | 86 => ⟨S40000, .f32⟩
  | 87 => ⟨S_, .f32⟩
  | 88 => ⟨S20000, .f32⟩
  | 89 => ⟨S2560000x1, .i32⟩
  | 90 => ⟨S20000, .f32⟩
  | 91 => ⟨S_, .f32⟩
  | 92 => ⟨S20000, .f32⟩
  | 93 => ⟨S20000, .i1⟩
  | 94 => ⟨S_, .f32⟩
  | 95 => ⟨S20000, .f32⟩
  | 96 => ⟨S20000, .f32⟩
  | 97 => ⟨S_, .f32⟩
  | 98 => ⟨S_, .f32⟩
  | 99 => ⟨S20000, .f32⟩
  | 100 => ⟨S20000, .f32⟩
  | 101 => ⟨S2560000x1, .f32⟩
  | 102 => ⟨S_, .i32⟩
  | 103 => ⟨S2560000, .i32⟩
  | 104 => ⟨S2560000, .i1⟩
  | 105 => ⟨S_, .i32⟩
  | 106 => ⟨S2560000, .i32⟩
  | 107 => ⟨S2560000, .i32⟩
  | 108 => ⟨S2560000, .i32⟩
  | 109 => ⟨S2560000x1, .i32⟩
  | 110 => ⟨S2560000x64, .f32⟩
  | 111 => ⟨S2560000x64, .f32⟩
  | 112 => ⟨S2560000x64, .f32⟩
  | 113 => ⟨S20000x1, .f32⟩
  | 114 => ⟨S_, .f32⟩
  | 115 => ⟨S20000x64, .f32⟩
  | 116 => ⟨S2560000x1, .i32⟩
  | 117 => ⟨S20000x64, .f32⟩
  | 118 => ⟨S20000x64, .f32⟩
  | 119 => ⟨S20000x64, .f32⟩
  | 120 => ⟨S2560000x1, .f32⟩
  | 121 => ⟨S_, .i32⟩
  | 122 => ⟨S2560000, .i32⟩
  | 123 => ⟨S2560000, .i1⟩
  | 124 => ⟨S_, .i32⟩
  | 125 => ⟨S2560000, .i32⟩
  | 126 => ⟨S2560000, .i32⟩
  | 127 => ⟨S2560000, .i32⟩
  | _ => ⟨S10000x64, .f32⟩

abbrev hbmTy0_1 (i : Nat) : BufTy := match i % 128 with
  | 0 => ⟨S2560000x1, .i32⟩
  | 1 => ⟨S2560000x64, .f32⟩
  | 2 => ⟨S2560000x64, .f32⟩
  | 3 => ⟨S2560000x64, .f32⟩
  | 4 => ⟨S40000x1, .f32⟩
  | 5 => ⟨S_, .f32⟩
  | 6 => ⟨S40000x64, .f32⟩
  | 7 => ⟨S2560000x1, .i32⟩
  | 8 => ⟨S40000x64, .f32⟩
  | 9 => ⟨S40000x64, .f32⟩
  | 10 => ⟨S40000x64, .f32⟩
  | 11 => ⟨S_, .f32⟩
  | 12 => ⟨S40000x64, .f32⟩
  | 13 => ⟨S40000x64, .i1⟩
  | 14 => ⟨S_, .f32⟩
  | 15 => ⟨S40000x64, .f32⟩
  | 16 => ⟨S40000x64, .i1⟩
  | 17 => ⟨S_, .f32⟩
  | 18 => ⟨S_, .f32⟩
  | 19 => ⟨S40000x64, .f32⟩
  | 20 => ⟨S40000x64, .f32⟩
  | 21 => ⟨S40000x64, .f32⟩
  | 22 => ⟨S_, .f32⟩
  | 23 => ⟨S40000x64, .f32⟩
  | 24 => ⟨S40000x64, .f32⟩
  | 25 => ⟨S40000x64, .f32⟩
  | 26 => ⟨S40000x64, .f32⟩
  | 27 => ⟨S_, .f32⟩
  | 28 => ⟨S2560000, .f32⟩
  | 29 => ⟨S_, .f32⟩
  | 30 => ⟨S40000, .f32⟩
  | 31 => ⟨S2560000x1, .i32⟩
  | 32 => ⟨S40000, .f32⟩
  | 33 => ⟨S_, .f32⟩
  | 34 => ⟨S40000, .f32⟩
  | 35 => ⟨S40000, .i1⟩
  | 36 => ⟨S_, .f32⟩
  | 37 => ⟨S40000, .f32⟩
  | 38 => ⟨S40000, .f32⟩
  | 39 => ⟨S_, .f32⟩
  | 40 => ⟨S_, .f32⟩
  | 41 => ⟨S40000, .f32⟩
  | 42 => ⟨S40000, .f32⟩
  | 43 => ⟨S_, .f32⟩
  | 44 => ⟨S20000, .f32⟩
  | 45 => ⟨S2560000x1, .i32⟩
  | 46 => ⟨S20000, .f32⟩
  | 47 => ⟨S_, .f32⟩
  | 48 => ⟨S20000, .f32⟩
  | 49 => ⟨S20000, .i1⟩
  | 50 => ⟨S_, .f32⟩
  | 51 => ⟨S20000, .f32⟩
  | 52 => ⟨S20000, .f32⟩
  | 53 => ⟨S_, .f32⟩
  | 54 => ⟨S_, .f32⟩
  | 55 => ⟨S20000, .f32⟩
  | 56 => ⟨S20000, .f32⟩
  | 57 => ⟨S2560000x1, .f32⟩
  | 58 => ⟨S_, .i32⟩
  | 59 => ⟨S2560000, .i32⟩
  | 60 => ⟨S2560000, .i1⟩
  | 61 => ⟨S_, .i32⟩
  | 62 => ⟨S2560000, .i32⟩
  | 63 => ⟨S2560000, .i32⟩
  | 64 => ⟨S2560000, .i32⟩
  | 65 => ⟨S2560000x1, .i32⟩
  | 66 => ⟨S2560000x64, .f32⟩
  | 67 => ⟨S2560000x64, .f32⟩
  | 68 => ⟨S2560000x64, .f32⟩
  | 69 => ⟨S20000x1, .f32⟩
  | 70 => ⟨S_, .f32⟩
  | 71 => ⟨S20000x64, .f32⟩
  | 72 => ⟨S2560000x1, .i32⟩
  | 73 => ⟨S20000x64, .f32⟩
  | 74 => ⟨S20000x64, .f32⟩
  | 75 => ⟨S20000x64, .f32⟩
  | 76 => ⟨S2560000x1, .f32⟩
  | 77 => ⟨S_, .i32⟩
  | 78 => ⟨S2560000, .i32⟩
  | 79 => ⟨S2560000, .i1⟩
  | 80 => ⟨S_, .i32⟩
  | 81 => ⟨S2560000, .i32⟩
  | 82 => ⟨S2560000, .i32⟩
  | 83 => ⟨S2560000, .i32⟩
  | 84 => ⟨S2560000x1, .i32⟩
  | 85 => ⟨S2560000x64, .f32⟩
  | 86 => ⟨S2560000x64, .f32⟩
  | 87 => ⟨S2560000x64, .f32⟩
  | 88 => ⟨S40000x1, .f32⟩
  | 89 => ⟨S_, .f32⟩
  | 90 => ⟨S40000x64, .f32⟩
  | 91 => ⟨S2560000x1, .i32⟩
  | 92 => ⟨S40000x64, .f32⟩
  | 93 => ⟨S40000x64, .f32⟩
  | 94 => ⟨S40000x64, .f32⟩
  | 95 => ⟨S10000x256, .f32⟩
  | 96 => ⟨S10000x40, .f32⟩
  | _ => ⟨S10000x64, .f32⟩

abbrev hbmTy (i : Nat) : BufTy := match i / 128 with
  | 0 => hbmTy0_0 i
  | 1 => hbmTy0_1 i
  | _ => ⟨S10000x64, .f32⟩

abbrev bufTy : (tb : Table) → Fin (tcTables nBuf tb) → BufTy
  | .hbm, ⟨i, _⟩ => hbmTy i
  | _, _ => ⟨S10000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_cst_10 : Ref sig .tc := ⟨.hbm, 83, rfl⟩
abbrev main_call0_v0 : Ref sig .tc := ⟨.hbm, 84, rfl⟩
abbrev main_call0_v1 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_call1_v0 : Ref sig .tc := ⟨.hbm, 98, rfl⟩
abbrev main_call1_v1 : Ref sig .tc := ⟨.hbm, 99, rfl⟩
abbrev main_v71 : Ref sig .tc := ⟨.hbm, 100, rfl⟩
abbrev main_v72 : Ref sig .tc := ⟨.hbm, 101, rfl⟩
abbrev main_c_15 : Ref sig .tc := ⟨.hbm, 102, rfl⟩
abbrev main_v73 : Ref sig .tc := ⟨.hbm, 103, rfl⟩
abbrev main_v74 : Ref sig .tc := ⟨.hbm, 104, rfl⟩
abbrev main_c_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_18 : Ref sig .tc := ⟨.hbm, 121, rfl⟩
abbrev main_v89 : Ref sig .tc := ⟨.hbm, 122, rfl⟩
abbrev main_v90 : Ref sig .tc := ⟨.hbm, 123, rfl⟩
abbrev main_c_19 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_call2_cst : Ref sig .tc := ⟨.hbm, 139, rfl⟩
abbrev main_call2_v0 : Ref sig .tc := ⟨.hbm, 140, rfl⟩
abbrev main_call2_v1 : Ref sig .tc := ⟨.hbm, 141, rfl⟩
abbrev main_call2_cst_0 : Ref sig .tc := ⟨.hbm, 142, rfl⟩
abbrev main_call2_v2 : Ref sig .tc := ⟨.hbm, 143, rfl⟩
abbrev main_call2_v3 : Ref sig .tc := ⟨.hbm, 144, rfl⟩
abbrev main_call2_cst_1 : Ref sig .tc := ⟨.hbm, 145, rfl⟩
abbrev main_call2_call0_v0 : Ref sig .tc := ⟨.hbm, 146, rfl⟩
abbrev main_call2_call0_v1 : Ref sig .tc := ⟨.hbm, 147, rfl⟩
abbrev main_call2_v4 : Ref sig .tc := ⟨.hbm, 148, rfl⟩
abbrev main_call2_v5 : Ref sig .tc := ⟨.hbm, 149, rfl⟩
abbrev main_call2_cst_2 : Ref sig .tc := ⟨.hbm, 150, rfl⟩
abbrev main_call2_v6 : Ref sig .tc := ⟨.hbm, 151, rfl⟩
abbrev main_call2_v7 : Ref sig .tc := ⟨.hbm, 152, rfl⟩
abbrev main_v104 : Ref sig .tc := ⟨.hbm, 153, rfl⟩
abbrev main_v105 : Ref sig .tc := ⟨.hbm, 154, rfl⟩
abbrev main_cst_21 : Ref sig .tc := ⟨.hbm, 155, rfl⟩
abbrev main_v106 : Ref sig .tc := ⟨.hbm, 156, rfl⟩
abbrev main_cst_22 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_cst_23 : Ref sig .tc := ⟨.hbm, 161, rfl⟩
abbrev main_v110 : Ref sig .tc := ⟨.hbm, 162, rfl⟩
abbrev main_v111 : Ref sig .tc := ⟨.hbm, 163, rfl⟩
abbrev main_cst_24 : Ref sig .tc := ⟨.hbm, 164, rfl⟩
abbrev main_v112 : Ref sig .tc := ⟨.hbm, 165, rfl⟩
abbrev main_v113 : Ref sig .tc := ⟨.hbm, 166, rfl⟩
abbrev main_cst_25 : Ref sig .tc := ⟨.hbm, 167, rfl⟩
abbrev main_call3_v0 : Ref sig .tc := ⟨.hbm, 168, rfl⟩
abbrev main_call3_v1 : Ref sig .tc := ⟨.hbm, 169, rfl⟩
abbrev main_v114 : Ref sig .tc := ⟨.hbm, 170, rfl⟩
abbrev main_cst_26 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_27 : Ref sig .tc := ⟨.hbm, 175, rfl⟩
abbrev main_v118 : Ref sig .tc := ⟨.hbm, 176, rfl⟩
abbrev main_v119 : Ref sig .tc := ⟨.hbm, 177, rfl⟩
abbrev main_cst_28 : Ref sig .tc := ⟨.hbm, 178, rfl⟩
abbrev main_v120 : Ref sig .tc := ⟨.hbm, 179, rfl⟩
abbrev main_v121 : Ref sig .tc := ⟨.hbm, 180, rfl⟩
abbrev main_cst_29 : Ref sig .tc := ⟨.hbm, 181, rfl⟩
abbrev main_call4_v0 : Ref sig .tc := ⟨.hbm, 182, rfl⟩
abbrev main_call4_v1 : Ref sig .tc := ⟨.hbm, 183, rfl⟩
abbrev main_v122 : Ref sig .tc := ⟨.hbm, 184, rfl⟩
abbrev main_v123 : Ref sig .tc := ⟨.hbm, 185, rfl⟩
abbrev main_c_30 : Ref sig .tc := ⟨.hbm, 186, rfl⟩
abbrev main_v124 : Ref sig .tc := ⟨.hbm, 187, rfl⟩
abbrev main_v125 : Ref sig .tc := ⟨.hbm, 188, rfl⟩
abbrev main_c_31 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_32 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_c_33 : Ref sig .tc := ⟨.hbm, 205, rfl⟩
abbrev main_v140 : Ref sig .tc := ⟨.hbm, 206, rfl⟩
abbrev main_v141 : Ref sig .tc := ⟨.hbm, 207, rfl⟩
abbrev main_c_34 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_cst_35 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩

abbrev nD : Nat := 1
abbrev τ : Topo := Topo.v7x

variable {F : FTy → Type} [FloatOps F]

class Facts₀ : Prop where
  shapeCasts_S10000x256_S40000x64 : S10000x256.ShapeCasts S40000x64
  shapeCasts_S5000x256_S20000x64 : S5000x256.ShapeCasts S20000x64
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  concatenates_S160000x64_S160000x64_S160000x128_d1 : Shape.Concatenates [S160000x64, S160000x64] S160000x128 1
  bcast_S_S160000x16 : S_.BroadcastsInDim S160000x16 (![] : Fin 0 → Fin S160000x16.rank)
  bcast_S4_S4x4_0 : S4.BroadcastsInDim S4x4 (![0] : Fin 1 → Fin S4x4.rank)
  shapeCasts_S4x4_S16 : S4x4.ShapeCasts S16
  shapeCasts_S4_S1x4 : S4.ShapeCasts S1x4
  bcast_S1x4_S4x4_0_1 : S1x4.BroadcastsInDim S4x4 (![0, 1] : Fin 2 → Fin S4x4.rank)
  bcast_S_S160000x1 : S_.BroadcastsInDim S160000x1 (![] : Fin 0 → Fin S160000x1.rank)
  bcast_S16_S1x16_1 : S16.BroadcastsInDim S1x16 (![1] : Fin 1 → Fin S1x16.rank)
  bcast_S160000x1_S160000x16_0_1 : S160000x1.BroadcastsInDim S160000x16 (![0, 1] : Fin 2 → Fin S160000x16.rank)
  bcast_S1x16_S160000x16_0_1 : S1x16.BroadcastsInDim S160000x16 (![0, 1] : Fin 2 → Fin S160000x16.rank)
  shapeCasts_S160000x16_S2560000 : S160000x16.ShapeCasts S2560000
  bcast_S_S2560000 : S_.BroadcastsInDim S2560000 (![] : Fin 0 → Fin S2560000.rank)
  bcast_S_S40000 : S_.BroadcastsInDim S40000 (![] : Fin 0 → Fin S40000.rank)
  bcast_S2560000_S2560000x1_0 : S2560000.BroadcastsInDim S2560000x1 (![0] : Fin 1 → Fin S2560000x1.rank)
  bcast_S_S20000 : S_.BroadcastsInDim S20000 (![] : Fin 0 → Fin S20000.rank)
  bcast_S2560000x1_S2560000x64_0_1 : S2560000x1.BroadcastsInDim S2560000x64 (![0, 1] : Fin 2 → Fin S2560000x64.rank)
  bcast_S20000_S20000x1_0 : S20000.BroadcastsInDim S20000x1 (![0] : Fin 1 → Fin S20000x1.rank)
  bcast_S_S20000x64 : S_.BroadcastsInDim S20000x64 (![] : Fin 0 → Fin S20000x64.rank)
  bcast_S20000x1_S20000x64_0_1 : S20000x1.BroadcastsInDim S20000x64 (![0, 1] : Fin 2 → Fin S20000x64.rank)
  bcast_S40000_S40000x1_0 : S40000.BroadcastsInDim S40000x1 (![0] : Fin 1 → Fin S40000x1.rank)
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  shapeCasts_S40000x64_S10000x256 : S40000x64.ShapeCasts S10000x256
  dot_S10000x64_S64x256_S10000x256_1_0_0_1_n_n_wf : DotDims.WF S10000x64 S64x256 S10000x256 [1] [0] [0] [1] [] []
  dot_S5000x64_S64x256_S5000x256_1_0_0_1_n_n_wf : DotDims.WF S5000x64 S64x256 S5000x256 [1] [0] [0] [1] [] []
  gather_S40000x64_S160000x1_S160000x64_1_0_n_n_0_1_164_wf : GatherDims.WF S40000x64 S160000x1 S160000x64 [1] [0] [] [0] [] 1 ![1, 64]
  gather_S20000x64_S160000x1_S160000x64_1_0_n_n_0_1_164_wf : GatherDims.WF S20000x64 S160000x1 S160000x64 [1] [0] [] [0] [] 1 ![1, 64]
  dot_S160000x128_S128x16_S160000x16_1_0_0_1_n_n_wf : DotDims.WF S160000x128 S128x16 S160000x16 [1] [0] [0] [1] [] []
  dot_S40000x64_S64x64_S40000x64_1_0_0_1_n_n_wf : DotDims.WF S40000x64 S64x64 S40000x64 [1] [0] [0] [1] [] []
  scatter_S40000_S2560000x1_S2560000_n_0_0_1_wf : ScatterDims.WF S40000 S2560000x1 S2560000 [] [0] [0] 1
  scatter_S20000_S2560000x1_S2560000_n_0_0_1_wf : ScatterDims.WF S20000 S2560000x1 S2560000 [] [0] [0] 1
  gather_S40000x64_S2560000x1_S2560000x64_1_0_n_n_0_1_164_wf : GatherDims.WF S40000x64 S2560000x1 S2560000x64 [1] [0] [] [0] [] 1 ![1, 64]
  scatter_S20000x64_S2560000x1_S2560000x64_1_0_0_1_wf : ScatterDims.WF S20000x64 S2560000x1 S2560000x64 [1] [0] [0] 1
  gather_S20000x64_S2560000x1_S2560000x64_1_0_n_n_0_1_164_wf : GatherDims.WF S20000x64 S2560000x1 S2560000x64 [1] [0] [] [0] [] 1 ![1, 64]
  scatter_S40000x64_S2560000x1_S2560000x64_1_0_0_1_wf : ScatterDims.WF S40000x64 S2560000x1 S2560000x64 [1] [0] [0] 1
  dot_S10000x256_S256x40_S10000x40_1_0_0_1_n_n_wf : DotDims.WF S10000x256 S256x40 S10000x40 [1] [0] [0] [1] [] []

variable [Facts₀]

def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S40000x64_S160000x1_S160000x64_1_0_n_n_0_1_164 : GatherDims S40000x64 S160000x1 S160000x64 where
  offsetDims := [1]
  collapsedSliceDims := [0]
  operandBatchingDims := []
  startIndicesBatchingDims := []
  startIndexMap := [0]
  indexVectorDim := 1
  sliceSizes := ![1, 64]
  wf := gather_S40000x64_S160000x1_S160000x64_1_0_n_n_0_1_164_wf
def gather_S20000x64_S160000x1_S160000x64_1_0_n_n_0_1_164 : GatherDims S20000x64 S160000x1 S160000x64 where
  offsetDims := [1]
  collapsedSliceDims := [0]
  operandBatchingDims := []
  startIndicesBatchingDims := []
  startIndexMap := [0]
  indexVectorDim := 1
  sliceSizes := ![1, 64]
  wf := gather_S20000x64_S160000x1_S160000x64_1_0_n_n_0_1_164_wf
def dot_S160000x128_S128x16_S160000x16_1_0_0_1_n_n : DotDims S160000x128 S128x16 S160000x16 where
  lhsContracting := [1]
  rhsContracting := [0]
  lhsNonContracting := [0]
  rhsNonContracting := [1]
  lhsBatch := []
  rhsBatch := []
  wf := dot_S160000x128_S128x16_S160000x16_1_0_0_1_n_n_wf
def dot_S40000x64_S64x64_S40000x64_1_0_0_1_n_n : DotDims S40000x64 S64x64 S40000x64 where
  lhsContracting := [1]
  rhsContracting := [0]
  lhsNonContracting := [0]
  rhsNonContracting := [1]
  lhsBatch := []
  rhsBatch := []
  wf := dot_S40000x64_S64x64_S40000x64_1_0_0_1_n_n_wf
def scatter_S40000_S2560000x1_S2560000_n_0_0_1 : ScatterDims S40000 S2560000x1 S2560000 where
  updateWindowDims := []
  insertedWindowDims := [0]
  scatterDimsToOperandDims := [0]
  indexVectorDim := 1
  wf := scatter_S40000_S2560000x1_S2560000_n_0_0_1_wf
def scatter_S20000_S2560000x1_S2560000_n_0_0_1 : ScatterDims S20000 S2560000x1 S2560000 where
  updateWindowDims := []
  insertedWindowDims := [0]
  scatterDimsToOperandDims := [0]
  indexVectorDim := 1
  wf := scatter_S20000_S2560000x1_S2560000_n_0_0_1_wf
def gather_S40000x64_S2560000x1_S2560000x64_1_0_n_n_0_1_164 : GatherDims S40000x64 S2560000x1 S2560000x64 where
  offsetDims := [1]
  collapsedSliceDims := [0]
  operandBatchingDims := []
  startIndicesBatchingDims := []
  startIndexMap := [0]
  indexVectorDim := 1
  sliceSizes := ![1, 64]
  wf := gather_S40000x64_S2560000x1_S2560000x64_1_0_n_n_0_1_164_wf
def scatter_S20000x64_S2560000x1_S2560000x64_1_0_0_1 : ScatterDims S20000x64 S2560000x1 S2560000x64 where
  updateWindowDims := [1]
  insertedWindowDims := [0]
  scatterDimsToOperandDims := [0]
  indexVectorDim := 1
  wf := scatter_S20000x64_S2560000x1_S2560000x64_1_0_0_1_wf
def gather_S20000x64_S2560000x1_S2560000x64_1_0_n_n_0_1_164 : GatherDims S20000x64 S2560000x1 S2560000x64 where
  offsetDims := [1]
  collapsedSliceDims := [0]
  operandBatchingDims := []
  startIndicesBatchingDims := []
  startIndexMap := [0]
  indexVectorDim := 1
  sliceSizes := ![1, 64]
  wf := gather_S20000x64_S2560000x1_S2560000x64_1_0_n_n_0_1_164_wf
def scatter_S40000x64_S2560000x1_S2560000x64_1_0_0_1 : ScatterDims S40000x64 S2560000x1 S2560000x64 where
  updateWindowDims := [1]
  insertedWindowDims := [0]
  scatterDimsToOperandDims := [0]
  indexVectorDim := 1
  wf := scatter_S40000x64_S2560000x1_S2560000x64_1_0_0_1_wf
def dot_S10000x256_S256x40_S10000x40_1_0_0_1_n_n : DotDims S10000x256 S256x40 S10000x40 where
  lhsContracting := [1]
  rhsContracting := [0]
  lhsNonContracting := [0]
  rhsNonContracting := [1]
  lhsBatch := []
  rhsBatch := []
  wf := dot_S10000x256_S256x40_S10000x40_1_0_0_1_n_n_wf

class Facts : Prop extends Facts₀ where

variable [Facts]
-- ==== Proof.KRun.lean ====
/-
  The idealized kernel program's run, with its result named.

  The program is six row-blocked matrix-product regions among stretches of host operations. Its buffers' contents at
  every boundary are a fold from the launch memory: a stretch applies its operations, a region leaves its output array
  at what the write-backs of all its grid points leave and every other buffer as it was. Every weakly fair execution
  terminates in a state whose unscoped buffers hold the last boundary's contents; read at the result buffer and at the
  arguments this is the statement below: the result is the last region's output array, the arguments are as launched.
-/
import proofs.«157253_j2594160246967_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run_main : θ_run defs (onTc (τ := τ) (main (F := F))) ⟨m, fun _ => 0, ρ⟩ (fun r => ∀ c : Dev nD,
      r.2.mem ((c.tc : Thread nD τ).loc main_v150) = W20 m ρ c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v150 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c)⟩)

end Cert.KernelIdeal.KRun

end
-- ==== Proof.RefOps.lean ====
/-
  The reference's @main as a list of host operations.

  The reference is a straight line of array operations: two matrix products into the stacked node and hyperedge features,
  the gathers and the concatenation that feed the sheaf's matrix product and its logistic map, the index arithmetic
  that expands every incidence entry to a d × d block, and twice the degree-normalised sheaf convolution (a matrix
  product, two scatter-added degree counts and their guarded reciprocals, gather · scale · scatter-add to the
  hyperedges and back to the nodes), with an exponential-linear unit between the two and a last matrix product. The
  outlined functions (the three-way selects and the exponential-linear unit) are listed at their call sites over the
  call's own buffers, so that the whole program is ONE list of operations.

  The list is cut into pieces p0 … p13 where a matrix product starts or ends and where the printed program passes
  from one of its four windows to the next; the pieces regroup both ways.
-/
import proofs.«157253_j2594160246967_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 1 of @main (%0 … %0): 1 operation. -/
abbrev p0 : List (HloOp τ sig (Elt F)) :=
  [ StableHlo.binary main_arg0 main_arg3 main_v0 ((fun l r => Host.dotGeneral dot_S10000x64_S64x256_S10000x256_1_0_0_1_n_n none l r) : (⟨S10000x64, .f32⟩ : BufTy).Contents (Elt F) → (⟨S64x256, .f32⟩ : BufTy).Contents (Elt F) → (⟨S10000x256, .f32⟩ : BufTy).Contents (Elt F)) ]
theorem p0_sub : (p0 : List (HloOp τ sig (Elt F))).Forall fun op => op.bufs ⊆ tcRefs τ sig :=
  binary_bufs_sub ..

/-- Statements 2 … 2 of @main (%1 … %1): 1 operation. -/
abbrev p1 : List (HloOp τ sig (Elt F)) :=
  [ StableHlo.reshape main_v0 main_v1 rfl shapeCasts_S10000x256_S40000x64 ]
theorem p1_sub : (p1 : List (HloOp τ sig (Elt F))).Forall fun op => op.bufs ⊆ tcRefs τ sig :=
  reshape_bufs_sub ..

/-- Statements 3 … 3 of @main (%2 … %2): 1 operation. -/
abbrev p2 : List (HloOp τ sig (Elt F)) :=
  [ StableHlo.binary main_arg1 main_arg3 main_v2 ((fun l r => Host.dotGeneral dot_S5000x64_S64x256_S5000x256_1_0_0_1_n_n none l r) : (⟨S5000x64, .f32⟩ : BufTy).Contents (Elt F) → (⟨S64x256, .f32⟩ : BufTy).Contents (Elt F) → (⟨S5000x256, .f32⟩ : BufTy).Contents (Elt F)) ]
theorem p2_sub : (p2 : List (HloOp τ sig (Elt F))).Forall fun op => op.bufs ⊆ tcRefs τ sig :=
  binary_bufs_sub ..

/-- Statements 4 … 27 of @main (%3 … %22): 24 operations. -/
abbrev p3 : List (HloOp τ sig (Elt F)) :=
  [ StableHlo.reshape main_v2 main_v3 rfl shapeCasts_S5000x256_S20000x64,
    StableHlo.unary main_arg2 main_v4 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v4 main_v5 rfl shapeCasts_S1x160000_S160000,
    StableHlo.unary main_arg2 main_v6 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v6 main_v7 rfl shapeCasts_S1x160000_S160000,
    StableHlo.nullary main_c (constantI S_ 32 0#32),
    StableHlo.unary main_c main_v8 (broadcastInDim S160000 ![] bcast_S_S160000 : (⟨S_, .i32⟩ : BufTy).Contents (Elt F) → (⟨S160000, .i32⟩ : BufTy).Contents (Elt F)),
    StableHlo.binary main_v5 main_v8 main_v9 (cmpi .slt : (⟨S160000, .i32⟩ : BufTy).Contents (Elt F) → (⟨S160000, .i32⟩ : BufTy).Contents (Elt F) → (⟨S160000, .i1⟩ : BufTy).Contents (Elt F)),
    StableHlo.nullary main_c_0 (constantI S_ 32 40000#32),
    StableHlo.unary main_c_0 main_v10 (broadcastInDim S160000 ![] bcast_S_S160000 : (⟨S_, .i32⟩ : BufTy).Contents (Elt F) → (⟨S160000, .i32⟩ : BufTy).Contents (Elt F)),
    StableHlo.binary main_v5 main_v10 main_v11 (addi : (⟨S160000, .i32⟩ : BufTy).Contents (Elt F) → (⟨S160000, .i32⟩ : BufTy).Contents (Elt F) → (⟨S160000, .i32⟩ : BufTy).Contents (Elt F)),
    StableHlo.ternary main_v9 main_v11 main_v5 main_v12 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v12 main_v13 (broadcastInDim S160000x1 ![0] bcast_S160000_S160000x1_0 : (⟨S160000, .i32⟩ : BufTy).Contents (Elt F) → (⟨S160000x1, .i32⟩ : BufTy).Contents (Elt F)),
    StableHlo.binary main_v1 main_v13 main_v14 ((fun x i => Host.gather gather_S40000x64_S160000x1_S160000x64_1_0_n_n_0_1_164 x i) : (⟨S40000x64, .f32⟩ : BufTy).Contents (Elt F) → (⟨S160000x1, .i32⟩ : BufTy).Contents (Elt F) → (⟨S160000x64, .f32⟩ : BufTy).Contents (Elt F)),
    StableHlo.nullary main_c_1 (constantI S_ 32 0#32),
    StableHlo.unary main_c_1 main_v15 (broadcastInDim S160000 ![] bcast_S_S160000 : (⟨S_, .i32⟩ : BufTy).Contents (Elt F) → (⟨S160000, .i32⟩ : BufTy).Contents (Elt F)),
    StableHlo.binary main_v7 main_v15 main_v16 (cmpi .slt : (⟨S160000, .i32⟩ : BufTy).Contents (Elt F) → (⟨S160000, .i32⟩ : BufTy).Contents (Elt F) → (⟨S160000, .i1⟩ : BufTy).Contents (Elt F)),
    StableHlo.nullary main_c_2 (constantI S_ 32 20000#32),
    StableHlo.unary main_c_2 main_v17 (broadcastInDim S160000 ![] bcast_S_S160000 : (⟨S_, .i32⟩ : BufTy).Contents (Elt F) → (⟨S160000, .i32⟩ : BufTy).Contents (Elt F)),
    StableHlo.binary main_v7 main_v17 main_v18 (addi : (⟨S160000, .i32⟩ : BufTy).Contents (Elt F) → (⟨S160000, .i32⟩ : BufTy).Contents (Elt F) → (⟨S160000, .i32⟩ : BufTy).Contents (Elt F)),
    StableHlo.ternary main_v16 main_v18 main_v7 main_v19 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    StableHlo.unary main_v19 main_v20 (broadcastInDim S160000x1 ![0] bcast_S160000_S160000x1_0 : (⟨S160000, .i32⟩ : BufTy).Contents (Elt F) → (⟨S160000x1, .i32⟩ : BufTy).Contents (Elt F)),
    StableHlo.binary main_v3 main_v20 main_v21 ((fun x i => Host.gather gather_S20000x64_S160000x1_S160000x64_1_0_n_n_0_1_164 x i) : (⟨S20000x64, .f32⟩ : BufTy).Contents (Elt F) → (⟨S160000x1, .i32⟩ : BufTy).Contents (Elt F) → (⟨S160000x64, .f32⟩ : BufTy).Contents (Elt F)),
    StableHlo.binary main_v14 main_v21 main_v22 ((fun a b => concatenate S160000x128 1 [⟨S160000x64, a⟩, ⟨S160000x64, b⟩] concatenates_S160000x64_S160000x64_S160000x128_d1) : (⟨S160000x64, .f32⟩ : BufTy).Contents (Elt F) → (⟨S160000x64, .f32⟩ : BufTy).Contents (Elt F) → (⟨S160000x128, .f32⟩ : BufTy).Contents (Elt F)) ]
theorem p3_sub : (p3 : List (HloOp τ sig (Elt F))).Forall fun op => op.bufs ⊆ tcRefs τ sig :=
  ⟨reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Statements 28 … 36 of @main (%23 … %29): 9 operations. -/
abbrev p4 : List (HloOp τ sig (Elt F)) :=
  [ StableHlo.binary main_v22 main_arg4 main_v23 ((fun l r => Host.dotGeneral dot_S160000x128_S128x16_S160000x16_1_0_0_1_n_n none l r) : (⟨S160000x128, .f32⟩ : BufTy).Contents (Elt F) → (⟨S128x16, .f32⟩ : BufTy).Contents (Elt F) → (⟨S160000x16, .f32⟩ : BufTy).Contents (Elt F)),
    StableHlo.unary main_v23 main_v24 (Host.negf : (⟨S160000x16, .f32⟩ : BufTy).Contents (Elt F) → (⟨S160000x16, .f32⟩ : BufTy).Contents (Elt F)),
    StableHlo.unary main_v24 main_v25 (Host.exp : (⟨S160000x16, .f32⟩ : BufTy).Contents (Elt F) → (⟨S160000x16, .f32⟩ : BufTy).Contents (Elt F)),
    StableHlo.nullary main_cst (constant S_ .f32 0x3F800000#32),
    StableHlo.unary main_cst main_v26 (broadcastInDim S160000x16 ![] bcast_S_S160000x16 : (⟨S_, .f32⟩ : BufTy).Contents (Elt F) → (⟨S160000x16, .f32⟩ : BufTy).Contents (Elt F)),
    StableHlo.binary main_v26 main_v25 main_v27 (addf : (⟨S160000x16, .f32⟩ : BufTy).Contents (Elt F) → (⟨S160000x16, .f32⟩ : BufTy).Contents (Elt F) → (⟨S160000x16, .f32⟩ : BufTy).Contents (Elt F)),
    StableHlo.nullary main_cst_3 (constant S_ .f32 0x3F800000#32),
    StableHlo.unary main_cst_3 main_v28 (broadcastInDim S160000x16 ![] bcast_S_S160000x16 : (⟨S_, .f32⟩ : BufTy).Contents (Elt F) → (⟨S160000x16, .f32⟩ : BufTy).Contents (Elt F)),
    StableHlo.binary main_v28 main_v27 main_v29 (Host.divf : (⟨S160000x16, .f32⟩ : BufTy).Contents (Elt F) → (⟨S160000x16, .f32⟩ : BufTy).Contents (Elt F) → (⟨S160000x16, .f32⟩ : BufTy).Contents (Elt F)) ]
theorem p4_sub : (p4 : List (HloOp τ sig (Elt F))).Forall fun op => op.bufs ⊆ tcRefs τ sig :=
  ⟨binary_bufs_sub .., unary_bufs_sub .., unary_bufs_sub .., nullary_bufs_sub .., unary_bufs_sub .., binary_bufs_sub .., nullary_bufs_sub .., unary_bufs_sub .., binary_bufs_sub ..⟩

/-- Statements 37 … 60 of @main (%30 … %51): 24 operations. -/
abbrev p5 : List (HloOp τ sig (Elt F)) :=
  [ StableHlo.nullary main_v30 (iotaInDim S4 32 0),
    StableHlo.unary main_v30 main_v31 (broadcastInDim S4x4 ![0] bcast_S4_S4x4_0 : (⟨S4, .i32⟩ : BufTy).Contents (Elt F) → (⟨S4x4, .i32⟩ : BufTy).Contents (Elt F)),
    StableHlo.reshape main_v31 main_v32 rfl shapeCasts_S4x4_S16,
    StableHlo.nullary main_v33 (iotaInDim S4 32 0),
    StableHlo.reshape main_v33 main_v34 rfl shapeCasts_S4_S1x4,
    StableHlo.unary main_v34 main_v35 (broadcastInDim S4x4 ![0, 1] bcast_S1x4_S4x4_0_1 : (⟨S1x4, .i32⟩ : BufTy).Contents (Elt F) → (⟨S4x4, .i32⟩ : BufTy).Contents (Elt F)),
    StableHlo.reshape main_v35 main_v36 rfl shapeCasts_S4x4_S16,
    StableHlo.unary main_v5 main_v37 (broadcastInDim S160000x1 ![0] bcast_S160000_S160000x1_0 : (⟨S160000, .i32⟩ : BufTy).Contents (Elt F) → (⟨S160000x1, .i32⟩ : BufTy).Contents (Elt F)),
    StableHlo.nullary main_c_4 (constantI S_ 32 4#32),
    StableHlo.unary main_c_4 main_v38 (broadcastInDim S160000x1 ![] bcast_S_S160000x1 : (⟨S_, .i32⟩ : BufTy).Contents (Elt F) → (⟨S160000x1, .i32⟩ : BufTy).Contents (Elt F)),
    StableHlo.binary main_v38 main_v37 main_v39 (muli : (⟨S160000x1, .i32⟩ : BufTy).Contents (Elt F) → (⟨S160000x1, .i32⟩ : BufTy).Contents (Elt F) → (⟨S160000x1, .i32⟩ : BufTy).Contents (Elt F)),
    StableHlo.unary main_v32 main_v40 (broadcastInDim S1x16 ![1] bcast_S16_S1x16_1 : (⟨S16, .i32⟩ : BufTy).Contents (Elt F) → (⟨S1x16, .i32⟩ : BufTy).Contents (Elt F)),
    StableHlo.unary main_v39 main_v41 (broadcastInDim S160000x16 ![0, 1] bcast_S160000x1_S160000x16_0_1 : (⟨S160000x1, .i32⟩ : BufTy).Contents (Elt F) → (⟨S160000x16, .i32⟩ : BufTy).Contents (Elt F)),
    StableHlo.unary main_v40 main_v42 (broadcastInDim S160000x16 ![0, 1] bcast_S1x16_S160000x16_0_1 : (⟨S1x16, .i32⟩ : BufTy).Contents (Elt F) → (⟨S160000x16, .i32⟩ : BufTy).Contents (Elt F)),
    StableHlo.binary main_v41 main_v42 main_v43 (addi : (⟨S160000x16, .i32⟩ : BufTy).Contents (Elt F) → (⟨S160000x16, .i32⟩ : BufTy).Contents (Elt F) → (⟨S160000x16, .i32⟩ : BufTy).Contents (Elt F)),
    StableHlo.reshape main_v43 main_v44 rfl shapeCasts_S160000x16_S2560000,
    StableHlo.unary main_v7 main_v45 (broadcastInDim S160000x1 ![0] bcast_S160000_S160000x1_0 : (⟨S160000, .i32⟩ : BufTy).Contents (Elt F) → (⟨S160000x1, .i32⟩ : BufTy).Contents (Elt F)),
    StableHlo.nullary main_c_5 (constantI S_ 32 4#32),
    StableHlo.unary main_c_5 main_v46 (broadcastInDim S160000x1 ![] bcast_S_S160000x1 : (⟨S_, .i32⟩ : BufTy).Contents (Elt F) → (⟨S160000x1, .i32⟩ : BufTy).Contents (Elt F)),
    StableHlo.binary main_v46 main_v45 main_v47 (muli : (⟨S160000x1, .i32⟩ : BufTy).Contents (Elt F) → (⟨S160000x1, .i32⟩ : BufTy).Contents (Elt F) → (⟨S160000x1, .i32⟩ : BufTy).Contents (Elt F)),
    StableHlo.unary main_v36 main_v48 (broadcastInDim S1x16 ![1] bcast_S16_S1x16_1 : (⟨S16, .i32⟩ : BufTy).Contents (Elt F) → (⟨S1x16, .i32⟩ : BufTy).Contents (Elt F)),
    StableHlo.unary main_v47 main_v49 (broadcastInDim S160000x16 ![0, 1] bcast_S160000x1_S160000x16_0_1 : (⟨S160000x1, .i32⟩ : BufTy).Contents (Elt F) → (⟨S160000x16, .i32⟩ : BufTy).Contents (Elt F)),
    StableHlo.unary main_v48 main_v50 (broadcastInDim S160000x16 ![0, 1] bcast_S1x16_S160000x16_0_1 : (⟨S1x16, .i32⟩ : BufTy).Contents (Elt F) → (⟨S160000x16, .i32⟩ : BufTy).Contents (Elt F)),
    StableHlo.binary main_v49 main_v50 main_v51 (addi : (⟨S160000x16, .i32⟩ : BufTy).Contents (Elt F) → (⟨S160000x16, .i32⟩ : BufTy).Contents (Elt F) → (⟨S160000x16, .i32⟩ : BufTy).Contents (Elt F)) ]
theorem p5_sub : (p5 : List (HloOp τ sig (Elt F))).Forall fun op => op.bufs ⊆ tcRefs τ sig :=
  ⟨nullary_bufs_sub .., unary_bufs_sub .., reshape_bufs_sub .., nullary_bufs_sub .., reshape_bufs_sub .., unary_bufs_sub .., reshape_bufs_sub .., unary_bufs_sub .., nullary_bufs_sub .., unary_bufs_sub .., binary_bufs_sub .., unary_bufs_sub .., unary_bufs_sub .., unary_bufs_sub .., binary_bufs_sub .., reshape_bufs_sub .., unary_bufs_sub .., nullary_bufs_sub .., unary_bufs_sub .., binary_bufs_sub .., unary_bufs_sub .., unary_bufs_sub .., unary_bufs_sub .., binary_bufs_sub ..⟩

/-- Statements 61 … 62 of @main (%52 … %53): 2 operations. -/
abbrev p6 : List (HloOp τ sig (Elt F)) :=
  [ StableHlo.reshape main_v51 main_v52 rfl shapeCasts_S160000x16_S2560000,
    StableHlo.reshape main_v29 main_v53 rfl shapeCasts_S160000x16_S2560000 ]
theorem p6_sub : (p6 : List (HloOp τ sig (Elt F))).Forall fun op => op.bufs ⊆ tcRefs τ sig :=
  ⟨reshape_bufs_sub .., reshape_bufs_sub ..⟩

/-- Statements 63 … 63 of @main (%54 … %54): 1 operation. -/
abbrev p7 : List (HloOp τ sig (Elt F)) :=
  [ StableHlo.binary main_v1 main_arg5 main_v54 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)) ]
theorem p7_sub : (p7 : List (HloOp τ sig (Elt F))).Forall fun op => op.bufs ⊆ tcRefs τ sig :=
  binary_bufs_sub ..

/-- Statements 64 … 120 of @main (%cst_6 … %97): 61 operations. -/
abbrev p8 : List (HloOp τ sig (Elt F)) :=
  [ StableHlo.nullary main_cst_6 (constant S_ .f32 0x3F800000#32),
    StableHlo.unary main_cst_6 main_v55 (broadcastInDim S2560000 ![] bcast_S_S2560000 : (⟨S_, .f32⟩ : BufTy).Contents (Elt F) → (⟨S2560000, .f32⟩ : BufTy).Contents (Elt F)),
    StableHlo.nullary main_cst_7 (constant S_ .f32 0x00000000#32),
    StableHlo.unary main_cst_7 main_v56 (broadcastInDim S40000 ![] bcast_S_S40000 : (⟨S_, .f32⟩ : BufTy).Contents (Elt F) → (⟨S40000, .f32⟩ : BufTy).Contents (Elt F)),
    StableHlo.unary main_v44 main_v57 (broadcastInDim S2560000x1 ![0] bcast_S2560000_S2560000x1_0 : (⟨S2560000, .i32⟩ : BufTy).Contents (Elt F) → (⟨S2560000x1, .i32⟩ : BufTy).Contents (Elt F)),
    StableHlo.ternary main_v56 main_v57 main_v55 main_v58 ((fun x i u => Host.scatterAdd scatter_S40000_S2560000x1_S2560000_n_0_0_1 x i u) : (⟨S40000, .f32⟩ : BufTy).Contents (Elt F) → (⟨S2560000x1, .i32⟩ : BufTy).Contents (Elt F) → (⟨S2560000, .f32⟩ : BufTy).Contents (Elt F) → (⟨S40000, .f32⟩ : BufTy).Contents (Elt F)),
    StableHlo.nullary main_cst_8 (constant S_ .f32 0x00000000#32),
    StableHlo.unary main_cst_8 main_v59 (broadcastInDim S40000 ![] bcast_S_S40000 : (⟨S_, .f32⟩ : BufTy).Contents (Elt F) → (⟨S40000, .f32⟩ : BufTy).Contents (Elt F)),
    StableHlo.binary main_v58 main_v59 main_v60 (cmpf .ogt : (⟨S40000, .f32⟩ : BufTy).Contents (Elt F) → (⟨S40000, .f32⟩ : BufTy).Contents (Elt F) → (⟨S40000, .i1⟩ : BufTy).Contents (Elt F)),
    StableHlo.nullary main_cst_9 (constant S_ .f32 0x3F800000#32),
    StableHlo.unary main_cst_9 main_v61 (broadcastInDim S40000 ![] bcast_S_S40000 : (⟨S_, .f32⟩ : BufTy).Contents (Elt F) → (⟨S40000, .f32⟩ : BufTy).Contents (Elt F)),
    StableHlo.binary main_v61 main_v58 main_v62 (Host.divf : (⟨S40000, .f32⟩ : BufTy).Contents (Elt F) → (⟨S40000, .f32⟩ : BufTy).Contents (Elt F) → (⟨S40000, .f32⟩ : BufTy).Contents (Elt F)),
    StableHlo.nullary main_cst_10 (constant S_ .f32 0x00000000#32),
    StableHlo.TRef.unary (.of main_cst_10 : StableHlo.TRef sig ⟨S_, .f32⟩) main_call0.v0 id,
    StableHlo.TRef.unary main_call0.v0 main_call0.v1 (broadcastInDim S40000 ![] bcast_S_S40000),
    StableHlo.TRef.ternary (.of main_v60 : StableHlo.TRef sig ⟨S40000, .i1⟩) (.of main_v62 : StableHlo.TRef sig ⟨S40000, .f32⟩) main_call0.v1 main_call0.v2 select,
    StableHlo.nullary main_cst_11 (constant S_ .f32 0x00000000#32),
    StableHlo.unary main_cst_11 main_v64 (broadcastInDim S20000 ![] bcast_S_S20000 : (⟨S_, .f32⟩ : BufTy).Contents (Elt F) → (⟨S20000, .f32⟩ : BufTy).Contents (Elt F)),
    StableHlo.unary main_v52 main_v65 (broadcastInDim S2560000x1 ![0] bcast_S2560000_S2560000x1_0 : (⟨S2560000, .i32⟩ : BufTy).Contents (Elt F) → (⟨S2560000x1, .i32⟩ : BufTy).Contents (Elt F)),
    StableHlo.ternary main_v64 main_v65 main_v55 main_v66 ((fun x i u => Host.scatterAdd scatter_S20000_S2560000x1_S2560000_n_0_0_1 x i u) : (⟨S20000, .f32⟩ : BufTy).Contents (Elt F) → (⟨S2560000x1, .i32⟩ : BufTy).Contents (Elt F) → (⟨S2560000, .f32⟩ : BufTy).Contents (Elt F) → (⟨S20000, .f32⟩ : BufTy).Contents (Elt F)),
    StableHlo.nullary main_cst_12 (constant S_ .f32 0x00000000#32),
    StableHlo.unary main_cst_12 main_v67 (broadcastInDim S20000 ![] bcast_S_S20000 : (⟨S_, .f32⟩ : BufTy).Contents (Elt F) → (⟨S20000, .f32⟩ : BufTy).Contents (Elt F)),
    StableHlo.binary main_v66 main_v67 main_v68 (cmpf .ogt : (⟨S20000, .f32⟩ : BufTy).Contents (Elt F) → (⟨S20000, .f32⟩ : BufTy).Contents (Elt F) → (⟨S20000, .i1⟩ : BufTy).Contents (Elt F)),
    StableHlo.nullary main_cst_13 (constant S_ .f32 0x3F800000#32),
    StableHlo.unary main_cst_13 main_v69 (broadcastInDim S20000 ![] bcast_S_S20000 : (⟨S_, .f32⟩ : BufTy).Contents (Elt F) → (⟨S20000, .f32⟩ : BufTy).Contents (Elt F)),
    StableHlo.binary main_v69 main_v66 main_v70 (Host.divf : (⟨S20000, .f32⟩ : BufTy).Contents (Elt F) → (⟨S20000, .f32⟩ : BufTy).Contents (Elt F) → (⟨S20000, .f32⟩ : BufTy).Contents (Elt F)),
    StableHlo.nullary main_cst_14 (constant S_ .f32 0x00000000#32),
    StableHlo.TRef.unary (.of main_cst_14 : StableHlo.TRef sig ⟨S_, .f32⟩) main_call1.v0 id,
    StableHlo.TRef.unary main_call1.v0 main_call1.v1 (broadcastInDim S20000 ![] bcast_S_S20000),
    StableHlo.TRef.ternary (.of main_v68 : StableHlo.TRef sig ⟨S20000, .i1⟩) (.of main_v70 : StableHlo.TRef sig ⟨S20000, .f32⟩) main_call1.v1 main_call1.v2 select,
    StableHlo.unary main_v53 main_v72 (broadcastInDim S2560000x1 ![0] bcast_S2560000_S2560000x1_0 : (⟨S2560000, .f32⟩ : BufTy).Contents (Elt F) → (⟨S2560000x1, .f32⟩ : BufTy).Contents (Elt F)),
    StableHlo.nullary main_c_15 (constantI S_ 32 0#32),
    StableHlo.unary main_c_15 main_v73 (broadcastInDim S2560000 ![] bcast_S_S2560000 : (⟨S_, .i32⟩ : BufTy).Contents (Elt F) → (⟨S2560000, .i32⟩ : BufTy).Contents (Elt F)),
    StableHlo.binary main_v44 main_v73 main_v74 (cmpi .slt : (⟨S2560000, .i32⟩ : BufTy).Contents (Elt F) → (⟨S2560000, .i32⟩ : BufTy).Contents (Elt F) → (⟨S2560000, .i1⟩ : BufTy).Contents (Elt F)),
    StableHlo.nullary main_c_16 (constantI S_ 32 40000#32),
    StableHlo.unary main_c_16 main_v75 (broadcastInDim S2560000 ![] bcast_S_S2560000 : (⟨S_, .i32⟩ : BufTy).Contents (Elt F) → (⟨S2560000, .i32⟩ : BufTy).Contents (Elt F)),
    StableHlo.binary main_v44 main_v75 main_v76 (addi : (⟨S2560000, .i32⟩ : BufTy).Contents (Elt F) → (⟨S2560000, .i32⟩ : BufTy).Contents (Elt F) → (⟨S2560000, .i32⟩ : BufTy).Contents (Elt F)),
    StableHlo.ternary main_v74 main_v76 main_v44 main_v77 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    StableHlo.unary main_v77 main_v78 (broadcastInDim S2560000x1 ![0] bcast_S2560000_S2560000x1_0 : (⟨S2560000, .i32⟩ : BufTy).Contents (Elt F) → (⟨S2560000x1, .i32⟩ : BufTy).Contents (Elt F)),
    StableHlo.binary main_v54 main_v78 main_v79 ((fun x i => Host.gather gather_S40000x64_S2560000x1_S2560000x64_1_0_n_n_0_1_164 x i) : (⟨S40000x64, .f32⟩ : BufTy).Contents (Elt F) → (⟨S2560000x1, .i32⟩ : BufTy).Contents (Elt F) → (⟨S2560000x64, .f32⟩ : BufTy).Contents (Elt F)),
    StableHlo.unary main_v72 main_v80 (broadcastInDim S2560000x64 ![0, 1] bcast_S2560000x1_S2560000x64_0_1 : (⟨S2560000x1, .f32⟩ : BufTy).Contents (Elt F) → (⟨S2560000x64, .f32⟩ : BufTy).Contents (Elt F)),
    StableHlo.binary main_v80 main_v79 main_v81 (mulf : (⟨S2560000x64, .f32⟩ : BufTy).Contents (Elt F) → (⟨S2560000x64, .f32⟩ : BufTy).Contents (Elt F) → (⟨S2560000x64, .f32⟩ : BufTy).Contents (Elt F)),
    StableHlo.unary main_v71 main_v82 (broadcastInDim S20000x1 ![0] bcast_S20000_S20000x1_0 : (⟨S20000, .f32⟩ : BufTy).Contents (Elt F) → (⟨S20000x1, .f32⟩ : BufTy).Contents (Elt F)),
    StableHlo.nullary main_cst_17 (constant S_ .f32 0x00000000#32),
    StableHlo.unary main_cst_17 main_v83 (broadcastInDim S20000x64 ![] bcast_S_S20000x64 : (⟨S_, .f32⟩ : BufTy).Contents (Elt F) → (⟨S20000x64, .f32⟩ : BufTy).Contents (Elt F)),
    StableHlo.unary main_v52 main_v84 (broadcastInDim S2560000x1 ![0] bcast_S2560000_S2560000x1_0 : (⟨S2560000, .i32⟩ : BufTy).Contents (Elt F) → (⟨S2560000x1, .i32⟩ : BufTy).Contents (Elt F)),
    StableHlo.ternary main_v83 main_v84 main_v81 main_v85 ((fun x i u => Host.scatterAdd scatter_S20000x64_S2560000x1_S2560000x64_1_0_0_1 x i u) : (⟨S20000x64, .f32⟩ : BufTy).Contents (Elt F) → (⟨S2560000x1, .i32⟩ : BufTy).Contents (Elt F) → (⟨S2560000x64, .f32⟩ : BufTy).Contents (Elt F) → (⟨S20000x64, .f32⟩ : BufTy).Contents (Elt F)),
    StableHlo.unary main_v82 main_v86 (broadcastInDim S20000x64 ![0, 1] bcast_S20000x1_S20000x64_0_1 : (⟨S20000x1, .f32⟩ : BufTy).Contents (Elt F) → (⟨S20000x64, .f32⟩ : BufTy).Contents (Elt F)),
    StableHlo.binary main_v86 main_v85 main_v87 (mulf : (⟨S20000x64, .f32⟩ : BufTy).Contents (Elt F) → (⟨S20000x64, .f32⟩ : BufTy).Contents (Elt F) → (⟨S20000x64, .f32⟩ : BufTy).Contents (Elt F)),
    StableHlo.unary main_v53 main_v88 (broadcastInDim S2560000x1 ![0] bcast_S2560000_S2560000x1_0 : (⟨S2560000, .f32⟩ : BufTy).Contents (Elt F) → (⟨S2560000x1, .f32⟩ : BufTy).Contents (Elt F)),
    StableHlo.nullary main_c_18 (constantI S_ 32 0#32),
    StableHlo.unary main_c_18 main_v89 (broadcastInDim S2560000 ![] bcast_S_S2560000 : (⟨S_, .i32⟩ : BufTy).Contents (Elt F) → (⟨S2560000, .i32⟩ : BufTy).Contents (Elt F)),
    StableHlo.binary main_v52 main_v89 main_v90 (cmpi .slt : (⟨S2560000, .i32⟩ : BufTy).Contents (Elt F) → (⟨S2560000, .i32⟩ : BufTy).Contents (Elt F) → (⟨S2560000, .i1⟩ : BufTy).Contents (Elt F)),
    StableHlo.nullary main_c_19 (constantI S_ 32 20000#32),
    StableHlo.unary main_c_19 main_v91 (broadcastInDim S2560000 ![] bcast_S_S2560000 : (⟨S_, .i32⟩ : BufTy).Contents (Elt F) → (⟨S2560000, .i32⟩ : BufTy).Contents (Elt F)),
    StableHlo.binary main_v52 main_v91 main_v92 (addi : (⟨S2560000, .i32⟩ : BufTy).Contents (Elt F) → (⟨S2560000, .i32⟩ : BufTy).Contents (Elt F) → (⟨S2560000, .i32⟩ : BufTy).Contents (Elt F)),
    StableHlo.ternary main_v90 main_v92 main_v52 main_v93 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    StableHlo.unary main_v93 main_v94 (broadcastInDim S2560000x1 ![0] bcast_S2560000_S2560000x1_0 : (⟨S2560000, .i32⟩ : BufTy).Contents (Elt F) → (⟨S2560000x1, .i32⟩ : BufTy).Contents (Elt F)),
    StableHlo.binary main_v87 main_v94 main_v95 ((fun x i => Host.gather gather_S20000x64_S2560000x1_S2560000x64_1_0_n_n_0_1_164 x i) : (⟨S20000x64, .f32⟩ : BufTy).Contents (Elt F) → (⟨S2560000x1, .i32⟩ : BufTy).Contents (Elt F) → (⟨S2560000x64, .f32⟩ : BufTy).Contents (Elt F)),
    StableHlo.unary main_v88 main_v96 (broadcastInDim S2560000x64 ![0, 1] bcast_S2560000x1_S2560000x64_0_1 : (⟨S2560000x1, .f32⟩ : BufTy).Contents (Elt F) → (⟨S2560000x64, .f32⟩ : BufTy).Contents (Elt F)),
    StableHlo.binary main_v96 main_v95 main_v97 (mulf : (⟨S2560000x64, .f32⟩ : BufTy).Contents (Elt F) → (⟨S2560000x64, .f32⟩ : BufTy).Contents (Elt F) → (⟨S2560000x64, .f32⟩ : BufTy).Contents (Elt F)) ]
theorem p8_sub : (p8 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., nullary_bufs_sub .., unary_bufs_sub .., unary_bufs_sub .., ternary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub ..⟩

/-- Statements 121 … 128 of @main (%98 … %104): 22 operations. -/
abbrev p9 : List (HloOp τ sig (Elt F)) :=
  [ StableHlo.unary main_v63 main_v98 (broadcastInDim S40000x1 ![0] bcast_S40000_S40000x1_0 : (⟨S40000, .f32⟩ : BufTy).Contents (Elt F) → (⟨S40000x1, .f32⟩ : BufTy).Contents (Elt F)),
    StableHlo.nullary main_cst_20 (constant S_ .f32 0x00000000#32),
    StableHlo.unary main_cst_20 main_v99 (broadcastInDim S40000x64 ![] bcast_S_S40000x64 : (⟨S_, .f32⟩ : BufTy).Contents (Elt F) → (⟨S40000x64, .f32⟩ : BufTy).Contents (Elt F)),
    StableHlo.unary main_v44 main_v100 (broadcastInDim S2560000x1 ![0] bcast_S2560000_S2560000x1_0 : (⟨S2560000, .i32⟩ : BufTy).Contents (Elt F) → (⟨S2560000x1, .i32⟩ : BufTy).Contents (Elt F)),
    StableHlo.ternary main_v99 main_v100 main_v97 main_v101 ((fun x i u => Host.scatterAdd scatter_S40000x64_S2560000x1_S2560000x64_1_0_0_1 x i u) : (⟨S40000x64, .f32⟩ : BufTy).Contents (Elt F) → (⟨S2560000x1, .i32⟩ : BufTy).Contents (Elt F) → (⟨S2560000x64, .f32⟩ : BufTy).Contents (Elt F) → (⟨S40000x64, .f32⟩ : BufTy).Contents (Elt F)),
    StableHlo.unary main_v98 main_v102 (broadcastInDim S40000x64 ![0, 1] bcast_S40000x1_S40000x64_0_1 : (⟨S40000x1, .f32⟩ : BufTy).Contents (Elt F) → (⟨S40000x64, .f32⟩ : BufTy).Contents (Elt F)),
    StableHlo.binary main_v102 main_v101 main_v103 (mulf : (⟨S40000x64, .f32⟩ : BufTy).Contents (Elt F) → (⟨S40000x64, .f32⟩ : BufTy).Contents (Elt F) → (⟨S40000x64, .f32⟩ : BufTy).Contents (Elt F)),
    StableHlo.TRef.nullary main_call2.cst (constant S_ .f32 0x00000000#32),
    StableHlo.TRef.unary main_call2.cst main_call2.v0 (broadcastInDim S40000x64 ![] bcast_S_S40000x64),
    StableHlo.TRef.binary (.of main_v103 : StableHlo.TRef sig ⟨S40000x64, .f32⟩) main_call2.v0 main_call2.v1 (cmpf .ogt),
    StableHlo.TRef.nullary main_call2.cst_0 (constant S_ .f32 0x00000000#32),
    StableHlo.TRef.unary main_call2.cst_0 main_call2.v2 (broadcastInDim S40000x64 ![] bcast_S_S40000x64),
    StableHlo.TRef.binary (.of main_v103 : StableHlo.TRef sig ⟨S40000x64, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S40000x64 ![] bcast_S_S40000x64),
    StableHlo.TRef.ternary main_call2.v3 main_call2.call0.v1 (.of main_v103 : StableHlo.TRef sig ⟨S40000x64, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S40000x64 ![] bcast_S_S40000x64),
    StableHlo.TRef.binary main_call2.v6 main_call2.v5 main_call2.v7 mulf,
    StableHlo.TRef.ternary main_call2.v1 (.of main_v103 : StableHlo.TRef sig ⟨S40000x64, .f32⟩) main_call2.v7 main_call2.call1.v0 select ]
theorem p9_sub : (p9 : List (HloOp τ sig (Elt F))).Forall fun op => op.bufs ⊆ tcRefs τ sig :=
  ⟨unary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Statements 129 … 129 of @main (%105 … %105): 1 operation. -/
abbrev p10 : List (HloOp τ sig (Elt F)) :=
  [ StableHlo.binary main_v104 main_arg6 main_v105 ((fun l r => Host.dotGeneral dot_S40000x64_S64x64_S40000x64_1_0_0_1_n_n none l r) : (⟨S40000x64, .f32⟩ : BufTy).Contents (Elt F) → (⟨S64x64, .f32⟩ : BufTy).Contents (Elt F) → (⟨S40000x64, .f32⟩ : BufTy).Contents (Elt F)) ]
theorem p10_sub : (p10 : List (HloOp τ sig (Elt F))).Forall fun op => op.bufs ⊆ tcRefs τ sig :=
  binary_bufs_sub ..

/-- Statements 130 … 180 of @main (%cst_21 … %142): 55 operations. -/
abbrev p11 : List (HloOp τ sig (Elt F)) :=
  [ StableHlo.nullary main_cst_21 (constant S_ .f32 0x3F800000#32),
    StableHlo.unary main_cst_21 main_v106 (broadcastInDim S2560000 ![] bcast_S_S2560000 : (⟨S_, .f32⟩ : BufTy).Contents (Elt F) → (⟨S2560000, .f32⟩ : BufTy).Contents (Elt F)),
    StableHlo.nullary main_cst_22 (constant S_ .f32 0x00000000#32),
    StableHlo.unary main_cst_22 main_v107 (broadcastInDim S40000 ![] bcast_S_S40000 : (⟨S_, .f32⟩ : BufTy).Contents (Elt F) → (⟨S40000, .f32⟩ : BufTy).Contents (Elt F)),
    StableHlo.unary main_v44 main_v108 (broadcastInDim S2560000x1 ![0] bcast_S2560000_S2560000x1_0 : (⟨S2560000, .i32⟩ : BufTy).Contents (Elt F) → (⟨S2560000x1, .i32⟩ : BufTy).Contents (Elt F)),
    StableHlo.ternary main_v107 main_v108 main_v106 main_v109 ((fun x i u => Host.scatterAdd scatter_S40000_S2560000x1_S2560000_n_0_0_1 x i u) : (⟨S40000, .f32⟩ : BufTy).Contents (Elt F) → (⟨S2560000x1, .i32⟩ : BufTy).Contents (Elt F) → (⟨S2560000, .f32⟩ : BufTy).Contents (Elt F) → (⟨S40000, .f32⟩ : BufTy).Contents (Elt F)),
    StableHlo.nullary main_cst_23 (constant S_ .f32 0x00000000#32),
    StableHlo.unary main_cst_23 main_v110 (broadcastInDim S40000 ![] bcast_S_S40000 : (⟨S_, .f32⟩ : BufTy).Contents (Elt F) → (⟨S40000, .f32⟩ : BufTy).Contents (Elt F)),
    StableHlo.binary main_v109 main_v110 main_v111 (cmpf .ogt : (⟨S40000, .f32⟩ : BufTy).Contents (Elt F) → (⟨S40000, .f32⟩ : BufTy).Contents (Elt F) → (⟨S40000, .i1⟩ : BufTy).Contents (Elt F)),
    StableHlo.nullary main_cst_24 (constant S_ .f32 0x3F800000#32),
    StableHlo.unary main_cst_24 main_v112 (broadcastInDim S40000 ![] bcast_S_S40000 : (⟨S_, .f32⟩ : BufTy).Contents (Elt F) → (⟨S40000, .f32⟩ : BufTy).Contents (Elt F)),
    StableHlo.binary main_v112 main_v109 main_v113 (Host.divf : (⟨S40000, .f32⟩ : BufTy).Contents (Elt F) → (⟨S40000, .f32⟩ : BufTy).Contents (Elt F) → (⟨S40000, .f32⟩ : BufTy).Contents (Elt F)),
    StableHlo.nullary main_cst_25 (constant S_ .f32 0x00000000#32),
    StableHlo.TRef.unary (.of main_cst_25 : StableHlo.TRef sig ⟨S_, .f32⟩) main_call3.v0 id,
    StableHlo.TRef.unary main_call3.v0 main_call3.v1 (broadcastInDim S40000 ![] bcast_S_S40000),
    StableHlo.TRef.ternary (.of main_v111 : StableHlo.TRef sig ⟨S40000, .i1⟩) (.of main_v113 : StableHlo.TRef sig ⟨S40000, .f32⟩) main_call3.v1 main_call3.v2 select,
    StableHlo.nullary main_cst_26 (constant S_ .f32 0x00000000#32),
    StableHlo.unary main_cst_26 main_v115 (broadcastInDim S20000 ![] bcast_S_S20000 : (⟨S_, .f32⟩ : BufTy).Contents (Elt F) → (⟨S20000, .f32⟩ : BufTy).Contents (Elt F)),
    StableHlo.unary main_v52 main_v116 (broadcastInDim S2560000x1 ![0] bcast_S2560000_S2560000x1_0 : (⟨S2560000, .i32⟩ : BufTy).Contents (Elt F) → (⟨S2560000x1, .i32⟩ : BufTy).Contents (Elt F)),
    StableHlo.ternary main_v115 main_v116 main_v106 main_v117 ((fun x i u => Host.scatterAdd scatter_S20000_S2560000x1_S2560000_n_0_0_1 x i u) : (⟨S20000, .f32⟩ : BufTy).Contents (Elt F) → (⟨S2560000x1, .i32⟩ : BufTy).Contents (Elt F) → (⟨S2560000, .f32⟩ : BufTy).Contents (Elt F) → (⟨S20000, .f32⟩ : BufTy).Contents (Elt F)),
    StableHlo.nullary main_cst_27 (constant S_ .f32 0x00000000#32),
    StableHlo.unary main_cst_27 main_v118 (broadcastInDim S20000 ![] bcast_S_S20000 : (⟨S_, .f32⟩ : BufTy).Contents (Elt F) → (⟨S20000, .f32⟩ : BufTy).Contents (Elt F)),
    StableHlo.binary main_v117 main_v118 main_v119 (cmpf .ogt : (⟨S20000, .f32⟩ : BufTy).Contents (Elt F) → (⟨S20000, .f32⟩ : BufTy).Contents (Elt F) → (⟨S20000, .i1⟩ : BufTy).Contents (Elt F)),
    StableHlo.nullary main_cst_28 (constant S_ .f32 0x3F800000#32),
    StableHlo.unary main_cst_28 main_v120 (broadcastInDim S20000 ![] bcast_S_S20000 : (⟨S_, .f32⟩ : BufTy).Contents (Elt F) → (⟨S20000, .f32⟩ : BufTy).Contents (Elt F)),
    StableHlo.binary main_v120 main_v117 main_v121 (Host.divf : (⟨S20000, .f32⟩ : BufTy).Contents (Elt F) → (⟨S20000, .f32⟩ : BufTy).Contents (Elt F) → (⟨S20000, .f32⟩ : BufTy).Contents (Elt F)),
    StableHlo.nullary main_cst_29 (constant S_ .f32 0x00000000#32),
    StableHlo.TRef.unary (.of main_cst_29 : StableHlo.TRef sig ⟨S_, .f32⟩) main_call4.v0 id,
    StableHlo.TRef.unary main_call4.v0 main_call4.v1 (broadcastInDim S20000 ![] bcast_S_S20000),
    StableHlo.TRef.ternary (.of main_v119 : StableHlo.TRef sig ⟨S20000, .i1⟩) (.of main_v121 : StableHlo.TRef sig ⟨S20000, .f32⟩) main_call4.v1 main_call4.v2 select,
    StableHlo.unary main_v53 main_v123 (broadcastInDim S2560000x1 ![0] bcast_S2560000_S2560000x1_0 : (⟨S2560000, .f32⟩ : BufTy).Contents (Elt F) → (⟨S2560000x1, .f32⟩ : BufTy).Contents (Elt F)),
    StableHlo.nullary main_c_30 (constantI S_ 32 0#32),
    StableHlo.unary main_c_30 main_v124 (broadcastInDim S2560000 ![] bcast_S_S2560000 : (⟨S_, .i32⟩ : BufTy).Contents (Elt F) → (⟨S2560000, .i32⟩ : BufTy).Contents (Elt F)),
    StableHlo.binary main_v44 main_v124 main_v125 (cmpi .slt : (⟨S2560000, .i32⟩ : BufTy).Contents (Elt F) → (⟨S2560000, .i32⟩ : BufTy).Contents (Elt F) → (⟨S2560000, .i1⟩ : BufTy).Contents (Elt F)),
    StableHlo.nullary main_c_31 (constantI S_ 32 40000#32),
    StableHlo.unary main_c_31 main_v126 (broadcastInDim S2560000 ![] bcast_S_S2560000 : (⟨S_, .i32⟩ : BufTy).Contents (Elt F) → (⟨S2560000, .i32⟩ : BufTy).Contents (Elt F)),
    StableHlo.binary main_v44 main_v126 main_v127 (addi : (⟨S2560000, .i32⟩ : BufTy).Contents (Elt F) → (⟨S2560000, .i32⟩ : BufTy).Contents (Elt F) → (⟨S2560000, .i32⟩ : BufTy).Contents (Elt F)),
    StableHlo.ternary main_v125 main_v127 main_v44 main_v128 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    StableHlo.unary main_v128 main_v129 (broadcastInDim S2560000x1 ![0] bcast_S2560000_S2560000x1_0 : (⟨S2560000, .i32⟩ : BufTy).Contents (Elt F) → (⟨S2560000x1, .i32⟩ : BufTy).Contents (Elt F)),
    StableHlo.binary main_v105 main_v129 main_v130 ((fun x i => Host.gather gather_S40000x64_S2560000x1_S2560000x64_1_0_n_n_0_1_164 x i) : (⟨S40000x64, .f32⟩ : BufTy).Contents (Elt F) → (⟨S2560000x1, .i32⟩ : BufTy).Contents (Elt F) → (⟨S2560000x64, .f32⟩ : BufTy).Contents (Elt F)),
    StableHlo.unary main_v123 main_v131 (broadcastInDim S2560000x64 ![0, 1] bcast_S2560000x1_S2560000x64_0_1 : (⟨S2560000x1, .f32⟩ : BufTy).Contents (Elt F) → (⟨S2560000x64, .f32⟩ : BufTy).Contents (Elt F)),
    StableHlo.binary main_v131 main_v130 main_v132 (mulf : (⟨S2560000x64, .f32⟩ : BufTy).Contents (Elt F) → (⟨S2560000x64, .f32⟩ : BufTy).Contents (Elt F) → (⟨S2560000x64, .f32⟩ : BufTy).Contents (Elt F)),
    StableHlo.unary main_v122 main_v133 (broadcastInDim S20000x1 ![0] bcast_S20000_S20000x1_0 : (⟨S20000, .f32⟩ : BufTy).Contents (Elt F) → (⟨S20000x1, .f32⟩ : BufTy).Contents (Elt F)),
    StableHlo.nullary main_cst_32 (constant S_ .f32 0x00000000#32),
    StableHlo.unary main_cst_32 main_v134 (broadcastInDim S20000x64 ![] bcast_S_S20000x64 : (⟨S_, .f32⟩ : BufTy).Contents (Elt F) → (⟨S20000x64, .f32⟩ : BufTy).Contents (Elt F)),
    StableHlo.unary main_v52 main_v135 (broadcastInDim S2560000x1 ![0] bcast_S2560000_S2560000x1_0 : (⟨S2560000, .i32⟩ : BufTy).Contents (Elt F) → (⟨S2560000x1, .i32⟩ : BufTy).Contents (Elt F)),
    StableHlo.ternary main_v134 main_v135 main_v132 main_v136 ((fun x i u => Host.scatterAdd scatter_S20000x64_S2560000x1_S2560000x64_1_0_0_1 x i u) : (⟨S20000x64, .f32⟩ : BufTy).Contents (Elt F) → (⟨S2560000x1, .i32⟩ : BufTy).Contents (Elt F) → (⟨S2560000x64, .f32⟩ : BufTy).Contents (Elt F) → (⟨S20000x64, .f32⟩ : BufTy).Contents (Elt F)),
    StableHlo.unary main_v133 main_v137 (broadcastInDim S20000x64 ![0, 1] bcast_S20000x1_S20000x64_0_1 : (⟨S20000x1, .f32⟩ : BufTy).Contents (Elt F) → (⟨S20000x64, .f32⟩ : BufTy).Contents (Elt F)),
    StableHlo.binary main_v137 main_v136 main_v138 (mulf : (⟨S20000x64, .f32⟩ : BufTy).Contents (Elt F) → (⟨S20000x64, .f32⟩ : BufTy).Contents (Elt F) → (⟨S20000x64, .f32⟩ : BufTy).Contents (Elt F)),
    StableHlo.unary main_v53 main_v139 (broadcastInDim S2560000x1 ![0] bcast_S2560000_S2560000x1_0 : (⟨S2560000, .f32⟩ : BufTy).Contents (Elt F) → (⟨S2560000x1, .f32⟩ : BufTy).Contents (Elt F)),
    StableHlo.nullary main_c_33 (constantI S_ 32 0#32),
    StableHlo.unary main_c_33 main_v140 (broadcastInDim S2560000 ![] bcast_S_S2560000 : (⟨S_, .i32⟩ : BufTy).Contents (Elt F) → (⟨S2560000, .i32⟩ : BufTy).Contents (Elt F)),
    StableHlo.binary main_v52 main_v140 main_v141 (cmpi .slt : (⟨S2560000, .i32⟩ : BufTy).Contents (Elt F) → (⟨S2560000, .i32⟩ : BufTy).Contents (Elt F) → (⟨S2560000, .i1⟩ : BufTy).Contents (Elt F)),
    StableHlo.nullary main_c_34 (constantI S_ 32 20000#32),
    StableHlo.unary main_c_34 main_v142 (broadcastInDim S2560000 ![] bcast_S_S2560000 : (⟨S_, .i32⟩ : BufTy).Contents (Elt F) → (⟨S2560000, .i32⟩ : BufTy).Contents (Elt F)) ]
theorem p11_sub : (p11 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., nullary_bufs_sub .., unary_bufs_sub .., unary_bufs_sub .., ternary_bufs_sub .., unary_bufs_sub .., binary_bufs_sub .., unary_bufs_sub .., nullary_bufs_sub .., unary_bufs_sub .., binary_bufs_sub .., nullary_bufs_sub .., unary_bufs_sub ..⟩

/-- Statements 181 … 194 of @main (%143 … %155): 14 operations. -/
abbrev p12 : List (HloOp τ sig (Elt F)) :=
  [ StableHlo.binary main_v52 main_v142 main_v143 (addi : (⟨S2560000, .i32⟩ : BufTy).Contents (Elt F) → (⟨S2560000, .i32⟩ : BufTy).Contents (Elt F) → (⟨S2560000, .i32⟩ : BufTy).Contents (Elt F)),
    StableHlo.ternary main_v141 main_v143 main_v52 main_v144 (select : (⟨S2560000, .i1⟩ : BufTy).Contents (Elt F) → (⟨S2560000, .i32⟩ : BufTy).Contents (Elt F) → (⟨S2560000, .i32⟩ : BufTy).Contents (Elt F) → (⟨S2560000, .i32⟩ : BufTy).Contents (Elt F)),
    StableHlo.unary main_v144 main_v145 (broadcastInDim S2560000x1 ![0] bcast_S2560000_S2560000x1_0 : (⟨S2560000, .i32⟩ : BufTy).Contents (Elt F) → (⟨S2560000x1, .i32⟩ : BufTy).Contents (Elt F)),
    StableHlo.binary main_v138 main_v145 main_v146 ((fun x i => Host.gather gather_S20000x64_S2560000x1_S2560000x64_1_0_n_n_0_1_164 x i) : (⟨S20000x64, .f32⟩ : BufTy).Contents (Elt F) → (⟨S2560000x1, .i32⟩ : BufTy).Contents (Elt F) → (⟨S2560000x64, .f32⟩ : BufTy).Contents (Elt F)),
    StableHlo.unary main_v139 main_v147 (broadcastInDim S2560000x64 ![0, 1] bcast_S2560000x1_S2560000x64_0_1 : (⟨S2560000x1, .f32⟩ : BufTy).Contents (Elt F) → (⟨S2560000x64, .f32⟩ : BufTy).Contents (Elt F)),
    StableHlo.binary main_v147 main_v146 main_v148 (mulf : (⟨S2560000x64, .f32⟩ : BufTy).Contents (Elt F) → (⟨S2560000x64, .f32⟩ : BufTy).Contents (Elt F) → (⟨S2560000x64, .f32⟩ : BufTy).Contents (Elt F)),
    StableHlo.unary main_v114 main_v149 (broadcastInDim S40000x1 ![0] bcast_S40000_S40000x1_0 : (⟨S40000, .f32⟩ : BufTy).Contents (Elt F) → (⟨S40000x1, .f32⟩ : BufTy).Contents (Elt F)),
    StableHlo.nullary main_cst_35 (constant S_ .f32 0x00000000#32),
    StableHlo.unary main_cst_35 main_v150 (broadcastInDim S40000x64 ![] bcast_S_S40000x64 : (⟨S_, .f32⟩ : BufTy).Contents (Elt F) → (⟨S40000x64, .f32⟩ : BufTy).Contents (Elt F)),
    StableHlo.unary main_v44 main_v151 (broadcastInDim S2560000x1 ![0] bcast_S2560000_S2560000x1_0 : (⟨S2560000, .i32⟩ : BufTy).Contents (Elt F) → (⟨S2560000x1, .i32⟩ : BufTy).Contents (Elt F)),
    StableHlo.ternary main_v150 main_v151 main_v148 main_v152 ((fun x i u => Host.scatterAdd scatter_S40000x64_S2560000x1_S2560000x64_1_0_0_1 x i u) : (⟨S40000x64, .f32⟩ : BufTy).Contents (Elt F) → (⟨S2560000x1, .i32⟩ : BufTy).Contents (Elt F) → (⟨S2560000x64, .f32⟩ : BufTy).Contents (Elt F) → (⟨S40000x64, .f32⟩ : BufTy).Contents (Elt F)),
    StableHlo.unary main_v149 main_v153 (broadcastInDim S40000x64 ![0, 1] bcast_S40000x1_S40000x64_0_1 : (⟨S40000x1, .f32⟩ : BufTy).Contents (Elt F) → (⟨S40000x64, .f32⟩ : BufTy).Contents (Elt F)),
    StableHlo.binary main_v153 main_v152 main_v154 (mulf : (⟨S40000x64, .f32⟩ : BufTy).Contents (Elt F) → (⟨S40000x64, .f32⟩ : BufTy).Contents (Elt F) → (⟨S40000x64, .f32⟩ : BufTy).Contents (Elt F)),
    StableHlo.reshape main_v154 main_v155 rfl shapeCasts_S40000x64_S10000x256 ]
theorem p12_sub : (p12 : List (HloOp τ sig (Elt F))).Forall fun op => op.bufs ⊆ tcRefs τ sig :=
  ⟨binary_bufs_sub .., ternary_bufs_sub .., unary_bufs_sub .., binary_bufs_sub .., unary_bufs_sub .., binary_bufs_sub .., unary_bufs_sub .., nullary_bufs_sub .., unary_bufs_sub .., unary_bufs_sub .., ternary_bufs_sub .., unary_bufs_sub .., binary_bufs_sub .., reshape_bufs_sub ..⟩

/-- Statements 195 … 195 of @main (%156 … %156): 1 operation. -/
abbrev p13 : List (HloOp τ sig (Elt F)) :=
  [ StableHlo.binary main_v155 main_arg7 main_v156 ((fun l r => Host.dotGeneral dot_S10000x256_S256x40_S10000x40_1_0_0_1_n_n none l r) : (⟨S10000x256, .f32⟩ : BufTy).Contents (Elt F) → (⟨S256x40, .f32⟩ : BufTy).Contents (Elt F) → (⟨S10000x40, .f32⟩ : BufTy).Contents (Elt F)) ]
theorem p13_sub : (p13 : List (HloOp τ sig (Elt F))).Forall fun op => op.bufs ⊆ tcRefs τ sig :=
  binary_bufs_sub ..

end Cert.ReferenceIdeal.RefRun

end
-- ==== Proof.RefRun.lean ====
/-
  The reference's run.

  Each of the printed program's four windows is the straight line of its pieces (the outlined functions unfolded at
  their calls), so @main is the straight line of all fourteen pieces, and every weakly fair execution from any memory
  terminates with every buffer at the fold of that list over the launch contents. The fold over a concatenation is
  the fold over the second list from the fold over the first, which is how the later modules walk through it one
  stretch at a time.
-/
import proofs.«157253_j2594160246967_1_alg».proof.Proof.RefOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the printed program's first window. -/
abbrev w0 : List (HloOp τ sig (Elt F)) := p0 ++ (p1 ++ (p2 ++ (p3 ++ (p4 ++ p5))))
/-- Its second window. -/
abbrev w1 : List (HloOp τ sig (Elt F)) := p6 ++ (p7 ++ p8)
/-- Its third window. -/
abbrev w2 : List (HloOp τ sig (Elt F)) := p9 ++ (p10 ++ p11)
/-- Its fourth window. -/
abbrev w3 : List (HloOp τ sig (Elt F)) := p12 ++ p13
/-- All of @main's operations, in order. -/
abbrev ops : List (HloOp τ sig (Elt F)) := w0 ++ (w1 ++ (w2 ++ w3))

set_option maxRecDepth 65536 in
theorem part0_eq (c : Dev nD) : main_part0 (F := F) c = seq w0 := rfl

set_option maxRecDepth 65536 in
theorem part1_eq (c : Dev nD) : main_part1 (F := F) c = seq w1 := by
  simp only [main_part1, fn_where.body, fn_where_0.body, w1, p6, p7, p8, List.cons_append, List.nil_append, seq, bind_assoc,
    pure_bind]
  rfl

set_option maxRecDepth 65536 in
theorem part2_eq (c : Dev nD) : main_part2 (F := F) c = seq w2 := by
  simp only [main_part2, fn_where.body, fn_where_0.body, fn_where_1.body, fn_where_2.body, fn_elu.body, w2, p9, p10, p11,
    List.cons_append, List.nil_append, seq, bind_assoc, pure_bind]
  rfl

set_option maxRecDepth 65536 in
theorem part3_eq (c : Dev nD) : main_part3 (F := F) c = seq w3 := rfl

/-- @main is the straight line of its operations. -/
theorem main_eq (c : Dev nD) : main (F := F) c = seq ops := by
  unfold main
  rw [part0_eq, part1_eq, part2_eq, part3_eq, seq_append w0, seq_append w1, seq_append w2]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, w0, w1, w2, w3, List.forall_append]
  exact ⟨⟨p0_sub, p1_sub, p2_sub, p3_sub, p4_sub, p5_sub⟩, ⟨p6_sub, p7_sub, p8_sub⟩, ⟨p9_sub, p10_sub, p11_sub⟩, p12_sub, p13_sub⟩

/-- From any memory with zero counters every weakly fair execution of @main terminates, and every final state has each
    TensorCore buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefArgs.lean ====
/-
  The reference leaves its arguments alone.

  No operation of the reference writes an argument array: the fold of the whole operation list, read at an argument's
  buffer, is what was there at launch. Together with the run this gives the reference's frame.
-/
import proofs.«157253_j2594160246967_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over the whole list is the fold over its pieces in turn. -/
theorem after_ops (V : Valuation τ sig (Elt F)) : after ops V
    = after p13 (after p12 (after p11 (after p10 (after p9 (after p8 (after p7 (after p6 (after p5 (after p4 (after p3
        (after p2 (after p1 (after p0 V))))))))))))) := by
  simp only [ops, w0, w1, w2, w3, StableHlo.after_append]

set_option maxHeartbeats 0 in
/-- Every argument's buffer is as launched after the whole list. -/
theorem args_kept (V : Valuation τ sig (Elt F)) :
    ∀ b ∈ [main_arg0, main_arg1, main_arg2, main_arg3, main_arg4, main_arg5, main_arg6, main_arg7],
      after ops V (Proc.devRef .tc b) = V (Proc.devRef .tc b) := by
  intro b hb
  rw [after_ops]
  simp only [List.mem_cons, List.not_mem_nil, or_false] at hb
  rcases hb with rfl | rfl | rfl | rfl | rfl | rfl | rfl | rfl <;> after_results_simp

end Cert.ReferenceIdeal.RefRun

end
-- ==== Proof.BridgeBase.lean ====
/-
  Both programs apply the same host operations between their matrix products; only the buffers' names differ.

  A stretch of host operations is a fold over buffer contents: each operation rewrites the buffer it writes with its
  function of the buffers it reads. So when the kernel program's buffers and the reference's hold equal arrays where a
  stretch reads, they hold equal arrays where it writes: both folds unroll to the same composition of array functions
  over equal leaves. This module has the two valuations' types and the one congruence the unrolling cannot do by itself
  (a concatenation takes its pieces as a list of shape–array pairs, under a side condition on that list).
-/
import proofs.«157253_j2594160246967_1_alg».proof.KernelIdeal
import proofs.«157253_j2594160246967_1_alg».proof.ReferenceIdeal
import Idealize.ShloMosaic.Lib.StableHlo.Run
import Idealize.ShloMosaic.PureOps.Ideal

noncomputable section

namespace Cert.Bridge

open Idealize.ShloMosaic Idealize.ShloMosaic.StableHlo

/-- Buffer contents of the kernel program's TensorCore. -/
abbrev KVal := Valuation Cert.KernelIdeal.τ Cert.KernelIdeal.sig (Elt Ideal)
/-- Buffer contents of the reference program's TensorCore. -/
abbrev RVal := Valuation Cert.ReferenceIdeal.τ Cert.ReferenceIdeal.sig (Elt Ideal)

/-- Two concatenations of two pieces each are equal when the pieces are. -/
theorem concat2_eq {α : Type} (t : Shape) (a : Fin t.rank) (s1 s2 : Shape) (x x' : s1.Idx → α) (y y' : s2.Idx → α)
    (h : Shape.Concatenates (([⟨s1, x⟩, ⟨s2, y⟩] : List ((s : Shape) × (s.Idx → α))).map (·.1)) t a)
    (h' : Shape.Concatenates (([⟨s1, x'⟩, ⟨s2, y'⟩] : List ((s : Shape) × (s.Idx → α))).map (·.1)) t a)
    (hx : x = x') (hy : y = y') :
    concatenate t a [⟨s1, x⟩, ⟨s2, y⟩] h = concatenate t a [⟨s1, x'⟩, ⟨s2, y'⟩] h' := by
  subst hx; subst hy; rfl

end Cert.Bridge

end
-- ==== Proof.BridgeEarly.lean ====
/-
  The host stretches before the third matrix product, read the same way in both programs.

  Stretch 1 re-lays the node features [10000, 256] as [40000, 64]. Stretch 2 re-lays the hyperedge features, cuts the
  incidence list into its row and column index vectors, wraps negative indices, gathers a node row and a hyperedge row
  per incidence entry and lays the two side by side. Stretch 3 expands each incidence entry to its d × d block of
  row and column indices (4 · index + offset) and flattens the sheaf's logistic weights. In each stretch both programs
  apply the same operations, so the arrays they write agree when the arrays they read do.
-/
import proofs.«157253_j2594160246967_1_alg».proof.Proof.Gen.KernelIdeal.Launch
import proofs.«157253_j2594160246967_1_alg».proof.Proof.RefOps
import proofs.«157253_j2594160246967_1_alg».proof.Proof.BridgeBase

noncomputable section

namespace Cert.Bridge

open Idealize.ShloMosaic Idealize.ShloMosaic.StableHlo

local macro "kr(" b:term ")" : term => `((Proc.devRef .tc $b : DevRef Cert.KernelIdeal.τ Cert.KernelIdeal.sig))
local macro "rr(" b:term ")" : term => `((Proc.devRef .tc $b : DevRef Cert.ReferenceIdeal.τ Cert.ReferenceIdeal.sig))

variable (W : KVal) (R : RVal)

/-! ## Stretch 1 -/

theorem s1_v1 (h0 : W kr(Cert.KernelIdeal.main_v0) = R rr(Cert.ReferenceIdeal.main_v0)) :
    after (Cert.KernelIdeal.Gen.hostOps1 (F := Ideal)) W kr(Cert.KernelIdeal.main_v1) = after (Cert.ReferenceIdeal.RefRun.p1 (F := Ideal)) R rr(Cert.ReferenceIdeal.main_v1) := by
  after_results_simp
  rw [h0]
  rfl

/-- No operation of this stretch writes an argument array. -/
theorem s1_keepK : ∀ b ∈ [Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7], after (Cert.KernelIdeal.Gen.hostOps1 (F := Ideal)) (W) kr(b) = W kr(b) := by
  intro b hb
  simp only [List.mem_cons, List.not_mem_nil, or_false] at hb
  rcases hb with rfl | rfl | rfl | rfl | rfl | rfl | rfl <;> after_results_simp

/-- No operation of this stretch writes an argument array. -/
theorem s1_keepR : ∀ b ∈ [Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7], after (Cert.ReferenceIdeal.RefRun.p1 (F := Ideal)) (R) rr(b) = R rr(b) := by
  intro b hb
  simp only [List.mem_cons, List.not_mem_nil, or_false] at hb
  rcases hb with rfl | rfl | rfl | rfl | rfl | rfl | rfl <;> after_results_simp

/-! ## Stretch 2 -/

theorem s2_v22 (h1 : W kr(Cert.KernelIdeal.main_v1) = R rr(Cert.ReferenceIdeal.main_v1)) (h2 : W kr(Cert.KernelIdeal.main_v2) = R rr(Cert.ReferenceIdeal.main_v2))
    (ha : W kr(Cert.KernelIdeal.main_arg2) = R rr(Cert.ReferenceIdeal.main_arg2)) :
    after (Cert.KernelIdeal.Gen.hostOps2 (F := Ideal)) W kr(Cert.KernelIdeal.main_v22) = after (Cert.ReferenceIdeal.RefRun.p3 (F := Ideal)) R rr(Cert.ReferenceIdeal.main_v22) := by
  simp only [after_cons, after_nil]
  conv_lhs => rw [binary_result]
  conv_rhs => rw [binary_result]
  refine concat2_eq _ _ _ _ _ _ _ _ _ _ ?_ ?_
  · after_results_simp
    rw [h1, ha]
    rfl
  · after_results_simp
    rw [h2, ha]
    rfl

theorem s2_v5 (ha : W kr(Cert.KernelIdeal.main_arg2) = R rr(Cert.ReferenceIdeal.main_arg2)) :
    after (Cert.KernelIdeal.Gen.hostOps2 (F := Ideal)) W kr(Cert.KernelIdeal.main_v5) = after (Cert.ReferenceIdeal.RefRun.p3 (F := Ideal)) R rr(Cert.ReferenceIdeal.main_v5) := by
  after_results_simp
  rw [ha]
  rfl

theorem s2_v7 (ha : W kr(Cert.KernelIdeal.main_arg2) = R rr(Cert.ReferenceIdeal.main_arg2)) :
    after (Cert.KernelIdeal.Gen.hostOps2 (F := Ideal)) W kr(Cert.KernelIdeal.main_v7) = after (Cert.ReferenceIdeal.RefRun.p3 (F := Ideal)) R rr(Cert.ReferenceIdeal.main_v7) := by
  after_results_simp
  rw [ha]
  rfl

theorem s2_v1 (h1 : W kr(Cert.KernelIdeal.main_v1) = R rr(Cert.ReferenceIdeal.main_v1)) :
    after (Cert.KernelIdeal.Gen.hostOps2 (F := Ideal)) W kr(Cert.KernelIdeal.main_v1) = after (Cert.ReferenceIdeal.RefRun.p3 (F := Ideal)) R rr(Cert.ReferenceIdeal.main_v1) := by
  after_results_simp
  exact h1

/-- No operation of this stretch writes an argument array. -/
theorem s2_keepK : ∀ b ∈ [Cert.KernelIdeal.main_arg4, Cert.KernelIdeal.main_arg5, Cert.KernelIdeal.main_arg6, Cert.KernelIdeal.main_arg7], after (Cert.KernelIdeal.Gen.hostOps2 (F := Ideal)) (W) kr(b) = W kr(b) := by
  intro b hb
  simp only [List.mem_cons, List.not_mem_nil, or_false] at hb
  rcases hb with rfl | rfl | rfl | rfl <;> after_results_simp

/-- No operation of this stretch writes an argument array. -/
theorem s2_keepR : ∀ b ∈ [Cert.ReferenceIdeal.main_arg4, Cert.ReferenceIdeal.main_arg5, Cert.ReferenceIdeal.main_arg6, Cert.ReferenceIdeal.main_arg7], after (Cert.ReferenceIdeal.RefRun.p3 (F := Ideal)) (R) rr(b) = R rr(b) := by
  intro b hb
  simp only [List.mem_cons, List.not_mem_nil, or_false] at hb
  rcases hb with rfl | rfl | rfl | rfl <;> after_results_simp

/-! ## Stretch 3 -/

theorem s3_v38 (h5 : W kr(Cert.KernelIdeal.main_v5) = R rr(Cert.ReferenceIdeal.main_v5)) :
    after (Cert.KernelIdeal.Gen.hostOps3 (F := Ideal)) W kr(Cert.KernelIdeal.main_v38) = after (Cert.ReferenceIdeal.RefRun.p6 (F := Ideal)) (after (Cert.ReferenceIdeal.RefRun.p5 (F := Ideal)) (R)) rr(Cert.ReferenceIdeal.main_v44) := by
  after_results_simp
  rw [h5]
  rfl

theorem s3_v46 (h7 : W kr(Cert.KernelIdeal.main_v7) = R rr(Cert.ReferenceIdeal.main_v7)) :
    after (Cert.KernelIdeal.Gen.hostOps3 (F := Ideal)) W kr(Cert.KernelIdeal.main_v46) = after (Cert.ReferenceIdeal.RefRun.p6 (F := Ideal)) (after (Cert.ReferenceIdeal.RefRun.p5 (F := Ideal)) (R)) rr(Cert.ReferenceIdeal.main_v52) := by
  after_results_simp
  rw [h7]
  rfl

theorem s3_v47 (h23 : W kr(Cert.KernelIdeal.main_v23) = R rr(Cert.ReferenceIdeal.main_v29)) :
    after (Cert.KernelIdeal.Gen.hostOps3 (F := Ideal)) W kr(Cert.KernelIdeal.main_v47) = after (Cert.ReferenceIdeal.RefRun.p6 (F := Ideal)) (after (Cert.ReferenceIdeal.RefRun.p5 (F := Ideal)) (R)) rr(Cert.ReferenceIdeal.main_v53) := by
  after_results_simp
  rw [h23]
  rfl

theorem s3_v1 (h1 : W kr(Cert.KernelIdeal.main_v1) = R rr(Cert.ReferenceIdeal.main_v1)) :
    after (Cert.KernelIdeal.Gen.hostOps3 (F := Ideal)) W kr(Cert.KernelIdeal.main_v1) = after (Cert.ReferenceIdeal.RefRun.p6 (F := Ideal)) (after (Cert.ReferenceIdeal.RefRun.p5 (F := Ideal)) (R)) rr(Cert.ReferenceIdeal.main_v1) := by
  after_results_simp
  exact h1

/-- No operation of this stretch writes an argument array. -/
theorem s3_keepK : ∀ b ∈ [Cert.KernelIdeal.main_arg5, Cert.KernelIdeal.main_arg6, Cert.KernelIdeal.main_arg7], after (Cert.KernelIdeal.Gen.hostOps3 (F := Ideal)) (W) kr(b) = W kr(b) := by
  intro b hb
  simp only [List.mem_cons, List.not_mem_nil, or_false] at hb
  rcases hb with rfl | rfl | rfl <;> after_results_simp

/-- No operation of this stretch writes an argument array. -/
theorem s3_keepR : ∀ b ∈ [Cert.ReferenceIdeal.main_arg5, Cert.ReferenceIdeal.main_arg6, Cert.ReferenceIdeal.main_arg7],
    after (Cert.ReferenceIdeal.RefRun.p6 (F := Ideal)) (after (Cert.ReferenceIdeal.RefRun.p5 (F := Ideal)) (R)) rr(b) = R rr(b) := by
  intro b hb
  simp only [List.mem_cons, List.not_mem_nil, or_false] at hb
  rcases hb with rfl | rfl | rfl <;> after_results_simp

end Cert.Bridge

end
-- ==== Proof.BridgeConvA.lean ====
/-
  The first sheaf convolution and the exponential-linear unit, read the same way in both programs.

  From the projected node features xw, the expanded row and column indices and the flattened sheaf weights α, the
  stretch counts the row and column degrees by scatter-adding ones, takes their reciprocals where positive (zero
  elsewhere), gathers xw by row, scales by α, scatter-adds by column and scales by the inverse column degree; then
  gathers that by column, scales by α, scatter-adds by row and scales by the inverse row degree; and applies
  x ↦ x if x > 0, expm1 x otherwise. Both programs apply these same operations, so the array they end with agrees when
  the four arrays they start from do.
-/
import proofs.«157253_j2594160246967_1_alg».proof.Proof.Gen.KernelIdeal.Launch
import proofs.«157253_j2594160246967_1_alg».proof.Proof.RefOps
import proofs.«157253_j2594160246967_1_alg».proof.Proof.BridgeBase

noncomputable section

namespace Cert.Bridge

open Idealize.ShloMosaic Idealize.ShloMosaic.StableHlo

local macro "kr(" b:term ")" : term => `((Proc.devRef .tc $b : DevRef Cert.KernelIdeal.τ Cert.KernelIdeal.sig))
local macro "rr(" b:term ")" : term => `((Proc.devRef .tc $b : DevRef Cert.ReferenceIdeal.τ Cert.ReferenceIdeal.sig))

variable (W : KVal) (R : RVal)

set_option maxHeartbeats 0 in
theorem s4_v98 (h38 : W kr(Cert.KernelIdeal.main_v38) = R rr(Cert.ReferenceIdeal.main_v44)) (h46 : W kr(Cert.KernelIdeal.main_v46) = R rr(Cert.ReferenceIdeal.main_v52))
    (h47 : W kr(Cert.KernelIdeal.main_v47) = R rr(Cert.ReferenceIdeal.main_v53)) (h48 : W kr(Cert.KernelIdeal.main_v48) = R rr(Cert.ReferenceIdeal.main_v54)) :
    after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) W))))) kr(Cert.KernelIdeal.main_v98) = after (Cert.ReferenceIdeal.RefRun.p9 (F := Ideal)) (after (Cert.ReferenceIdeal.RefRun.p8 (F := Ideal)) (R)) rr(Cert.ReferenceIdeal.main_v104) := by
  after_results_simp
  rw [h38, h46, h47, h48]
  rfl

set_option maxHeartbeats 0 in
theorem s4_v38 (h38 : W kr(Cert.KernelIdeal.main_v38) = R rr(Cert.ReferenceIdeal.main_v44)) :
    after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) W))))) kr(Cert.KernelIdeal.main_v38) = after (Cert.ReferenceIdeal.RefRun.p9 (F := Ideal)) (after (Cert.ReferenceIdeal.RefRun.p8 (F := Ideal)) (R)) rr(Cert.ReferenceIdeal.main_v44) := by
  after_results_simp
  exact h38

set_option maxHeartbeats 0 in
theorem s4_v46 (h46 : W kr(Cert.KernelIdeal.main_v46) = R rr(Cert.ReferenceIdeal.main_v52)) :
    after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) W))))) kr(Cert.KernelIdeal.main_v46) = after (Cert.ReferenceIdeal.RefRun.p9 (F := Ideal)) (after (Cert.ReferenceIdeal.RefRun.p8 (F := Ideal)) (R)) rr(Cert.ReferenceIdeal.main_v52) := by
  after_results_simp
  exact h46

set_option maxHeartbeats 0 in
theorem s4_v47 (h47 : W kr(Cert.KernelIdeal.main_v47) = R rr(Cert.ReferenceIdeal.main_v53)) :
    after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) W))))) kr(Cert.KernelIdeal.main_v47) = after (Cert.ReferenceIdeal.RefRun.p9 (F := Ideal)) (after (Cert.ReferenceIdeal.RefRun.p8 (F := Ideal)) (R)) rr(Cert.ReferenceIdeal.main_v53) := by
  after_results_simp
  exact h47

set_option maxHeartbeats 0 in
/-- No operation of this stretch writes an argument array. -/
theorem s4_keepK : ∀ b ∈ [Cert.KernelIdeal.main_arg6, Cert.KernelIdeal.main_arg7],
    after (Cert.KernelIdeal.Gen.hostOps4_5 (F := Ideal)) (after (Cert.KernelIdeal.Gen.hostOps4_4 (F := Ideal)) (after (Cert.KernelIdeal.Gen.hostOps4_3 (F := Ideal)) (after (Cert.KernelIdeal.Gen.hostOps4_2 (F := Ideal)) (after (Cert.KernelIdeal.Gen.hostOps4_1 (F := Ideal)) (after (Cert.KernelIdeal.Gen.hostOps4 (F := Ideal)) W))))) kr(b) = W kr(b) := by
  intro b hb
  simp only [List.mem_cons, List.not_mem_nil, or_false] at hb
  rcases hb with rfl | rfl <;> after_results_simp

set_option maxHeartbeats 0 in
/-- No operation of this stretch writes an argument array. -/
theorem s4_keepR : ∀ b ∈ [Cert.ReferenceIdeal.main_arg6, Cert.ReferenceIdeal.main_arg7],
    after (Cert.ReferenceIdeal.RefRun.p9 (F := Ideal)) (after (Cert.ReferenceIdeal.RefRun.p8 (F := Ideal)) (R)) rr(b) = R rr(b) := by
  intro b hb
  simp only [List.mem_cons, List.not_mem_nil, or_false] at hb
  rcases hb with rfl | rfl <;> after_results_simp

end Cert.Bridge

end
-- ==== Proof.BridgeConvB.lean ====
/-
  The second sheaf convolution, read the same way in both programs.

  The same degree-normalised gather · scale · scatter-add to the hyperedges and back to the nodes as the first, now from
  the second projection, followed by the re-laying of [40000, 64] as [10000, 256]. Both programs apply the same
  operations, so the array they end with agrees when the four arrays they start from do.
-/
import proofs.«157253_j2594160246967_1_alg».proof.Proof.Gen.KernelIdeal.Launch
import proofs.«157253_j2594160246967_1_alg».proof.Proof.RefOps
import proofs.«157253_j2594160246967_1_alg».proof.Proof.BridgeBase

noncomputable section

namespace Cert.Bridge

open Idealize.ShloMosaic Idealize.ShloMosaic.StableHlo

local macro "kr(" b:term ")" : term => `((Proc.devRef .tc $b : DevRef Cert.KernelIdeal.τ Cert.KernelIdeal.sig))
local macro "rr(" b:term ")" : term => `((Proc.devRef .tc $b : DevRef Cert.ReferenceIdeal.τ Cert.ReferenceIdeal.sig))

variable (W : KVal) (R : RVal)

set_option maxHeartbeats 0 in
theorem s5_v149 (h38 : W kr(Cert.KernelIdeal.main_v38) = R rr(Cert.ReferenceIdeal.main_v44)) (h46 : W kr(Cert.KernelIdeal.main_v46) = R rr(Cert.ReferenceIdeal.main_v52))
    (h47 : W kr(Cert.KernelIdeal.main_v47) = R rr(Cert.ReferenceIdeal.main_v53)) (h99 : W kr(Cert.KernelIdeal.main_v99) = R rr(Cert.ReferenceIdeal.main_v105)) :
    after (Cert.KernelIdeal.Gen.hostOps5_4 (F := Ideal)) (after (Cert.KernelIdeal.Gen.hostOps5_3 (F := Ideal)) (after (Cert.KernelIdeal.Gen.hostOps5_2 (F := Ideal)) (after (Cert.KernelIdeal.Gen.hostOps5_1 (F := Ideal)) (after (Cert.KernelIdeal.Gen.hostOps5 (F := Ideal)) W)))) kr(Cert.KernelIdeal.main_v149) = after (Cert.ReferenceIdeal.RefRun.p12 (F := Ideal)) (after (Cert.ReferenceIdeal.RefRun.p11 (F := Ideal)) (R)) rr(Cert.ReferenceIdeal.main_v155) := by
  after_results_simp
  rw [h38, h46, h47, h99]
  rfl

set_option maxHeartbeats 0 in
/-- No operation of this stretch writes an argument array. -/
theorem s5_keepK : ∀ b ∈ [Cert.KernelIdeal.main_arg7],
    after (Cert.KernelIdeal.Gen.hostOps5_4 (F := Ideal)) (after (Cert.KernelIdeal.Gen.hostOps5_3 (F := Ideal)) (after (Cert.KernelIdeal.Gen.hostOps5_2 (F := Ideal)) (after (Cert.KernelIdeal.Gen.hostOps5_1 (F := Ideal)) (after (Cert.KernelIdeal.Gen.hostOps5 (F := Ideal)) W)))) kr(b) = W kr(b) := by
  intro b hb
  simp only [List.mem_cons, List.not_mem_nil, or_false] at hb
  rcases hb with rfl <;> after_results_simp

set_option maxHeartbeats 0 in
/-- No operation of this stretch writes an argument array. -/
theorem s5_keepR : ∀ b ∈ [Cert.ReferenceIdeal.main_arg7],
    after (Cert.ReferenceIdeal.RefRun.p12 (F := Ideal)) (after (Cert.ReferenceIdeal.RefRun.p11 (F := Ideal)) (R)) rr(b) = R rr(b) := by
  intro b hb
  simp only [List.mem_cons, List.not_mem_nil, or_false] at hb
  rcases hb with rfl <;> after_results_simp

end Cert.Bridge

end
-- ==== Proof.LibMatmulPlain.lean ====
/-
  A plain matrix product read at an index written by coordinates.

  For the dimension numbers "rows × contraction times contraction × columns" (`DotDims.plain M K N`: the left operand
  `[M, K]` contracted on its last axis against the first axis of the right operand `[K, N]`, no batch axis), a
  `tpu.matmul` into the zero accumulator, read on the extended reals at `(r, c)`, is the sum over `k` of the left
  operand at `(r, k)` times the right operand at `(k, c)`: the library reads the product as a sum over the dot's own
  contraction index, whose operand indices are named coordinate by coordinate here, and the one-axis contraction index
  is exchanged for `Fin K`.
-/
import Idealize.ShloMosaic.PureOps.Ideal.Laws
import Idealize.ShloMosaic.Lib.ValueIdx

namespace Cert.LibMatmulPlain

open Idealize.ShloMosaic Idealize.ShloMosaic.ValueIdx

variable {M K N : ℕ}

/-- The left operand's index keeps the output's row. -/
theorem lhsIdx_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's index takes the contraction position as its column. -/
theorem lhsIdx_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index takes the contraction position as its row. -/
theorem rhsIdx_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's index keeps the output's column. -/
theorem rhsIdx_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- A plain `[M, K] × [K, N]` product into the zero accumulator, at `(r, c)`: `∑ k, L (r, k) · R (k, c)`. -/
theorem matmul_plain_zero_apply {φ₁ φ₂ : FTy} (prec : Option ContractPrecision)
    (L : FVec Ideal ⟨2, ![M, K]⟩ φ₁) (R : FVec Ideal ⟨2, ![K, N]⟩ φ₂) (r : Fin M) (c : Fin N) :
    FloatOps.matmul (DotDims.plain M K N) prec L R (constant ⟨2, ![M, N]⟩ .f32 0x00000000#32) (ix2 r c)
      = ∑ k : Fin K, L (ix2 r k) * R (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhsIdx_row _ _
      | ⟨1, _⟩ => exact (lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (rhsIdx_row _ _).trans hk
      | ⟨1, _⟩ => exact rhsIdx_col _ _)
  rw [el, er]

end Cert.LibMatmulPlain
-- ==== Proof.LibDotPlain.lean ====
/-
  A plain matrix product of the host read at an index written by coordinates.

  For the dimension numbers "rows × contraction times contraction × columns" (`DotDims.plain M K N`) the host's
  `dot_general`, read on the extended reals at `(r, c)`, is the sum over `k` of the left operand at `(r, k)` times the
  right operand at `(k, c)`, whatever the schedule key: the same reading as the matrix unit's product into a zero
  accumulator, with no accumulator.
-/
import proofs.«157253_j2594160246967_1_alg».proof.Proof.LibMatmulPlain

namespace Cert.LibDotPlain

open Idealize.ShloMosaic Idealize.ShloMosaic.ValueIdx

variable {M K N : ℕ}

/-- A plain `[M, K] × [K, N]` host product at `(r, c)`: `∑ k, L (r, k) · R (k, c)`. -/
theorem dotGeneral_plain_apply {φ₁ φ₂ : FTy} (prec : Option ContractPrecision) (sched : HostSchedule)
    (L : FVec Ideal ⟨2, ![M, K]⟩ φ₁) (R : FVec Ideal ⟨2, ![K, N]⟩ φ₂) (r : Fin M) (c : Fin N) :
    FloatOps.dotGeneral (DotDims.plain M K N) prec sched L R (ix2 r c) = ∑ k : Fin K, L (ix2 r k) * R (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact Cert.LibMatmulPlain.lhsIdx_row _ _
      | ⟨1, _⟩ => exact (Cert.LibMatmulPlain.lhsIdx_col _ _).trans hk)
  have er : (DotDims.plain M K N).rhsIdx (ix2 r c) ((contrEquiv1 (DotDims.plain M K N) K rfl rfl).symm k) = ix2 k c :=
    funext fun a => Fin.ext (by
      match a with
      | ⟨0, _⟩ => exact (Cert.LibMatmulPlain.rhsIdx_row _ _).trans hk
      | ⟨1, _⟩ => exact Cert.LibMatmulPlain.rhsIdx_col _ _)
  rw [el, er]

end Cert.LibDotPlain
-- ==== Proof.LibBlockRows.lean ====
/-
  A dense layer computed one block of rows at a time is the dense layer.

  On the extended reals a matrix product has no schedule: the entry at row `r`, column `c` of `X · W` is
  `∑ k, X (r, k) · W (k, c)` whoever computes it. So when a block `xb` of `B` rows holds rows of `X` (its row `p` is row
  `r` of `X`) and the weight block is the weight matrix, the matrix unit's product of the block into a zero accumulator,
  read at `(p, c)`, is the host's product of the whole matrices read at `(r, c)`: both are that one sum. The operands'
  float formats play no part (a change of format is the identity on the extended reals).
-/
import proofs.«157253_j2594160246967_1_alg».proof.Proof.LibMatmulPlain
import proofs.«157253_j2594160246967_1_alg».proof.Proof.LibDotPlain

namespace Cert.LibBlockRows

open Idealize.ShloMosaic Idealize.ShloMosaic.ValueIdx

/-- Row `p` of a block product is row `r` of the whole product, when row `p` of the block is row `r` of the matrix. -/
theorem block_row {M B K N : ℕ} {φ₁ φ₂ ψ₁ ψ₂ : FTy} (prec prec' : Option ContractPrecision) (sched : HostSchedule)
    (xb : FVec Ideal ⟨2, ![B, K]⟩ φ₁) (wb : FVec Ideal ⟨2, ![K, N]⟩ φ₂)
    (X : FVec Ideal ⟨2, ![M, K]⟩ ψ₁) (Wt : FVec Ideal ⟨2, ![K, N]⟩ ψ₂)
    (p : Fin B) (r : Fin M) (c : Fin N)
    (hx : ∀ k : Fin K, (xb (ix2 p k) : EReal) = X (ix2 r k)) (hw : ∀ k : Fin K, (wb (ix2 k c) : EReal) = Wt (ix2 k c)) :
    FloatOps.matmul (DotDims.plain B K N) prec xb wb (constant (F := Ideal) ⟨2, ![B, N]⟩ .f32 0x00000000#32) (ix2 p c)
      = FloatOps.dotGeneral (DotDims.plain M K N) prec' sched X Wt (ix2 r c) := by
  rw [Cert.LibMatmulPlain.matmul_plain_zero_apply, Cert.LibDotPlain.dotGeneral_plain_apply]
  exact Finset.sum_congr rfl fun k _ => by rw [hx k, hw k]

end Cert.LibBlockRows
-- ==== Proof.RegionValue.lean ====
/-
  Six dense layers computed one block of rows at a time, each read as one matrix product of whole arrays.

  Each of the six regions multiplies an array `X` of `M` rows by a weight matrix `W`, one block of `B` consecutive rows
  per grid point: point `t` is handed rows `B t … B t + B - 1` of `X` and the whole of `W` (the weight window's block
  index is zero at every point), forms the matrix unit's product of the two into a zero accumulator, and writes the result
  back as rows `B t … B t + B - 1` of the output. Region 2 then applies `y ↦ 1 / (1 + exp (0 - y))` to every entry of its
  block before writing it back.

  On the extended reals the entry at row `r`, column `q` of a product is `∑ k, X (r, k) · W (k, q)` whoever computes it: it
  depends on row `r` of `X` and column `q` of `W` and on nothing else, a change of float format is the identity, and no
  order or grouping of the sum is visible. Row `p` of point `t`'s block is row `B t + p` of `X`, so entry `(p, q)` of
  the block's product is entry `(B t + p, q)` of the host's product of the whole arrays: what point `t` writes back is
  block `t` of that one whole-array function. Row `r` of the output lies in the block of point `r / B`, so the blocks
  cover the output, and after the region the output array is the whole product. For region 2 the entrywise tail commutes
  with taking a block; `0 - y = -y` on every extended real, `exp`, the sum and the quotient are the same functions in
  the body and on the host, and the body's splat of the word for 1 is the host's broadcast of the constant with the same
  word, which is therefore never read.

  Per region `K`: `idxK` (the index maps over the grid), `payK` (the body's value at an entry of a block of rows of
  `X`), `blkK_0`, `blkK_1` (the input windows' blocks as rows of the arrays the region finds), `flushedK` (what a
  point writes back), `memK`, `coverK` (the blocks cover the output), `outK` (the array after the region). All are
  stated at arbitrary buffer contents `V` at the region's entry.
-/
import proofs.«157253_j2594160246967_1_alg».proof.Proof.Gen.KernelIdeal.Frame
import proofs.«157253_j2594160246967_1_alg».proof.ReferenceIdeal
import proofs.«157253_j2594160246967_1_alg».proof.Proof.Gen.ReferenceIdeal
import proofs.«157253_j2594160246967_1_alg».proof.Proof.LibBlockRows
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-! ## Region 0: `main_v0 = main_arg0 · main_arg3`, `[10000, 64] · [64, 256]` in 5 blocks of 2000 rows -/

/-- The index maps over the grid: the row windows' block index is the point, the weight window's is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's product of a block whose row `p` is row `r` of `X`, against the weights, at `(p, q)`, is the whole
    product at `(r, q)`. -/
theorem pay0 (x0 : FVec Ideal S2000x64 .f32) (x1 : FVec Ideal S64x256 .f32)
    (X : FVec Ideal Cert.ReferenceIdeal.S10000x64 .f32) (W : FVec Ideal Cert.ReferenceIdeal.S64x256 .f32)
    (p : Fin 2000) (r : Fin 10000) (q : Fin 256)
    (hx : ∀ k : Fin 64, (x0 (ix2 p k) : EReal) = X (ix2 r k)) (hw : ∀ k : Fin 64, (x1 (ix2 k q) : EReal) = W (ix2 k q)) :
    k0_pay1 (F := Ideal) x0 x1 (ix2 p q)
      = Host.dotGeneral (F := Ideal) (φ₁ := .f32) (φ₂ := .f32) Cert.ReferenceIdeal.dot_S10000x64_S64x256_S10000x256_1_0_0_1_n_n none X W (ix2 r q) := by
  unfold k0_pay1
  exact Cert.LibBlockRows.block_row (M := 10000) (B := 2000) (K := 64) (N := 256) none none .single x0 x1 X W p r q hx hw

/-- Row `p` of the row window's block at point `t` is row `2000 t + p` of `main_arg0`. -/
theorem blk0_0 (c : Dev nD) (t : Fin cfg0.N) (p : Fin 2000) (k : Fin 64) (r : Fin 10000) (hr : r.val = 2000 * t.val + p.val) :
    (iblk0 V c 0 t : FVec Ideal S2000x64 .f32) (ix2 p k) = (V c main_arg0 : Cert.ReferenceIdeal.S10000x64.Idx → EReal) (ix2 r k) := by
  obtain ⟨e0, e1, -⟩ := idx0 t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = r.val; rw [e0, hr]; omega
  | ⟨1, _⟩ => show win0_0.index t (1 : Fin 2) * 64 + 1 * k.val = k.val; rw [e1]; omega

/-- The weight window's block at every point is `main_arg3`. -/
theorem blk0_1 (c : Dev nD) (t : Fin cfg0.N) (k : Fin 64) (q : Fin 256) :
    (iblk0 V c 1 t : FVec Ideal S64x256 .f32) (ix2 k q) = (V c main_arg3 : Cert.ReferenceIdeal.S64x256.Idx → EReal) (ix2 k q) := by
  obtain ⟨-, -, e2, e3, -⟩ := idx0 t
  unfold iblk0
  rw [View.read_apply]
  show V c main_arg3 _ = V c main_arg3 _
  refine congrArg (V c main_arg3) ?_
  funext a
  apply Fin.ext
  match a with
  | ⟨0, _⟩ => show win0_1.index t (0 : Fin 2) * 64 + 1 * k.val = k.val; rw [e2]; omega
  | ⟨1, _⟩ => show win0_1.index t (1 : Fin 2) * 256 + 1 * q.val = q.val; rw [e3]; omega

/-- The host's product of the two whole arrays of region 0. -/
abbrev prod0 (c : Dev nD) : FVec Ideal Cert.ReferenceIdeal.S10000x256 .f32 :=
  Host.dotGeneral (F := Ideal) (φ₁ := .f32) (φ₂ := .f32) Cert.ReferenceIdeal.dot_S10000x64_S64x256_S10000x256_1_0_0_1_n_n none (V c main_arg0) (V c main_arg3)

/-- What point `t` writes back is block `t` of the whole product. -/
theorem flushed0 (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x256) hz]
  funext j
  obtain ⟨p, q, rfl⟩ : ∃ (p : Fin 2000) (q : Fin 256), j = ix2 p q := ⟨j 0, j 1, eq_ix2 j⟩
  have ht : t.val < 5 := t.isLt
  obtain ⟨-, -, -, -, e4, e5⟩ := idx0 t
  have hemb : ((cfg0.win 2).blk t).view.emb (ix2 p q) = (ix2 (⟨2000 * t.val + p.val, by omega⟩ : Fin 10000) q : Cert.ReferenceIdeal.S10000x256.Idx) := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 256 + 1 * q.val = q.val; rw [e5]; omega
  refine (pay0 (iblk0 V c 0 t) (iblk0 V c 1 t) (V c main_arg0) (V c main_arg3) p ⟨2000 * t.val + p.val, by omega⟩ q
    (fun k => blk0_0 V c t p k ⟨2000 * t.val + p.val, by omega⟩ rfl) (fun k => blk0_1 V c t k q)).trans ?_
  exact congrArg (prod0 V c) hemb.symm

/-- An index is in point `t`'s output block iff each coordinate is in the block's range on its axis. -/
theorem mem0 (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v0).slice (win0_2.rect t)).set ↔ _
  rw [View.set_slice_whole, Rect.mem_set_unit]
  exact Iff.rfl

/-- Row `r` of the output is written by point `r / 2000`. -/
theorem cover0 (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 5 := N_0
  refine ⟨⟨(i 0).val / 2000, by rw [hN]; omega⟩, flush0_2 _, ?_⟩
  rw [mem0]
  obtain ⟨-, -, -, -, e4, e5⟩ := idx0 ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; show (i 0).val / 2000 * 2000 ≤ (i 0).val ∧ (i 0).val < (i 0).val / 2000 * 2000 + 2000; omega
  | ⟨1, _⟩ => show win0_2.index _ (1 : Fin 2) * 256 ≤ (i 1).val ∧ (i 1).val < win0_2.index _ (1 : Fin 2) * 256 + 256; rw [e5]; omega

/-- After region 0 the output array is the host's product of the two whole input arrays. -/
theorem out0 (c : Dev nD) : (Gen.dat0 (F := Ideal) V c).arrAt 2 cfg0.N = Host.dotGeneral (F := Ideal) (φ₁ := .f32) (φ₂ := .f32) Cert.ReferenceIdeal.dot_S10000x64_S64x256_S10000x256_1_0_0_1_n_n none (V c main_arg0) (V c main_arg3) :=
  (dat0 V c).arrAt_eq_of_cover 2 (prod0 V c) (fun t _ => flushed0 V c t) cover0

/-! ## Region 1: `main_v2 = main_arg1 · main_arg3`, `[5000, 64] · [64, 256]` in 5 blocks of 1000 rows -/

/-- The index maps over the grid: the row windows' block index is the point, the weight window's is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's product of a block whose row `p` is row `r` of `X`, against the weights, at `(p, q)`, is the whole
    product at `(r, q)`. -/
theorem pay1 (x0 : FVec Ideal S1000x64 .f32) (x1 : FVec Ideal S64x256 .f32)
    (X : FVec Ideal Cert.ReferenceIdeal.S5000x64 .f32) (W : FVec Ideal Cert.ReferenceIdeal.S64x256 .f32)
    (p : Fin 1000) (r : Fin 5000) (q : Fin 256)
    (hx : ∀ k : Fin 64, (x0 (ix2 p k) : EReal) = X (ix2 r k)) (hw : ∀ k : Fin 64, (x1 (ix2 k q) : EReal) = W (ix2 k q)) :
    k1_pay1 (F := Ideal) x0 x1 (ix2 p q)
      = Host.dotGeneral (F := Ideal) (φ₁ := .f32) (φ₂ := .f32) Cert.ReferenceIdeal.dot_S5000x64_S64x256_S5000x256_1_0_0_1_n_n none X W (ix2 r q) := by
  unfold k1_pay1
  exact Cert.LibBlockRows.block_row (M := 5000) (B := 1000) (K := 64) (N := 256) none none .single x0 x1 X W p r q hx hw

/-- Row `p` of the row window's block at point `t` is row `1000 t + p` of `main_arg1`. -/
theorem blk1_0 (c : Dev nD) (t : Fin cfg1.N) (p : Fin 1000) (k : Fin 64) (r : Fin 5000) (hr : r.val = 1000 * t.val + p.val) :
    (iblk1 V c 0 t : FVec Ideal S1000x64 .f32) (ix2 p k) = (V c main_arg1 : Cert.ReferenceIdeal.S5000x64.Idx → EReal) (ix2 r k) := by
  obtain ⟨e0, e1, -⟩ := idx1 t
  unfold iblk1
  rw [View.read_apply]
  show V c main_arg1 _ = V c main_arg1 _
  refine congrArg (V c main_arg1) ?_
  funext a
  apply Fin.ext
  match a with
  | ⟨0, _⟩ => show win1_0.index t (0 : Fin 2) * 1000 + 1 * p.val = r.val; rw [e0, hr]; omega
  | ⟨1, _⟩ => show win1_0.index t (1 : Fin 2) * 64 + 1 * k.val = k.val; rw [e1]; omega

/-- The weight window's block at every point is `main_arg3`. -/
theorem blk1_1 (c : Dev nD) (t : Fin cfg1.N) (k : Fin 64) (q : Fin 256) :
    (iblk1 V c 1 t : FVec Ideal S64x256 .f32) (ix2 k q) = (V c main_arg3 : Cert.ReferenceIdeal.S64x256.Idx → EReal) (ix2 k q) := by
  obtain ⟨-, -, e2, e3, -⟩ := idx1 t
  unfold iblk1
  rw [View.read_apply]
  show V c main_arg3 _ = V c main_arg3 _
  refine congrArg (V c main_arg3) ?_
  funext a
  apply Fin.ext
  match a with
  | ⟨0, _⟩ => show win1_1.index t (0 : Fin 2) * 64 + 1 * k.val = k.val; rw [e2]; omega
  | ⟨1, _⟩ => show win1_1.index t (1 : Fin 2) * 256 + 1 * q.val = q.val; rw [e3]; omega

/-- The host's product of the two whole arrays of region 1. -/
abbrev prod1 (c : Dev nD) : FVec Ideal Cert.ReferenceIdeal.S5000x256 .f32 :=
  Host.dotGeneral (F := Ideal) (φ₁ := .f32) (φ₂ := .f32) Cert.ReferenceIdeal.dot_S5000x64_S64x256_S5000x256_1_0_0_1_n_n none (V c main_arg1) (V c main_arg3)

/-- What point `t` writes back is block `t` of the whole product. -/
theorem flushed1 (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero hz]
  simp only [View.ld_unit_zero (S := S1000x64) hz, View.ld_unit_zero (S := S64x256) hz]
  funext j
  obtain ⟨p, q, rfl⟩ : ∃ (p : Fin 1000) (q : Fin 256), j = ix2 p q := ⟨j 0, j 1, eq_ix2 j⟩
  have ht : t.val < 5 := t.isLt
  obtain ⟨-, -, -, -, e4, e5⟩ := idx1 t
  have hemb : ((cfg1.win 2).blk t).view.emb (ix2 p q) = (ix2 (⟨1000 * t.val + p.val, by omega⟩ : Fin 5000) q : Cert.ReferenceIdeal.S5000x256.Idx) := by
    funext a
    apply Fin.ext
    match a with
    | ⟨0, _⟩ => show win1_2.index t (0 : Fin 2) * 1000 + 1 * p.val = 1000 * t.val + p.val; rw [e4]; omega
    | ⟨1, _⟩ => show win1_2.index t (1 : Fin 2) * 256 + 1 * q.val = q.val; rw [e5]; omega
  refine (pay1 (iblk1 V c 0 t) (iblk1 V c 1 t) (V c main_arg1) (V c main_arg3) p ⟨1000 * t.val + p.val, by omega⟩ q
    (fun k => blk1_0 V c t p k ⟨1000 * t.val + p.val, by omega⟩ rfl) (fun k => blk1_1 V c t k q)).trans ?_
  exact congrArg (prod1 V c) hemb.symm

/-- An index is in point `t`'s output block iff each coordinate is in the block's range on its axis. -/
theorem mem1 (t : Fin cfg1.N) (i : S5000x256.Idx) :
    i ∈ ((cfg1.win 2).blk t).view.set ↔ ∀ a : Fin 2, win1_2.index t a * S1000x256.size a ≤ (i a).val ∧ (i a).val < win1_2.index t a * S1000x256.size a + S1000x256.size a := by
  show i ∈ ((View.whole main_v2).slice (win1_2.rect t)).set ↔ _
  rw [View.set_slice_whole, Rect.mem_set_unit]
  exact Iff.rfl

/-- Row `r` of the output is written by point `r / 1000`. -/
theorem cover1 (i : S5000x256.Idx) : ∃ t : Fin cfg1.N, (cfg1.win 2).flush t = true ∧ i ∈ ((cfg1.win 2).blk t).view.set := by
  have hi0 : (i 0).val < 5000 := (i 0).isLt
  have hi1 : (i 1).val < 256 := (i 1).isLt
  have hN : cfg1.N = 5 := N_1
  refine ⟨⟨(i 0).val / 1000, by rw [hN]; omega⟩, flush1_2 _, ?_⟩
  rw [mem1]
  obtain ⟨-, -, -, -, e4, e5⟩ := idx1 ⟨(i 0).val / 1000, by rw [hN]; omega⟩
  intro a
  match a with
  | ⟨0, _⟩ => show win1_2.index _ (0 : Fin 2) * 1000 ≤ (i 0).val ∧ (i 0).val < win1_2.index _ (0 : Fin 2) * 1000 + 1000; rw [e4]; show (i 0).val / 1000 * 1000 ≤ (i 0).val ∧ (i 0).val < (i 0).val / 1000 * 1000 + 1000; omega
  | ⟨1, _⟩ => show win1_2.index _ (1 : Fin 2) * 256 ≤ (i 1).val ∧ (i 1).val < win1_2.index _ (1 : Fin 2) * 256 + 256; rw [e5]; omega

/-- After region 1 the output array is the host's product of the two whole input arrays. -/
theorem out1 (c : Dev nD) : (Gen.dat1 (F := Ideal) V c).arrAt 2 cfg1.N = Host.dotGeneral (F := Ideal) (φ₁ := .f32) (φ₂ := .f32) Cert.ReferenceIdeal.dot_S5000x64_S64x256_S5000x256_1_0_0_1_n_n none (V c main_arg1) (V c main_arg3) :=
  (dat1 V c).arrAt_eq_of_cover 2 (prod1 V c) (fun t _ => flushed1 V c t) cover1

/-! ## Region 2: `main_v23 = 1 / (1 + exp (0 - main_v22 · main_arg4))`, `[160000, 128] · [128, 16]` in 80 blocks of 2000 rows -/

/-- The index maps over the grid: the row windows' block index is the point, the weight window's is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's value at `(p, q)` of a block whose row `p` is row `r` of `X`: the product entry is the whole product's at
    `(r, q)`; the kernel's `0 - y` is the host's negation of `y` (`0 - y = -y` on every extended real); `exp`, the sum and
    the quotient are the same functions on both sides; and the kernel's splat of the word for 1 is the host's broadcast of the
    constant with the same word, so the word is never read. -/
theorem pay2 (x0 : FVec Ideal S2000x128 .f32) (x1 : FVec Ideal S128x16 .f32)
    (X : FVec Ideal Cert.ReferenceIdeal.S160000x128 .f32) (W : FVec Ideal Cert.ReferenceIdeal.S128x16 .f32)
    (p : Fin 2000) (r : Fin 160000) (q : Fin 16)
    (hx : ∀ k : Fin 128, (x0 (ix2 p k) : EReal) = X (ix2 r k)) (hw : ∀ k : Fin 128, (x1 (ix2 k q) : EReal) = W (ix2 k q)) :
    k2_pay1 (F := Ideal) x0 x1 (ix2 p q)
      = (Host.divf (F := Ideal) (broadcastInDim Cert.ReferenceIdeal.S160000x16 ![] Cert.ReferenceIdeal.Facts₀.bcast_S_S160000x16 (constant (F := Ideal) Cert.ReferenceIdeal.S_ .f32 0x3F800000#32)) (addf (broadcastInDim Cert.ReferenceIdeal.S160000x16 ![] Cert.ReferenceIdeal.Facts₀.bcast_S_S160000x16 (constant (F := Ideal) Cert.ReferenceIdeal.S_ .f32 0x3F800000#32)) (Host.exp (Host.negf (Host.dotGeneral (F := Ideal) (φ₁ := .f32) (φ₂ := .f32) Cert.ReferenceIdeal.dot_S160000x128_S128x16_S160000x16_1_0_0_1_n_n none X W))))) (ix2 r q) := by
  have hm := Cert.LibBlockRows.block_row (M := 160000) (B := 2000) (K := 128) (N := 16) none none .single x0 x1 X W p r q hx hw
  unfold k2_pay1
  rw [shapeCast_self]
  show Ideal.div (Scalar.ofBits (F := Ideal) .f32 0x3F800000#32) (Scalar.ofBits (F := Ideal) .f32 0x3F800000#32
        + Ideal.exp (FloatOps.subf (FloatOps.ofBits (F := Ideal) .f32 0x00000000#32)
            (FloatOps.matmul (DotDims.plain 2000 128 16) none x0 x1 (constant (F := Ideal) ⟨2, ![2000, 16]⟩ .f32 0x00000000#32) (ix2 p q))))
      = Ideal.div (Scalar.ofBits (F := Ideal) .f32 0x3F800000#32) (Scalar.ofBits (F := Ideal) .f32 0x3F800000#32
        + Ideal.exp (FloatOps.hostNegf (FloatOps.dotGeneral (DotDims.plain 160000 128 16) none .single X W (ix2 r q))))
  rw [Ideal.subf_zero_eq_hostNegf, hm]

/-- Row `p` of the row window's block at point `t` is row `2000 t + p` of `main_v22`. -/
theorem blk2_0 (c : Dev nD) (t : Fin cfg2.N) (p : Fin 2000) (k : Fin 128) (r : Fin 160000) (hr : r.val = 2000 * t.val + p.val) :
    (iblk2 V c 0 t : FVec Ideal S2000x128 .f32) (ix2 p k) = (V c main_v22 : Cert.ReferenceIdeal.S160000x128.Idx → EReal) (ix2 r k) := by
  obtain ⟨e0, e1, -⟩ := idx2 t
  unfold iblk2
  rw [View.read_apply]
  show V c main_v22 _ = V c main_v22 _
  refine congrArg (V c main_v22) ?_
  funext a
  apply Fin.ext
  match a with
  | ⟨0, _⟩ => show win2_0.index t (0 : Fin 2) * 2000 + 1 * p.val = r.val; rw [e0, hr]; omega
  | ⟨1, _⟩ => show win2_0.index t (1 : Fin 2) * 128 + 1 * k.val = k.val; rw [e1]; omega

/-- The weight window's block at every point is `main_arg4`. -/
theorem blk2_1 (c : Dev nD) (t : Fin cfg2.N) (k : Fin 128) (q : Fin 16) :
    (iblk2 V c 1 t : FVec Ideal S128x16 .f32) (ix2 k q) = (V c main_arg4 : Cert.ReferenceIdeal.S128x16.Idx → EReal) (ix2 k q) := by
  obtain ⟨-, -, e2, e3, -⟩ := idx2 t
  unfold iblk2
  rw [View.read_apply]
  show V c main_arg4 _ = V c main_arg4 _
  refine congrArg (V c main_arg4) ?_
  funext a
  apply Fin.ext
  match a with
  | ⟨0, _⟩ => show win2_1.index t (0 : Fin 2) * 128 + 1 * k.val = k.val; rw [e2]; omega
  | ⟨1, _⟩ => show win2_1.index t (1 : Fin 2) * 16 + 1 * q.val = q.val; rw [e3]; omega

/-- The host's `1 / (1 + exp (-(X · W)))` of the two whole arrays of region 2. -/
abbrev res2 (c : Dev nD) : FVec Ideal Cert.ReferenceIdeal.S160000x16 .f32 :=
  Host.divf (F := Ideal) (broadcastInDim Cert.ReferenceIdeal.S160000x16 ![] Cert.ReferenceIdeal.Facts₀.bcast_S_S160000x16 (constant (F := Ideal) Cert.ReferenceIdeal.S_ .f32 0x3F800000#32)) (addf (broadcastInDim Cert.ReferenceIdeal.S160000x16 ![] Cert.ReferenceIdeal.Facts₀.bcast_S_S160000x16 (constant (F := Ideal) Cert.ReferenceIdeal.S_ .f32 0x3F800000#32)) (Host.exp (Host.negf (Host.dotGeneral (F := Ideal) (φ₁ := .f32) (φ₂ := .f32) Cert.ReferenceIdeal.dot_S160000x128_S128x16_S160000x16_1_0_0_1_n_n none (V c main_v22) (V c main_arg4)))))

/-- What point `t` writes back is block `t` of the whole result. -/
theorem flushed2 (c : Dev nD) (t : Fin cfg2.N) :
    (dat2 V c).flushed 2 t = ((cfg2.win 2).blk t).view.read (Elt Ideal) (res2 V c) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x16) hz]
  funext j
  obtain ⟨p, q, rfl⟩ : ∃ (p : Fin 2000) (q : Fin 16), j = ix2 p q := ⟨j 0, j 1, eq_ix2 j⟩
  have ht : t.val < 80 := t.isLt
  obtain ⟨-, -, -, -, e4, e5⟩ := idx2 t
  have hemb : ((cfg2.win 2).blk t).view.emb (ix2 p q) = (ix2 (⟨2000 * t.val + p.val, by omega⟩ : Fin 160000) q : Cert.ReferenceIdeal.S160000x16.Idx) := by
    funext a
    apply Fin.ext
    match a with
    | ⟨0, _⟩ => show win2_2.index t (0 : Fin 2) * 2000 + 1 * p.val = 2000 * t.val + p.val; rw [e4]; omega
    | ⟨1, _⟩ => show win2_2.index t (1 : Fin 2) * 16 + 1 * q.val = q.val; rw [e5]; omega
  refine (pay2 (iblk2 V c 0 t) (iblk2 V c 1 t) (V c main_v22) (V c main_arg4) p ⟨2000 * t.val + p.val, by omega⟩ q
    (fun k => blk2_0 V c t p k ⟨2000 * t.val + p.val, by omega⟩ rfl) (fun k => blk2_1 V c t k q)).trans ?_
  exact congrArg (res2 V c) hemb.symm

/-- An index is in point `t`'s output block iff each coordinate is in the block's range on its axis. -/
theorem mem2 (t : Fin cfg2.N) (i : S160000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v23).slice (win2_2.rect t)).set ↔ _
  rw [View.set_slice_whole, Rect.mem_set_unit]
  exact Iff.rfl

/-- Row `r` of the output is written by point `r / 2000`. -/
theorem cover2 (i : S160000x16.Idx) : ∃ t : Fin cfg2.N, (cfg2.win 2).flush t = true ∧ i ∈ ((cfg2.win 2).blk t).view.set := by
  have hi0 : (i 0).val < 160000 := (i 0).isLt
  have hi1 : (i 1).val < 16 := (i 1).isLt
  have hN : cfg2.N = 80 := N_2
  refine ⟨⟨(i 0).val / 2000, by rw [hN]; omega⟩, flush2_2 _, ?_⟩
  rw [mem2]
  obtain ⟨-, -, -, -, e4, e5⟩ := idx2 ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; show (i 0).val / 2000 * 2000 ≤ (i 0).val ∧ (i 0).val < (i 0).val / 2000 * 2000 + 2000; omega
  | ⟨1, _⟩ => show win2_2.index _ (1 : Fin 2) * 16 ≤ (i 1).val ∧ (i 1).val < win2_2.index _ (1 : Fin 2) * 16 + 16; rw [e5]; omega

/-- After region 2 the output array is the host's `1 / (1 + exp (-(X · W)))` of the two whole input arrays. -/
theorem out2 (c : Dev nD) : (Gen.dat2 (F := Ideal) V c).arrAt 2 cfg2.N = Host.divf (F := Ideal) (broadcastInDim Cert.ReferenceIdeal.S160000x16 ![] Cert.ReferenceIdeal.Facts₀.bcast_S_S160000x16 (constant (F := Ideal) Cert.ReferenceIdeal.S_ .f32 0x3F800000#32)) (addf (broadcastInDim Cert.ReferenceIdeal.S160000x16 ![] Cert.ReferenceIdeal.Facts₀.bcast_S_S160000x16 (constant (F := Ideal) Cert.ReferenceIdeal.S_ .f32 0x3F800000#32)) (Host.exp (Host.negf (Host.dotGeneral (F := Ideal) (φ₁ := .f32) (φ₂ := .f32) Cert.ReferenceIdeal.dot_S160000x128_S128x16_S160000x16_1_0_0_1_n_n none (V c main_v22) (V c main_arg4))))) :=
  (dat2 V c).arrAt_eq_of_cover 2 (res2 V c) (fun t _ => flushed2 V c t) cover2

/-! ## Region 3: `main_v48 = main_v1 · main_arg5`, `[40000, 64] · [64, 64]` in 20 blocks of 2000 rows -/

/-- The index maps over the grid: the row windows' block index is the point, the weight window's is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's product of a block whose row `p` is row `r` of `X`, against the weights, at `(p, q)`, is the whole
    product at `(r, q)`. -/
theorem pay3 (x0 : FVec Ideal S2000x64 .f32) (x1 : FVec Ideal S64x64 .f32)
    (X : FVec Ideal Cert.ReferenceIdeal.S40000x64 .f32) (W : FVec Ideal Cert.ReferenceIdeal.S64x64 .f32)
    (p : Fin 2000) (r : Fin 40000) (q : Fin 64)
    (hx : ∀ k : Fin 64, (x0 (ix2 p k) : EReal) = X (ix2 r k)) (hw : ∀ k : Fin 64, (x1 (ix2 k q) : EReal) = W (ix2 k q)) :
    k3_pay1 (F := Ideal) x0 x1 (ix2 p q)
      = Host.dotGeneral (F := Ideal) (φ₁ := .f32) (φ₂ := .f32) Cert.ReferenceIdeal.dot_S40000x64_S64x64_S40000x64_1_0_0_1_n_n none X W (ix2 r q) := by
  unfold k3_pay1
  rw [shapeCast_self]
  exact Cert.LibBlockRows.block_row (M := 40000) (B := 2000) (K := 64) (N := 64) none none .single x0 x1 X W p r q hx hw

/-- Row `p` of the row window's block at point `t` is row `2000 t + p` of `main_v1`. -/
theorem blk3_0 (c : Dev nD) (t : Fin cfg3.N) (p : Fin 2000) (k : Fin 64) (r : Fin 40000) (hr : r.val = 2000 * t.val + p.val) :
    (iblk3 V c 0 t : FVec Ideal S2000x64 .f32) (ix2 p k) = (V c main_v1 : Cert.ReferenceIdeal.S40000x64.Idx → EReal) (ix2 r k) := by
  obtain ⟨e0, e1, -⟩ := idx3 t
  unfold iblk3
  rw [View.read_apply]
  show V c main_v1 _ = V c main_v1 _
  refine congrArg (V c main_v1) ?_
  funext a
  apply Fin.ext
  match a with
  | ⟨0, _⟩ => show win3_0.index t (0 : Fin 2) * 2000 + 1 * p.val = r.val; rw [e0, hr]; omega
  | ⟨1, _⟩ => show win3_0.index t (1 : Fin 2) * 64 + 1 * k.val = k.val; rw [e1]; omega

/-- The weight window's block at every point is `main_arg5`. -/
theorem blk3_1 (c : Dev nD) (t : Fin cfg3.N) (k : Fin 64) (q : Fin 64) :
    (iblk3 V c 1 t : FVec Ideal S64x64 .f32) (ix2 k q) = (V c main_arg5 : Cert.ReferenceIdeal.S64x64.Idx → EReal) (ix2 k q) := by
  obtain ⟨-, -, e2, e3, -⟩ := idx3 t
  unfold iblk3
  rw [View.read_apply]
  show V c main_arg5 _ = V c main_arg5 _
  refine congrArg (V c main_arg5) ?_
  funext a
  apply Fin.ext
  match a with
  | ⟨0, _⟩ => show win3_1.index t (0 : Fin 2) * 64 + 1 * k.val = k.val; rw [e2]; omega
  | ⟨1, _⟩ => show win3_1.index t (1 : Fin 2) * 64 + 1 * q.val = q.val; rw [e3]; omega

/-- The host's product of the two whole arrays of region 3. -/
abbrev prod3 (c : Dev nD) : FVec Ideal Cert.ReferenceIdeal.S40000x64 .f32 :=
  Host.dotGeneral (F := Ideal) (φ₁ := .f32) (φ₂ := .f32) Cert.ReferenceIdeal.dot_S40000x64_S64x64_S40000x64_1_0_0_1_n_n none (V c main_v1) (V c main_arg5)

/-- What point `t` writes back is block `t` of the whole product. -/
theorem flushed3 (c : Dev nD) (t : Fin cfg3.N) :
    (dat3 V c).flushed 2 t = ((cfg3.win 2).blk t).view.read (Elt Ideal) (prod3 V c) := by
  show (cfg3.win 2).cut (grid3.coords t) ((dat3 V c).after 2 t) = _
  rw [after3_2]
  unfold out3_2
  rw [View.canon_unit_zero hz]
  simp only [View.ld_unit_zero (S := S2000x64) hz, View.ld_unit_zero (S := S64x64) hz]
  funext j
  obtain ⟨p, q, rfl⟩ : ∃ (p : Fin 2000) (q : Fin 64), j = ix2 p q := ⟨j 0, j 1, eq_ix2 j⟩
  have ht : t.val < 20 := t.isLt
  obtain ⟨-, -, -, -, e4, e5⟩ := idx3 t
  have hemb : ((cfg3.win 2).blk t).view.emb (ix2 p q) = (ix2 (⟨2000 * t.val + p.val, by omega⟩ : Fin 40000) q : Cert.ReferenceIdeal.S40000x64.Idx) := by
    funext a
    apply Fin.ext
    match a with
    | ⟨0, _⟩ => show win3_2.index t (0 : Fin 2) * 2000 + 1 * p.val = 2000 * t.val + p.val; rw [e4]; omega
    | ⟨1, _⟩ => show win3_2.index t (1 : Fin 2) * 64 + 1 * q.val = q.val; rw [e5]; omega
  refine (pay3 (iblk3 V c 0 t) (iblk3 V c 1 t) (V c main_v1) (V c main_arg5) p ⟨2000 * t.val + p.val, by omega⟩ q
    (fun k => blk3_0 V c t p k ⟨2000 * t.val + p.val, by omega⟩ rfl) (fun k => blk3_1 V c t k q)).trans ?_
  exact congrArg (prod3 V c) hemb.symm

/-- An index is in point `t`'s output block iff each coordinate is in the block's range on its axis. -/
theorem mem3 (t : Fin cfg3.N) (i : S40000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v48).slice (win3_2.rect t)).set ↔ _
  rw [View.set_slice_whole, Rect.mem_set_unit]
  exact Iff.rfl

/-- Row `r` of the output is written by point `r / 2000`. -/
theorem cover3 (i : S40000x64.Idx) : ∃ t : Fin cfg3.N, (cfg3.win 2).flush t = true ∧ i ∈ ((cfg3.win 2).blk t).view.set := by
  have hi0 : (i 0).val < 40000 := (i 0).isLt
  have hi1 : (i 1).val < 64 := (i 1).isLt
  have hN : cfg3.N = 20 := N_3
  refine ⟨⟨(i 0).val / 2000, by rw [hN]; omega⟩, flush3_2 _, ?_⟩
  rw [mem3]
  obtain ⟨-, -, -, -, e4, e5⟩ := idx3 ⟨(i 0).val / 2000, by rw [hN]; omega⟩
  intro a
  match a with
  | ⟨0, _⟩ => show win3_2.index _ (0 : Fin 2) * 2000 ≤ (i 0).val ∧ (i 0).val < win3_2.index _ (0 : Fin 2) * 2000 + 2000; rw [e4]; show (i 0).val / 2000 * 2000 ≤ (i 0).val ∧ (i 0).val < (i 0).val / 2000 * 2000 + 2000; omega
  | ⟨1, _⟩ => show win3_2.index _ (1 : Fin 2) * 64 ≤ (i 1).val ∧ (i 1).val < win3_2.index _ (1 : Fin 2) * 64 + 64; rw [e5]; omega

/-- After region 3 the output array is the host's product of the two whole input arrays. -/
theorem out3 (c : Dev nD) : (Gen.dat3 (F := Ideal) V c).arrAt 2 cfg3.N = Host.dotGeneral (F := Ideal) (φ₁ := .f32) (φ₂ := .f32) Cert.ReferenceIdeal.dot_S40000x64_S64x64_S40000x64_1_0_0_1_n_n none (V c main_v1) (V c main_arg5) :=
  (dat3 V c).arrAt_eq_of_cover 2 (prod3 V c) (fun t _ => flushed3 V c t) cover3

/-! ## Region 4: `main_v99 = main_v98 · main_arg6`, `[40000, 64] · [64, 64]` in 20 blocks of 2000 rows -/

/-- The index maps over the grid: the row windows' block index is the point, the weight window's is zero. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's product of a block whose row `p` is row `r` of `X`, against the weights, at `(p, q)`, is the whole
    product at `(r, q)`. -/
theorem pay4 (x0 : FVec Ideal S2000x64 .f32) (x1 : FVec Ideal S64x64 .f32)
    (X : FVec Ideal Cert.ReferenceIdeal.S40000x64 .f32) (W : FVec Ideal Cert.ReferenceIdeal.S64x64 .f32)
    (p : Fin 2000) (r : Fin 40000) (q : Fin 64)
    (hx : ∀ k : Fin 64, (x0 (ix2 p k) : EReal) = X (ix2 r k)) (hw : ∀ k : Fin 64, (x1 (ix2 k q) : EReal) = W (ix2 k q)) :
    k4_pay1 (F := Ideal) x0 x1 (ix2 p q)
      = Host.dotGeneral (F := Ideal) (φ₁ := .f32) (φ₂ := .f32) Cert.ReferenceIdeal.dot_S40000x64_S64x64_S40000x64_1_0_0_1_n_n none X W (ix2 r q) := by
  unfold k4_pay1
  rw [shapeCast_self]
  exact Cert.LibBlockRows.block_row (M := 40000) (B := 2000) (K := 64) (N := 64) none none .single x0 x1 X W p r q hx hw

/-- Row `p` of the row window's block at point `t` is row `2000 t + p` of `main_v98`. -/
theorem blk4_0 (c : Dev nD) (t : Fin cfg4.N) (p : Fin 2000) (k : Fin 64) (r : Fin 40000) (hr : r.val = 2000 * t.val + p.val) :
    (iblk4 V c 0 t : FVec Ideal S2000x64 .f32) (ix2 p k) = (V c main_v98 : Cert.ReferenceIdeal.S40000x64.Idx → EReal) (ix2 r k) := by
  obtain ⟨e0, e1, -⟩ := idx4 t
  unfold iblk4
  rw [View.read_apply]
  show V c main_v98 _ = V c main_v98 _
  refine congrArg (V c main_v98) ?_
  funext a
  apply Fin.ext
  match a with
  | ⟨0, _⟩ => show win4_0.index t (0 : Fin 2) * 2000 + 1 * p.val = r.val; rw [e0, hr]; omega
  | ⟨1, _⟩ => show win4_0.index t (1 : Fin 2) * 64 + 1 * k.val = k.val; rw [e1]; omega

/-- The weight window's block at every point is `main_arg6`. -/
theorem blk4_1 (c : Dev nD) (t : Fin cfg4.N) (k : Fin 64) (q : Fin 64) :
    (iblk4 V c 1 t : FVec Ideal S64x64 .f32) (ix2 k q) = (V c main_arg6 : Cert.ReferenceIdeal.S64x64.Idx → EReal) (ix2 k q) := by
  obtain ⟨-, -, e2, e3, -⟩ := idx4 t
  unfold iblk4
  rw [View.read_apply]
  show V c main_arg6 _ = V c main_arg6 _
  refine congrArg (V c main_arg6) ?_
  funext a
  apply Fin.ext
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- The host's product of the two whole arrays of region 4. -/
abbrev prod4 (c : Dev nD) : FVec Ideal Cert.ReferenceIdeal.S40000x64 .f32 :=
  Host.dotGeneral (F := Ideal) (φ₁ := .f32) (φ₂ := .f32) Cert.ReferenceIdeal.dot_S40000x64_S64x64_S40000x64_1_0_0_1_n_n none (V c main_v98) (V c main_arg6)

/-- What point `t` writes back is block `t` of the whole product. -/
theorem flushed4 (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x64) hz]
  funext j
  obtain ⟨p, q, rfl⟩ : ∃ (p : Fin 2000) (q : Fin 64), j = ix2 p q := ⟨j 0, j 1, eq_ix2 j⟩
  have ht : t.val < 20 := t.isLt
  obtain ⟨-, -, -, -, e4, e5⟩ := idx4 t
  have hemb : ((cfg4.win 2).blk t).view.emb (ix2 p q) = (ix2 (⟨2000 * t.val + p.val, by omega⟩ : Fin 40000) q : Cert.ReferenceIdeal.S40000x64.Idx) := by
    funext a
    apply Fin.ext
    match a with
    | ⟨0, _⟩ => show win4_2.index t (0 : Fin 2) * 2000 + 1 * p.val = 2000 * t.val + p.val; rw [e4]; omega
    | ⟨1, _⟩ => show win4_2.index t (1 : Fin 2) * 64 + 1 * q.val = q.val; rw [e5]; omega
  refine (pay4 (iblk4 V c 0 t) (iblk4 V c 1 t) (V c main_v98) (V c main_arg6) p ⟨2000 * t.val + p.val, by omega⟩ q
    (fun k => blk4_0 V c t p k ⟨2000 * t.val + p.val, by omega⟩ rfl) (fun k => blk4_1 V c t k q)).trans ?_
  exact congrArg (prod4 V c) hemb.symm

/-- An index is in point `t`'s output block iff each coordinate is in the block's range on its axis. -/
theorem mem4 (t : Fin cfg4.N) (i : S40000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v99).slice (win4_2.rect t)).set ↔ _
  rw [View.set_slice_whole, Rect.mem_set_unit]
  exact Iff.rfl

/-- Row `r` of the output is written by point `r / 2000`. -/
theorem cover4 (i : S40000x64.Idx) : ∃ t : Fin cfg4.N, (cfg4.win 2).flush t = true ∧ i ∈ ((cfg4.win 2).blk t).view.set := by
  have hi0 : (i 0).val < 40000 := (i 0).isLt
  have hi1 : (i 1).val < 64 := (i 1).isLt
  have hN : cfg4.N = 20 := N_4
  refine ⟨⟨(i 0).val / 2000, by rw [hN]; omega⟩, flush4_2 _, ?_⟩
  rw [mem4]
  obtain ⟨-, -, -, -, e4, e5⟩ := idx4 ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e4]; show (i 0).val / 2000 * 2000 ≤ (i 0).val ∧ (i 0).val < (i 0).val / 2000 * 2000 + 2000; omega
  | ⟨1, _⟩ => show win4_2.index _ (1 : Fin 2) * 64 ≤ (i 1).val ∧ (i 1).val < win4_2.index _ (1 : Fin 2) * 64 + 64; rw [e5]; omega

/-- After region 4 the output array is the host's product of the two whole input arrays. -/
theorem out4 (c : Dev nD) : (Gen.dat4 (F := Ideal) V c).arrAt 2 cfg4.N = Host.dotGeneral (F := Ideal) (φ₁ := .f32) (φ₂ := .f32) Cert.ReferenceIdeal.dot_S40000x64_S64x64_S40000x64_1_0_0_1_n_n none (V c main_v98) (V c main_arg6) :=
  (dat4 V c).arrAt_eq_of_cover 2 (prod4 V c) (fun t _ => flushed4 V c t) cover4

/-! ## Region 5: `main_v150 = main_v149 · main_arg7`, `[10000, 256] · [256, 40]` in 5 blocks of 2000 rows -/

/-- The index maps over the grid: the row windows' block index is the point, the weight window's is zero. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's product of a block whose row `p` is row `r` of `X`, against the weights, at `(p, q)`, is the whole
    product at `(r, q)`. -/
theorem pay5 (x0 : FVec Ideal S2000x256 .f32) (x1 : FVec Ideal S256x40 .f32)
    (X : FVec Ideal Cert.ReferenceIdeal.S10000x256 .f32) (W : FVec Ideal Cert.ReferenceIdeal.S256x40 .f32)
    (p : Fin 2000) (r : Fin 10000) (q : Fin 40)
    (hx : ∀ k : Fin 256, (x0 (ix2 p k) : EReal) = X (ix2 r k)) (hw : ∀ k : Fin 256, (x1 (ix2 k q) : EReal) = W (ix2 k q)) :
    k5_pay1 (F := Ideal) x0 x1 (ix2 p q)
      = Host.dotGeneral (F := Ideal) (φ₁ := .f32) (φ₂ := .f32) Cert.ReferenceIdeal.dot_S10000x256_S256x40_S10000x40_1_0_0_1_n_n none X W (ix2 r q) := by
  unfold k5_pay1
  rw [shapeCast_self]
  exact Cert.LibBlockRows.block_row (M := 10000) (B := 2000) (K := 256) (N := 40) none none .single x0 x1 X W p r q hx hw

/-- Row `p` of the row window's block at point `t` is row `2000 t + p` of `main_v149`. -/
theorem blk5_0 (c : Dev nD) (t : Fin cfg5.N) (p : Fin 2000) (k : Fin 256) (r : Fin 10000) (hr : r.val = 2000 * t.val + p.val) :
    (iblk5 V c 0 t : FVec Ideal S2000x256 .f32) (ix2 p k) = (V c main_v149 : Cert.ReferenceIdeal.S10000x256.Idx → EReal) (ix2 r k) := by
  obtain ⟨e0, e1, -⟩ := idx5 t
  unfold iblk5
  rw [View.read_apply]
  show V c main_v149 _ = V c main_v149 _
  refine congrArg (V c main_v149) ?_
  funext a
  apply Fin.ext
  match a with
  | ⟨0, _⟩ => show win5_0.index t (0 : Fin 2) * 2000 + 1 * p.val = r.val; rw [e0, hr]; omega
  | ⟨1, _⟩ => show win5_0.index t (1 : Fin 2) * 256 + 1 * k.val = k.val; rw [e1]; omega

/-- The weight window's block at every point is `main_arg7`. -/
theorem blk5_1 (c : Dev nD) (t : Fin cfg5.N) (k : Fin 256) (q : Fin 40) :
    (iblk5 V c 1 t : FVec Ideal S256x40 .f32) (ix2 k q) = (V c main_arg7 : Cert.ReferenceIdeal.S256x40.Idx → EReal) (ix2 k q) := by
  obtain ⟨-, -, e2, e3, -⟩ := idx5 t
  unfold iblk5
  rw [View.read_apply]
  show V c main_arg7 _ = V c main_arg7 _
  refine congrArg (V c main_arg7) ?_
  funext a
  apply Fin.ext
  match a with
  | ⟨0, _⟩ => show win5_1.index t (0 : Fin 2) * 256 + 1 * k.val = k.val; rw [e2]; omega
  | ⟨1, _⟩ => show win5_1.index t (1 : Fin 2) * 40 + 1 * q.val = q.val; rw [e3]; omega

/-- The host's product of the two whole arrays of region 5. -/
abbrev prod5 (c : Dev nD) : FVec Ideal Cert.ReferenceIdeal.S10000x40 .f32 :=
  Host.dotGeneral (F := Ideal) (φ₁ := .f32) (φ₂ := .f32) Cert.ReferenceIdeal.dot_S10000x256_S256x40_S10000x40_1_0_0_1_n_n none (V c main_v149) (V c main_arg7)

/-- What point `t` writes back is block `t` of the whole product. -/
theorem flushed5 (c : Dev nD) (t : Fin cfg5.N) :
    (dat5 V c).flushed 2 t = ((cfg5.win 2).blk t).view.read (Elt Ideal) (prod5 V c) := by
  show (cfg5.win 2).cut (grid5.coords t) ((dat5 V c).after 2 t) = _
  rw [after5_2]
  unfold out5_2
  rw [View.canon_unit_zero hz]
  simp only [View.ld_unit_zero (S := S2000x256) hz, View.ld_unit_zero (S := S256x40) hz]
  funext j
  obtain ⟨p, q, rfl⟩ : ∃ (p : Fin 2000) (q : Fin 40), j = ix2 p q := ⟨j 0, j 1, eq_ix2 j⟩
  have ht : t.val < 5 := t.isLt
  obtain ⟨-, -, -, -, e4, e5⟩ := idx5 t
  have hemb : ((cfg5.win 2).blk t).view.emb (ix2 p q) = (ix2 (⟨2000 * t.val + p.val, by omega⟩ : Fin 10000) q : Cert.ReferenceIdeal.S10000x40.Idx) := by
    funext a
    apply Fin.ext
    match a with
    | ⟨0, _⟩ => show win5_2.index t (0 : Fin 2) * 2000 + 1 * p.val = 2000 * t.val + p.val; rw [e4]; omega
    | ⟨1, _⟩ => show win5_2.index t (1 : Fin 2) * 40 + 1 * q.val = q.val; rw [e5]; omega
  refine (pay5 (iblk5 V c 0 t) (iblk5 V c 1 t) (V c main_v149) (V c main_arg7) p ⟨2000 * t.val + p.val, by omega⟩ q
    (fun k => blk5_0 V c t p k ⟨2000 * t.val + p.val, by omega⟩ rfl) (fun k => blk5_1 V c t k q)).trans ?_
  exact congrArg (prod5 V c) hemb.symm

/-- An index is in point `t`'s output block iff each coordinate is in the block's range on its axis. -/
theorem mem5 (t : Fin cfg5.N) (i : S10000x40.Idx) :
    i ∈ ((cfg5.win 2).blk t).view.set ↔ ∀ a : Fin 2, win5_2.index t a * S2000x40.size a ≤ (i a).val ∧ (i a).val < win5_2.index t a * S2000x40.size a + S2000x40.size a := by
  show i ∈ ((View.whole main_v150).slice (win5_2.rect t)).set ↔ _
  rw [View.set_slice_whole, Rect.mem_set_unit]
  exact Iff.rfl

/-- Row `r` of the output is written by point `r / 2000`. -/
theorem cover5 (i : S10000x40.Idx) : ∃ t : Fin cfg5.N, (cfg5.win 2).flush t = true ∧ i ∈ ((cfg5.win 2).blk t).view.set := by
  have hi0 : (i 0).val < 10000 := (i 0).isLt
  have hi1 : (i 1).val < 40 := (i 1).isLt
  have hN : cfg5.N = 5 := N_5
  refine ⟨⟨(i 0).val / 2000, by rw [hN]; omega⟩, flush5_2 _, ?_⟩
  rw [mem5]
  obtain ⟨-, -, -, -, e4, e5⟩ := idx5 ⟨(i 0).val / 2000, by rw [hN]; omega⟩
  intro a
  match a with
  | ⟨0, _⟩ => show win5_2.index _ (0 : Fin 2) * 2000 ≤ (i 0).val ∧ (i 0).val < win5_2.index _ (0 : Fin 2) * 2000 + 2000; rw [e4]; show (i 0).val / 2000 * 2000 ≤ (i 0).val ∧ (i 0).val < (i 0).val / 2000 * 2000 + 2000; omega
  | ⟨1, _⟩ => show win5_2.index _ (1 : Fin 2) * 40 ≤ (i 1).val ∧ (i 1).val < win5_2.index _ (1 : Fin 2) * 40 + 40; rw [e5]; omega

/-- After region 5 the output array is the host's product of the two whole input arrays. -/
theorem out5 (c : Dev nD) : (Gen.dat5 (F := Ideal) V c).arrAt 2 cfg5.N = Host.dotGeneral (F := Ideal) (φ₁ := .f32) (φ₂ := .f32) Cert.ReferenceIdeal.dot_S10000x256_S256x40_S10000x40_1_0_0_1_n_n none (V c main_v149) (V c main_arg7) :=
  (dat5 V c).arrAt_eq_of_cover 2 (prod5 V c) (fun t _ => flushed5 V c t) cover5

end Cert.KernelIdeal.RegionValue

end
-- ==== Proof.BridgeDots.lean ====
/-
  A region of the kernel program against the reference's matrix product.

  A region leaves in its output array the host's matrix product of its two whole input arrays (the block products tile
  it: the module of the regions' values). The reference computes the same product by one operation. So the region's
  output array and the reference's product buffer hold equal arrays when the operands do; for the sheaf's region the
  logistic map 1 / (1 + exp (−·)) rides along on both sides. The reference's matrix-product pieces write nothing else,
  which is what carries the other live arrays and the arguments across them.
-/
import proofs.«157253_j2594160246967_1_alg».proof.Proof.RegionValue
import proofs.«157253_j2594160246967_1_alg».proof.Proof.RefOps
import proofs.«157253_j2594160246967_1_alg».proof.Proof.BridgeBase

noncomputable section

namespace Cert.Bridge

open Idealize.ShloMosaic Idealize.ShloMosaic.TcCoe Idealize.ShloMosaic.StableHlo

local macro "kr(" b:term ")" : term => `((Proc.devRef .tc $b : DevRef Cert.KernelIdeal.τ Cert.KernelIdeal.sig))
local macro "rr(" b:term ")" : term => `((Proc.devRef .tc $b : DevRef Cert.ReferenceIdeal.τ Cert.ReferenceIdeal.sig))

variable (V : (c : Dev Cert.KernelIdeal.nD) → (b : Ref Cert.KernelIdeal.sig .tc) → Buf (Elt Ideal) ((c : Thread Cert.KernelIdeal.nD Cert.KernelIdeal.τ).loc b))
  (c : Dev Cert.KernelIdeal.nD) (R : RVal)

/-! ## The regions -/

theorem reg0 (hx : V c Cert.KernelIdeal.main_arg0 = R rr(Cert.ReferenceIdeal.main_arg0)) (hw : V c Cert.KernelIdeal.main_arg3 = R rr(Cert.ReferenceIdeal.main_arg3)) :
    (Cert.KernelIdeal.Gen.dat0 (F := Ideal) V c).arrAt 2 Cert.KernelIdeal.cfg0.N = after (Cert.ReferenceIdeal.RefRun.p0 (F := Ideal)) R rr(Cert.ReferenceIdeal.main_v0) := by
  rw [Cert.KernelIdeal.RegionValue.out0 V c, hx, hw]
  symm
  after_results_simp

theorem reg1 (hx : V c Cert.KernelIdeal.main_arg1 = R rr(Cert.ReferenceIdeal.main_arg1)) (hw : V c Cert.KernelIdeal.main_arg3 = R rr(Cert.ReferenceIdeal.main_arg3)) :
    (Cert.KernelIdeal.Gen.dat1 (F := Ideal) V c).arrAt 2 Cert.KernelIdeal.cfg1.N = after (Cert.ReferenceIdeal.RefRun.p2 (F := Ideal)) R rr(Cert.ReferenceIdeal.main_v2) := by
  rw [Cert.KernelIdeal.RegionValue.out1 V c, hx, hw]
  symm
  after_results_simp

theorem reg2 (hx : V c Cert.KernelIdeal.main_v22 = R rr(Cert.ReferenceIdeal.main_v22)) (hw : V c Cert.KernelIdeal.main_arg4 = R rr(Cert.ReferenceIdeal.main_arg4)) :
    (Cert.KernelIdeal.Gen.dat2 (F := Ideal) V c).arrAt 2 Cert.KernelIdeal.cfg2.N = after (Cert.ReferenceIdeal.RefRun.p4 (F := Ideal)) R rr(Cert.ReferenceIdeal.main_v29) := by
  rw [Cert.KernelIdeal.RegionValue.out2 V c, hx, hw]
  symm
  after_results_simp

theorem reg3 (hx : V c Cert.KernelIdeal.main_v1 = R rr(Cert.ReferenceIdeal.main_v1)) (hw : V c Cert.KernelIdeal.main_arg5 = R rr(Cert.ReferenceIdeal.main_arg5)) :
    (Cert.KernelIdeal.Gen.dat3 (F := Ideal) V c).arrAt 2 Cert.KernelIdeal.cfg3.N = after (Cert.ReferenceIdeal.RefRun.p7 (F := Ideal)) R rr(Cert.ReferenceIdeal.main_v54) := by
  rw [Cert.KernelIdeal.RegionValue.out3 V c, hx, hw]
  symm
  after_results_simp

theorem reg4 (hx : V c Cert.KernelIdeal.main_v98 = R rr(Cert.ReferenceIdeal.main_v104)) (hw : V c Cert.KernelIdeal.main_arg6 = R rr(Cert.ReferenceIdeal.main_arg6)) :
    (Cert.KernelIdeal.Gen.dat4 (F := Ideal) V c).arrAt 2 Cert.KernelIdeal.cfg4.N = after (Cert.ReferenceIdeal.RefRun.p10 (F := Ideal)) R rr(Cert.ReferenceIdeal.main_v105) := by
  rw [Cert.KernelIdeal.RegionValue.out4 V c, hx, hw]
  symm
  after_results_simp

theorem reg5 (hx : V c Cert.KernelIdeal.main_v149 = R rr(Cert.ReferenceIdeal.main_v155)) (hw : V c Cert.KernelIdeal.main_arg7 = R rr(Cert.ReferenceIdeal.main_arg7)) :
    (Cert.KernelIdeal.Gen.dat5 (F := Ideal) V c).arrAt 2 Cert.KernelIdeal.cfg5.N = after (Cert.ReferenceIdeal.RefRun.p13 (F := Ideal)) R rr(Cert.ReferenceIdeal.main_v156) := by
  rw [Cert.KernelIdeal.RegionValue.out5 V c, hx, hw]
  symm
  after_results_simp

/-! ## What the reference's matrix-product pieces leave alone -/

theorem dkeep0 : ∀ b ∈ [Cert.ReferenceIdeal.main_arg1, Cert.ReferenceIdeal.main_arg2, Cert.ReferenceIdeal.main_arg3, Cert.ReferenceIdeal.main_arg4, Cert.ReferenceIdeal.main_arg5, Cert.ReferenceIdeal.main_arg6, Cert.ReferenceIdeal.main_arg7], after (Cert.ReferenceIdeal.RefRun.p0 (F := Ideal)) R rr(b) = R rr(b) := by
  intro b hb
  simp only [List.mem_cons, List.not_mem_nil, or_false] at hb
  rcases hb with rfl | rfl | rfl | rfl | rfl | rfl | rfl <;> after_results_simp

theorem dkeep2 : ∀ b ∈ [Cert.ReferenceIdeal.main_v1, Cert.ReferenceIdeal.main_arg2, Cert.ReferenceIdeal.main_arg4, Cert.ReferenceIdeal.main_arg5, Cert.ReferenceIdeal.main_arg6, Cert.ReferenceIdeal.main_arg7],
    after (Cert.ReferenceIdeal.RefRun.p2 (F := Ideal)) R rr(b) = R rr(b) := by
  intro b hb
  simp only [List.mem_cons, List.not_mem_nil, or_false] at hb
  rcases hb with rfl | rfl | rfl | rfl | rfl | rfl <;> after_results_simp

theorem dkeep4 : ∀ b ∈ [Cert.ReferenceIdeal.main_v1, Cert.ReferenceIdeal.main_v5, Cert.ReferenceIdeal.main_v7, Cert.ReferenceIdeal.main_arg5, Cert.ReferenceIdeal.main_arg6, Cert.ReferenceIdeal.main_arg7],
    after (Cert.ReferenceIdeal.RefRun.p4 (F := Ideal)) R rr(b) = R rr(b) := by
  intro b hb
  simp only [List.mem_cons, List.not_mem_nil, or_false] at hb
  rcases hb with rfl | rfl | rfl | rfl | rfl | rfl <;> after_results_simp

theorem dkeep7 : ∀ b ∈ [Cert.ReferenceIdeal.main_v44, Cert.ReferenceIdeal.main_v52, Cert.ReferenceIdeal.main_v53, Cert.ReferenceIdeal.main_arg6, Cert.ReferenceIdeal.main_arg7],
    after (Cert.ReferenceIdeal.RefRun.p7 (F := Ideal)) R rr(b) = R rr(b) := by
  intro b hb
  simp only [List.mem_cons, List.not_mem_nil, or_false] at hb
  rcases hb with rfl | rfl | rfl | rfl | rfl <;> after_results_simp

theorem dkeep10 : ∀ b ∈ [Cert.ReferenceIdeal.main_v44, Cert.ReferenceIdeal.main_v52, Cert.ReferenceIdeal.main_v53, Cert.ReferenceIdeal.main_arg7],
    after (Cert.ReferenceIdeal.RefRun.p10 (F := Ideal)) R rr(b) = R rr(b) := by
  intro b hb
  simp only [List.mem_cons, List.not_mem_nil, or_false] at hb
  rcases hb with rfl | rfl | rfl | rfl <;> after_results_simp

end Cert.Bridge

end
-- ==== Proof.BridgeChain.lean ====
/-
  The two programs end with equal results.

  The kernel program's buffer contents at each boundary (after a region, after a stretch) are set beside the
  reference's after the matching pieces of its operation list. Where the two hold equal arrays at the buffers a step
  reads, they hold equal arrays at the buffers it writes: a region against the reference's matrix product, a stretch
  against the same operations in the reference. The arguments are written by nothing, so at every boundary they are
  still the launch arrays, which the two memories agree on. Walking from the launch to the last region, the kernel's
  result array is the reference's.
-/
import proofs.«157253_j2594160246967_1_alg».proof.Proof.Gen.KernelIdeal.Frame
import proofs.«157253_j2594160246967_1_alg».proof.Proof.RefRun
import proofs.«157253_j2594160246967_1_alg».proof.Proof.BridgeEarly
import proofs.«157253_j2594160246967_1_alg».proof.Proof.BridgeConvA
import proofs.«157253_j2594160246967_1_alg».proof.Proof.BridgeConvB
import proofs.«157253_j2594160246967_1_alg».proof.Proof.BridgeDots

noncomputable section

namespace Cert.Bridge

open Idealize.ShloMosaic Idealize.ShloMosaic.TcCoe Idealize.ShloMosaic.StableHlo Idealize.SL.Sem

local macro "kr(" b:term ")" : term => `((Proc.devRef .tc $b : DevRef Cert.KernelIdeal.τ Cert.KernelIdeal.sig))
local macro "rr(" b:term ")" : term => `((Proc.devRef .tc $b : DevRef Cert.ReferenceIdeal.τ Cert.ReferenceIdeal.sig))

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-! ## The reference's buffers after its pieces -/

/-- At launch. -/
abbrev RL : RVal := launchContents m' c
/-- After the first matrix product. -/
abbrev R0 : RVal := after (Cert.ReferenceIdeal.RefRun.p0 (F := Ideal)) (RL m' c)
abbrev R1 : RVal := after (Cert.ReferenceIdeal.RefRun.p1 (F := Ideal)) (R0 m' c)
abbrev R2 : RVal := after (Cert.ReferenceIdeal.RefRun.p2 (F := Ideal)) (R1 m' c)
abbrev R3 : RVal := after (Cert.ReferenceIdeal.RefRun.p3 (F := Ideal)) (R2 m' c)
abbrev R4 : RVal := after (Cert.ReferenceIdeal.RefRun.p4 (F := Ideal)) (R3 m' c)
abbrev R6 : RVal := after (Cert.ReferenceIdeal.RefRun.p6 (F := Ideal)) (after (Cert.ReferenceIdeal.RefRun.p5 (F := Ideal)) (R4 m' c))
abbrev R7 : RVal := after (Cert.ReferenceIdeal.RefRun.p7 (F := Ideal)) (R6 m' c)
abbrev R9 : RVal := after (Cert.ReferenceIdeal.RefRun.p9 (F := Ideal)) (after (Cert.ReferenceIdeal.RefRun.p8 (F := Ideal)) (R7 m' c))
abbrev R10 : RVal := after (Cert.ReferenceIdeal.RefRun.p10 (F := Ideal)) (R9 m' c)
abbrev R12 : RVal := after (Cert.ReferenceIdeal.RefRun.p12 (F := Ideal)) (after (Cert.ReferenceIdeal.RefRun.p11 (F := Ideal)) (R10 m' c))
/-- After the last matrix product: the whole program. -/
abbrev R13 : RVal := after (Cert.ReferenceIdeal.RefRun.p13 (F := Ideal)) (R12 m' c)

/-- The fold over the whole list is the fold over its pieces in turn. -/
theorem ops_split (V : RVal) : after (Cert.ReferenceIdeal.RefRun.ops (F := Ideal)) V
    = after (Cert.ReferenceIdeal.RefRun.p13 (F := Ideal)) (after (Cert.ReferenceIdeal.RefRun.p12 (F := Ideal)) (after (Cert.ReferenceIdeal.RefRun.p11 (F := Ideal)) (after (Cert.ReferenceIdeal.RefRun.p10 (F := Ideal))
      (after (Cert.ReferenceIdeal.RefRun.p9 (F := Ideal)) (after (Cert.ReferenceIdeal.RefRun.p8 (F := Ideal)) (after (Cert.ReferenceIdeal.RefRun.p7 (F := Ideal)) (after (Cert.ReferenceIdeal.RefRun.p6 (F := Ideal))
      (after (Cert.ReferenceIdeal.RefRun.p5 (F := Ideal)) (after (Cert.ReferenceIdeal.RefRun.p4 (F := Ideal)) (after (Cert.ReferenceIdeal.RefRun.p3 (F := Ideal)) (after (Cert.ReferenceIdeal.RefRun.p2 (F := Ideal))
      (after (Cert.ReferenceIdeal.RefRun.p1 (F := Ideal)) (after (Cert.ReferenceIdeal.RefRun.p0 (F := Ideal)) V))))))))))))) := by
  simp only [Cert.ReferenceIdeal.RefRun.ops, Cert.ReferenceIdeal.RefRun.w0, Cert.ReferenceIdeal.RefRun.w1, Cert.ReferenceIdeal.RefRun.w2, Cert.ReferenceIdeal.RefRun.w3, StableHlo.after_append]

/-! ## The arguments at the boundaries where a step reads them -/

section Args

/-- Kernel side: the weight of region 1 (and of region 0) at region 1's entry. -/
theorem karg3 : Cert.KernelIdeal.Gen.W2 m ρ c kr(Cert.KernelIdeal.main_arg3) = m ((c.tc : Thread Cert.KernelIdeal.nD Cert.KernelIdeal.τ).loc Cert.KernelIdeal.main_arg3) :=
  (s1_keepK (Cert.KernelIdeal.Gen.W1 m ρ c) Cert.KernelIdeal.main_arg3 (by decide)).trans
    (((Cert.KernelIdeal.Gen.W1_arr m ρ c 1).trans (((Cert.KernelIdeal.Gen.dat0 (Cert.KernelIdeal.Gen.V0 m ρ) c).arrAt_in 1 rfl _).trans (Cert.KernelIdeal.Gen.A_eq0 (Cert.KernelIdeal.Gen.V0 m ρ) c 1))).trans rfl)

theorem karg1 : Cert.KernelIdeal.Gen.W2 m ρ c kr(Cert.KernelIdeal.main_arg1) = m ((c.tc : Thread Cert.KernelIdeal.nD Cert.KernelIdeal.τ).loc Cert.KernelIdeal.main_arg1) :=
  (s1_keepK (Cert.KernelIdeal.Gen.W1 m ρ c) Cert.KernelIdeal.main_arg1 (by decide)).trans ((Cert.KernelIdeal.Gen.W1_of_ne m ρ c Cert.KernelIdeal.main_arg1 (by decide)).trans rfl)

theorem karg2 : Cert.KernelIdeal.Gen.W3 m ρ c kr(Cert.KernelIdeal.main_arg2) = m ((c.tc : Thread Cert.KernelIdeal.nD Cert.KernelIdeal.τ).loc Cert.KernelIdeal.main_arg2) :=
  (Cert.KernelIdeal.Gen.W3_of_ne m ρ c Cert.KernelIdeal.main_arg2 (by decide)).trans
    ((s1_keepK (Cert.KernelIdeal.Gen.W1 m ρ c) Cert.KernelIdeal.main_arg2 (by decide)).trans ((Cert.KernelIdeal.Gen.W1_of_ne m ρ c Cert.KernelIdeal.main_arg2 (by decide)).trans rfl))

theorem karg4 : Cert.KernelIdeal.Gen.W4 m ρ c kr(Cert.KernelIdeal.main_arg4) = m ((c.tc : Thread Cert.KernelIdeal.nD Cert.KernelIdeal.τ).loc Cert.KernelIdeal.main_arg4) :=
  (s2_keepK (Cert.KernelIdeal.Gen.W3 m ρ c) Cert.KernelIdeal.main_arg4 (by decide)).trans ((Cert.KernelIdeal.Gen.W3_of_ne m ρ c Cert.KernelIdeal.main_arg4 (by decide)).trans
    ((s1_keepK (Cert.KernelIdeal.Gen.W1 m ρ c) Cert.KernelIdeal.main_arg4 (by decide)).trans ((Cert.KernelIdeal.Gen.W1_of_ne m ρ c Cert.KernelIdeal.main_arg4 (by decide)).trans rfl)))

theorem karg5 : Cert.KernelIdeal.Gen.W6 m ρ c kr(Cert.KernelIdeal.main_arg5) = m ((c.tc : Thread Cert.KernelIdeal.nD Cert.KernelIdeal.τ).loc Cert.KernelIdeal.main_arg5) :=
  (s3_keepK (Cert.KernelIdeal.Gen.W5 m ρ c) Cert.KernelIdeal.main_arg5 (by decide)).trans ((Cert.KernelIdeal.Gen.W5_of_ne m ρ c Cert.KernelIdeal.main_arg5 (by decide)).trans
    ((s2_keepK (Cert.KernelIdeal.Gen.W3 m ρ c) Cert.KernelIdeal.main_arg5 (by decide)).trans ((Cert.KernelIdeal.Gen.W3_of_ne m ρ c Cert.KernelIdeal.main_arg5 (by decide)).trans
      ((s1_keepK (Cert.KernelIdeal.Gen.W1 m ρ c) Cert.KernelIdeal.main_arg5 (by decide)).trans ((Cert.KernelIdeal.Gen.W1_of_ne m ρ c Cert.KernelIdeal.main_arg5 (by decide)).trans rfl)))))

theorem karg6 : Cert.KernelIdeal.Gen.W13 m ρ c kr(Cert.KernelIdeal.main_arg6) = m ((c.tc : Thread Cert.KernelIdeal.nD Cert.KernelIdeal.τ).loc Cert.KernelIdeal.main_arg6) :=
  (s4_keepK (Cert.KernelIdeal.Gen.W7 m ρ c) Cert.KernelIdeal.main_arg6 (by decide)).trans ((Cert.KernelIdeal.Gen.W7_of_ne m ρ c Cert.KernelIdeal.main_arg6 (by decide)).trans
    ((s3_keepK (Cert.KernelIdeal.Gen.W5 m ρ c) Cert.KernelIdeal.main_arg6 (by decide)).trans ((Cert.KernelIdeal.Gen.W5_of_ne m ρ c Cert.KernelIdeal.main_arg6 (by decide)).trans
      ((s2_keepK (Cert.KernelIdeal.Gen.W3 m ρ c) Cert.KernelIdeal.main_arg6 (by decide)).trans ((Cert.KernelIdeal.Gen.W3_of_ne m ρ c Cert.KernelIdeal.main_arg6 (by decide)).trans
        ((s1_keepK (Cert.KernelIdeal.Gen.W1 m ρ c) Cert.KernelIdeal.main_arg6 (by decide)).trans ((Cert.KernelIdeal.Gen.W1_of_ne m ρ c Cert.KernelIdeal.main_arg6 (by decide)).trans rfl)))))))

theorem karg7 : Cert.KernelIdeal.Gen.W19 m ρ c kr(Cert.KernelIdeal.main_arg7) = m ((c.tc : Thread Cert.KernelIdeal.nD Cert.KernelIdeal.τ).loc Cert.KernelIdeal.main_arg7) :=
  (s5_keepK (Cert.KernelIdeal.Gen.W14 m ρ c) Cert.KernelIdeal.main_arg7 (by decide)).trans ((Cert.KernelIdeal.Gen.W14_of_ne m ρ c Cert.KernelIdeal.main_arg7 (by decide)).trans
    ((s4_keepK (Cert.KernelIdeal.Gen.W7 m ρ c) Cert.KernelIdeal.main_arg7 (by decide)).trans ((Cert.KernelIdeal.Gen.W7_of_ne m ρ c Cert.KernelIdeal.main_arg7 (by decide)).trans
      ((s3_keepK (Cert.KernelIdeal.Gen.W5 m ρ c) Cert.KernelIdeal.main_arg7 (by decide)).trans ((Cert.KernelIdeal.Gen.W5_of_ne m ρ c Cert.KernelIdeal.main_arg7 (by decide)).trans
        ((s2_keepK (Cert.KernelIdeal.Gen.W3 m ρ c) Cert.KernelIdeal.main_arg7 (by decide)).trans ((Cert.KernelIdeal.Gen.W3_of_ne m ρ c Cert.KernelIdeal.main_arg7 (by decide)).trans
          ((s1_keepK (Cert.KernelIdeal.Gen.W1 m ρ c) Cert.KernelIdeal.main_arg7 (by decide)).trans ((Cert.KernelIdeal.Gen.W1_of_ne m ρ c Cert.KernelIdeal.main_arg7 (by decide)).trans rfl)))))))))

/-- Reference side: the same arguments after the matching pieces. -/
theorem rarg1 : R1 m' c rr(Cert.ReferenceIdeal.main_arg1) = m' ((c.tc : Thread Cert.ReferenceIdeal.nD Cert.ReferenceIdeal.τ).loc Cert.ReferenceIdeal.main_arg1) :=
  (s1_keepR (R0 m' c) Cert.ReferenceIdeal.main_arg1 (by decide)).trans ((dkeep0 (RL m' c) Cert.ReferenceIdeal.main_arg1 (by decide)).trans rfl)

theorem rarg3 : R1 m' c rr(Cert.ReferenceIdeal.main_arg3) = m' ((c.tc : Thread Cert.ReferenceIdeal.nD Cert.ReferenceIdeal.τ).loc Cert.ReferenceIdeal.main_arg3) :=
  (s1_keepR (R0 m' c) Cert.ReferenceIdeal.main_arg3 (by decide)).trans ((dkeep0 (RL m' c) Cert.ReferenceIdeal.main_arg3 (by decide)).trans rfl)

theorem rarg2 : R2 m' c rr(Cert.ReferenceIdeal.main_arg2) = m' ((c.tc : Thread Cert.ReferenceIdeal.nD Cert.ReferenceIdeal.τ).loc Cert.ReferenceIdeal.main_arg2) :=
  (dkeep2 (R1 m' c) Cert.ReferenceIdeal.main_arg2 (by decide)).trans ((s1_keepR (R0 m' c) Cert.ReferenceIdeal.main_arg2 (by decide)).trans ((dkeep0 (RL m' c) Cert.ReferenceIdeal.main_arg2 (by decide)).trans rfl))

theorem rarg4 : R3 m' c rr(Cert.ReferenceIdeal.main_arg4) = m' ((c.tc : Thread Cert.ReferenceIdeal.nD Cert.ReferenceIdeal.τ).loc Cert.ReferenceIdeal.main_arg4) :=
  (s2_keepR (R2 m' c) Cert.ReferenceIdeal.main_arg4 (by decide)).trans ((dkeep2 (R1 m' c) Cert.ReferenceIdeal.main_arg4 (by decide)).trans
    ((s1_keepR (R0 m' c) Cert.ReferenceIdeal.main_arg4 (by decide)).trans ((dkeep0 (RL m' c) Cert.ReferenceIdeal.main_arg4 (by decide)).trans rfl)))

theorem rarg5 : R6 m' c rr(Cert.ReferenceIdeal.main_arg5) = m' ((c.tc : Thread Cert.ReferenceIdeal.nD Cert.ReferenceIdeal.τ).loc Cert.ReferenceIdeal.main_arg5) :=
  (s3_keepR (R4 m' c) Cert.ReferenceIdeal.main_arg5 (by decide)).trans ((dkeep4 (R3 m' c) Cert.ReferenceIdeal.main_arg5 (by decide)).trans
    ((s2_keepR (R2 m' c) Cert.ReferenceIdeal.main_arg5 (by decide)).trans ((dkeep2 (R1 m' c) Cert.ReferenceIdeal.main_arg5 (by decide)).trans
      ((s1_keepR (R0 m' c) Cert.ReferenceIdeal.main_arg5 (by decide)).trans ((dkeep0 (RL m' c) Cert.ReferenceIdeal.main_arg5 (by decide)).trans rfl)))))

theorem rarg6 : R9 m' c rr(Cert.ReferenceIdeal.main_arg6) = m' ((c.tc : Thread Cert.ReferenceIdeal.nD Cert.ReferenceIdeal.τ).loc Cert.ReferenceIdeal.main_arg6) :=
  (s4_keepR (R7 m' c) Cert.ReferenceIdeal.main_arg6 (by decide)).trans ((dkeep7 (R6 m' c) Cert.ReferenceIdeal.main_arg6 (by decide)).trans
    ((s3_keepR (R4 m' c) Cert.ReferenceIdeal.main_arg6 (by decide)).trans ((dkeep4 (R3 m' c) Cert.ReferenceIdeal.main_arg6 (by decide)).trans
      ((s2_keepR (R2 m' c) Cert.ReferenceIdeal.main_arg6 (by decide)).trans ((dkeep2 (R1 m' c) Cert.ReferenceIdeal.main_arg6 (by decide)).trans
        ((s1_keepR (R0 m' c) Cert.ReferenceIdeal.main_arg6 (by decide)).trans ((dkeep0 (RL m' c) Cert.ReferenceIdeal.main_arg6 (by decide)).trans rfl)))))))

theorem rarg7 : R12 m' c rr(Cert.ReferenceIdeal.main_arg7) = m' ((c.tc : Thread Cert.ReferenceIdeal.nD Cert.ReferenceIdeal.τ).loc Cert.ReferenceIdeal.main_arg7) :=
  (s5_keepR (R10 m' c) Cert.ReferenceIdeal.main_arg7 (by decide)).trans ((dkeep10 (R9 m' c) Cert.ReferenceIdeal.main_arg7 (by decide)).trans
    ((s4_keepR (R7 m' c) Cert.ReferenceIdeal.main_arg7 (by decide)).trans ((dkeep7 (R6 m' c) Cert.ReferenceIdeal.main_arg7 (by decide)).trans
      ((s3_keepR (R4 m' c) Cert.ReferenceIdeal.main_arg7 (by decide)).trans ((dkeep4 (R3 m' c) Cert.ReferenceIdeal.main_arg7 (by decide)).trans
        ((s2_keepR (R2 m' c) Cert.ReferenceIdeal.main_arg7 (by decide)).trans ((dkeep2 (R1 m' c) Cert.ReferenceIdeal.main_arg7 (by decide)).trans
          ((s1_keepR (R0 m' c) Cert.ReferenceIdeal.main_arg7 (by decide)).trans ((dkeep0 (RL m' c) Cert.ReferenceIdeal.main_arg7 (by decide)).trans rfl)))))))))

end Args

/-! ## The walk -/

/-- From memories that agree on the arguments, the kernel program's result array (the last region's output) is the
    reference's result (its buffer after the whole operation list). -/
theorem result_eq
    (ha0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (ha1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (ha2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (ha5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (ha6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (ha7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.KernelIdeal.Gen.W20 m ρ c kr(Cert.KernelIdeal.main_v150) = after (Cert.ReferenceIdeal.RefRun.ops (F := Ideal)) (launchContents m' c) rr(Cert.ReferenceIdeal.main_v156) := by
  rw [ops_split]
  -- region 0 against the first matrix product
  have e0 : Cert.KernelIdeal.Gen.W1 m ρ c kr(Cert.KernelIdeal.main_v0) = R0 m' c rr(Cert.ReferenceIdeal.main_v0) :=
    (Cert.KernelIdeal.Gen.W1_arr m ρ c 2).trans (reg0 (Cert.KernelIdeal.Gen.V0 m ρ) c (RL m' c) ha0.symm ha3.symm)
  -- stretch 1
  have e1 : Cert.KernelIdeal.Gen.W2 m ρ c kr(Cert.KernelIdeal.main_v1) = R1 m' c rr(Cert.ReferenceIdeal.main_v1) := s1_v1 (Cert.KernelIdeal.Gen.W1 m ρ c) (R0 m' c) e0
  -- region 1 against the second matrix product
  have x1 : Cert.KernelIdeal.Gen.V2 m ρ c Cert.KernelIdeal.main_arg1 = R1 m' c rr(Cert.ReferenceIdeal.main_arg1) :=
    (karg1 m ρ c).trans (ha1.symm.trans (rarg1 m' c).symm)
  have x3 : Cert.KernelIdeal.Gen.V2 m ρ c Cert.KernelIdeal.main_arg3 = R1 m' c rr(Cert.ReferenceIdeal.main_arg3) :=
    (karg3 m ρ c).trans (ha3.symm.trans (rarg3 m' c).symm)
  have e2 : Cert.KernelIdeal.Gen.W3 m ρ c kr(Cert.KernelIdeal.main_v2) = R2 m' c rr(Cert.ReferenceIdeal.main_v2) :=
    (Cert.KernelIdeal.Gen.W3_arr m ρ c 2).trans (reg1 (Cert.KernelIdeal.Gen.V2 m ρ) c (R1 m' c) x1 x3)
  have e1a : Cert.KernelIdeal.Gen.W3 m ρ c kr(Cert.KernelIdeal.main_v1) = R2 m' c rr(Cert.ReferenceIdeal.main_v1) :=
    (Cert.KernelIdeal.Gen.W3_of_ne m ρ c Cert.KernelIdeal.main_v1 (by decide)).trans (e1.trans (dkeep2 (R1 m' c) Cert.ReferenceIdeal.main_v1 (by decide)).symm)
  -- stretch 2
  have x2 : Cert.KernelIdeal.Gen.W3 m ρ c kr(Cert.KernelIdeal.main_arg2) = R2 m' c rr(Cert.ReferenceIdeal.main_arg2) :=
    (karg2 m ρ c).trans (ha2.symm.trans (rarg2 m' c).symm)
  have e22 : Cert.KernelIdeal.Gen.W4 m ρ c kr(Cert.KernelIdeal.main_v22) = R3 m' c rr(Cert.ReferenceIdeal.main_v22) := s2_v22 (Cert.KernelIdeal.Gen.W3 m ρ c) (R2 m' c) e1a e2 x2
  have e5 : Cert.KernelIdeal.Gen.W4 m ρ c kr(Cert.KernelIdeal.main_v5) = R3 m' c rr(Cert.ReferenceIdeal.main_v5) := s2_v5 (Cert.KernelIdeal.Gen.W3 m ρ c) (R2 m' c) x2
  have e7 : Cert.KernelIdeal.Gen.W4 m ρ c kr(Cert.KernelIdeal.main_v7) = R3 m' c rr(Cert.ReferenceIdeal.main_v7) := s2_v7 (Cert.KernelIdeal.Gen.W3 m ρ c) (R2 m' c) x2
  have e1b : Cert.KernelIdeal.Gen.W4 m ρ c kr(Cert.KernelIdeal.main_v1) = R3 m' c rr(Cert.ReferenceIdeal.main_v1) := s2_v1 (Cert.KernelIdeal.Gen.W3 m ρ c) (R2 m' c) e1a
  -- region 2 against the sheaf's matrix product and logistic map
  have x4 : Cert.KernelIdeal.Gen.V4 m ρ c Cert.KernelIdeal.main_arg4 = R3 m' c rr(Cert.ReferenceIdeal.main_arg4) :=
    (karg4 m ρ c).trans (ha4.symm.trans (rarg4 m' c).symm)
  have e23 : Cert.KernelIdeal.Gen.W5 m ρ c kr(Cert.KernelIdeal.main_v23) = R4 m' c rr(Cert.ReferenceIdeal.main_v29) :=
    (Cert.KernelIdeal.Gen.W5_arr m ρ c 2).trans (reg2 (Cert.KernelIdeal.Gen.V4 m ρ) c (R3 m' c) e22 x4)
  have e1c : Cert.KernelIdeal.Gen.W5 m ρ c kr(Cert.KernelIdeal.main_v1) = R4 m' c rr(Cert.ReferenceIdeal.main_v1) :=
    (Cert.KernelIdeal.Gen.W5_of_ne m ρ c Cert.KernelIdeal.main_v1 (by decide)).trans (e1b.trans (dkeep4 (R3 m' c) Cert.ReferenceIdeal.main_v1 (by decide)).symm)
  have e5c : Cert.KernelIdeal.Gen.W5 m ρ c kr(Cert.KernelIdeal.main_v5) = R4 m' c rr(Cert.ReferenceIdeal.main_v5) :=
    (Cert.KernelIdeal.Gen.W5_of_ne m ρ c Cert.KernelIdeal.main_v5 (by decide)).trans (e5.trans (dkeep4 (R3 m' c) Cert.ReferenceIdeal.main_v5 (by decide)).symm)
  have e7c : Cert.KernelIdeal.Gen.W5 m ρ c kr(Cert.KernelIdeal.main_v7) = R4 m' c rr(Cert.ReferenceIdeal.main_v7) :=
    (Cert.KernelIdeal.Gen.W5_of_ne m ρ c Cert.KernelIdeal.main_v7 (by decide)).trans (e7.trans (dkeep4 (R3 m' c) Cert.ReferenceIdeal.main_v7 (by decide)).symm)
  -- stretch 3
  have e38 : Cert.KernelIdeal.Gen.W6 m ρ c kr(Cert.KernelIdeal.main_v38) = R6 m' c rr(Cert.ReferenceIdeal.main_v44) := s3_v38 (Cert.KernelIdeal.Gen.W5 m ρ c) (R4 m' c) e5c
  have e46 : Cert.KernelIdeal.Gen.W6 m ρ c kr(Cert.KernelIdeal.main_v46) = R6 m' c rr(Cert.ReferenceIdeal.main_v52) := s3_v46 (Cert.KernelIdeal.Gen.W5 m ρ c) (R4 m' c) e7c
  have e47 : Cert.KernelIdeal.Gen.W6 m ρ c kr(Cert.KernelIdeal.main_v47) = R6 m' c rr(Cert.ReferenceIdeal.main_v53) := s3_v47 (Cert.KernelIdeal.Gen.W5 m ρ c) (R4 m' c) e23
  have e1d : Cert.KernelIdeal.Gen.W6 m ρ c kr(Cert.KernelIdeal.main_v1) = R6 m' c rr(Cert.ReferenceIdeal.main_v1) := s3_v1 (Cert.KernelIdeal.Gen.W5 m ρ c) (R4 m' c) e1c
  -- region 3 against the first convolution's projection
  have x5 : Cert.KernelIdeal.Gen.V6 m ρ c Cert.KernelIdeal.main_arg5 = R6 m' c rr(Cert.ReferenceIdeal.main_arg5) :=
    (karg5 m ρ c).trans (ha5.symm.trans (rarg5 m' c).symm)
  have e48 : Cert.KernelIdeal.Gen.W7 m ρ c kr(Cert.KernelIdeal.main_v48) = R7 m' c rr(Cert.ReferenceIdeal.main_v54) :=
    (Cert.KernelIdeal.Gen.W7_arr m ρ c 2).trans (reg3 (Cert.KernelIdeal.Gen.V6 m ρ) c (R6 m' c) e1d x5)
  have e38a : Cert.KernelIdeal.Gen.W7 m ρ c kr(Cert.KernelIdeal.main_v38) = R7 m' c rr(Cert.ReferenceIdeal.main_v44) :=
    (Cert.KernelIdeal.Gen.W7_of_ne m ρ c Cert.KernelIdeal.main_v38 (by decide)).trans (e38.trans (dkeep7 (R6 m' c) Cert.ReferenceIdeal.main_v44 (by decide)).symm)
  have e46a : Cert.KernelIdeal.Gen.W7 m ρ c kr(Cert.KernelIdeal.main_v46) = R7 m' c rr(Cert.ReferenceIdeal.main_v52) :=
    (Cert.KernelIdeal.Gen.W7_of_ne m ρ c Cert.KernelIdeal.main_v46 (by decide)).trans (e46.trans (dkeep7 (R6 m' c) Cert.ReferenceIdeal.main_v52 (by decide)).symm)
  have e47a : Cert.KernelIdeal.Gen.W7 m ρ c kr(Cert.KernelIdeal.main_v47) = R7 m' c rr(Cert.ReferenceIdeal.main_v53) :=
    (Cert.KernelIdeal.Gen.W7_of_ne m ρ c Cert.KernelIdeal.main_v47 (by decide)).trans (e47.trans (dkeep7 (R6 m' c) Cert.ReferenceIdeal.main_v53 (by decide)).symm)
  -- the first sheaf convolution and the exponential-linear unit
  have e98 : Cert.KernelIdeal.Gen.W13 m ρ c kr(Cert.KernelIdeal.main_v98) = R9 m' c rr(Cert.ReferenceIdeal.main_v104) := s4_v98 (Cert.KernelIdeal.Gen.W7 m ρ c) (R7 m' c) e38a e46a e47a e48
  have e38b : Cert.KernelIdeal.Gen.W13 m ρ c kr(Cert.KernelIdeal.main_v38) = R9 m' c rr(Cert.ReferenceIdeal.main_v44) := s4_v38 (Cert.KernelIdeal.Gen.W7 m ρ c) (R7 m' c) e38a
  have e46b : Cert.KernelIdeal.Gen.W13 m ρ c kr(Cert.KernelIdeal.main_v46) = R9 m' c rr(Cert.ReferenceIdeal.main_v52) := s4_v46 (Cert.KernelIdeal.Gen.W7 m ρ c) (R7 m' c) e46a
  have e47b : Cert.KernelIdeal.Gen.W13 m ρ c kr(Cert.KernelIdeal.main_v47) = R9 m' c rr(Cert.ReferenceIdeal.main_v53) := s4_v47 (Cert.KernelIdeal.Gen.W7 m ρ c) (R7 m' c) e47a
  -- region 4 against the second convolution's projection
  have x6 : Cert.KernelIdeal.Gen.V13 m ρ c Cert.KernelIdeal.main_arg6 = R9 m' c rr(Cert.ReferenceIdeal.main_arg6) :=
    (karg6 m ρ c).trans (ha6.symm.trans (rarg6 m' c).symm)
  have e99 : Cert.KernelIdeal.Gen.W14 m ρ c kr(Cert.KernelIdeal.main_v99) = R10 m' c rr(Cert.ReferenceIdeal.main_v105) :=
    (Cert.KernelIdeal.Gen.W14_arr m ρ c 2).trans (reg4 (Cert.KernelIdeal.Gen.V13 m ρ) c (R9 m' c) e98 x6)
  have e38c : Cert.KernelIdeal.Gen.W14 m ρ c kr(Cert.KernelIdeal.main_v38) = R10 m' c rr(Cert.ReferenceIdeal.main_v44) :=
    (Cert.KernelIdeal.Gen.W14_of_ne m ρ c Cert.KernelIdeal.main_v38 (by decide)).trans (e38b.trans (dkeep10 (R9 m' c) Cert.ReferenceIdeal.main_v44 (by decide)).symm)
  have e46c : Cert.KernelIdeal.Gen.W14 m ρ c kr(Cert.KernelIdeal.main_v46) = R10 m' c rr(Cert.ReferenceIdeal.main_v52) :=
    (Cert.KernelIdeal.Gen.W14_of_ne m ρ c Cert.KernelIdeal.main_v46 (by decide)).trans (e46b.trans (dkeep10 (R9 m' c) Cert.ReferenceIdeal.main_v52 (by decide)).symm)
  have e47c : Cert.KernelIdeal.Gen.W14 m ρ c kr(Cert.KernelIdeal.main_v47) = R10 m' c rr(Cert.ReferenceIdeal.main_v53) :=
    (Cert.KernelIdeal.Gen.W14_of_ne m ρ c Cert.KernelIdeal.main_v47 (by decide)).trans (e47b.trans (dkeep10 (R9 m' c) Cert.ReferenceIdeal.main_v53 (by decide)).symm)
  -- the second sheaf convolution
  have e149 : Cert.KernelIdeal.Gen.W19 m ρ c kr(Cert.KernelIdeal.main_v149) = R12 m' c rr(Cert.ReferenceIdeal.main_v155) := s5_v149 (Cert.KernelIdeal.Gen.W14 m ρ c) (R10 m' c) e38c e46c e47c e99
  -- region 5 against the last matrix product
  have x7 : Cert.KernelIdeal.Gen.V19 m ρ c Cert.KernelIdeal.main_arg7 = R12 m' c rr(Cert.ReferenceIdeal.main_arg7) :=
    (karg7 m ρ c).trans (ha7.symm.trans (rarg7 m' c).symm)
  exact (Cert.KernelIdeal.Gen.W20_arr m ρ c 2).trans (reg5 (Cert.KernelIdeal.Gen.V19 m ρ) c (R12 m' c) e149 x7)

end Cert.Bridge

end
-- ==== Proof.lean ====
/-
  The certificate: the hypergraph sheaf-convolution block computed with row-blocked matrix-product kernels is, on the
  extended reals, the plain array program.

  Both programs are the same chain of array operations — project the node and hyperedge features, gather them per
  incidence entry into the sheaf's d × d blocks through a logistic map, expand the incidence indices blockwise, apply
  the degree-normalised sheaf convolution twice with an exponential-linear unit between, project to the classes —
  and differ only in how the six matrix products are computed: the reference by one host product each, the kernel
  program by a pipeline over blocks of rows, each block's product taken on the matrix unit from bf16 copies of the
  operands into a zero f32 accumulator (for the sheaf's product with the logistic map 1 / (1 + exp (0 − ·)) applied in
  the block). On the extended reals a change of float format is the identity and a matrix product has no schedule:
  entry (r, c) is ∑ k, X (r, k) · W (k, c) whoever computes it, and 0 − x = −x. So every region's output array is the
  host's product of its input arrays, the stretches between regions are the reference's own operations on equal
  arrays, and the results agree entry by entry. No law used needs finiteness: the precondition is never opened.

  The frames of the two kernel programs are the pipelines' generated frame certificates; the reference's frame is
  its run (a straight line of host operations, none of which writes an argument). The idealization rewrote no
  operation, so the statement that it is sanctioned is the trivial one.
-/
import proofs.«157253_j2594160246967_1_alg».proof.Defs
import proofs.«157253_j2594160246967_1_alg».proof.Proof.Gen.Kernel
import proofs.«157253_j2594160246967_1_alg».proof.Proof.Gen.Kernel.Frame
import proofs.«157253_j2594160246967_1_alg».proof.Proof.Gen.KernelIdeal
import proofs.«157253_j2594160246967_1_alg».proof.Proof.Gen.KernelIdeal.Frame
import proofs.«157253_j2594160246967_1_alg».proof.Proof.Gen.ReferenceIdeal
import proofs.«157253_j2594160246967_1_alg».proof.Proof.Gen.Pre_finite_inputs
import proofs.«157253_j2594160246967_1_alg».proof.Proof.KRun
import proofs.«157253_j2594160246967_1_alg».proof.Proof.RefRun
import proofs.«157253_j2594160246967_1_alg».proof.Proof.RefArgs
import proofs.«157253_j2594160246967_1_alg».proof.Proof.BridgeChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference terminates with every buffer at the fold of its operations; no operation writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.args_kept _ _ (by decide)),
     (h c Cert.ReferenceIdeal.main_arg1).trans (Cert.ReferenceIdeal.RefRun.args_kept _ _ (by decide)),
     (h c Cert.ReferenceIdeal.main_arg2).trans (Cert.ReferenceIdeal.RefRun.args_kept _ _ (by decide)),
     (h c Cert.ReferenceIdeal.main_arg3).trans (Cert.ReferenceIdeal.RefRun.args_kept _ _ (by decide)),
     (h c Cert.ReferenceIdeal.main_arg4).trans (Cert.ReferenceIdeal.RefRun.args_kept _ _ (by decide)),
     (h c Cert.ReferenceIdeal.main_arg5).trans (Cert.ReferenceIdeal.RefRun.args_kept _ _ (by decide)),
     (h c Cert.ReferenceIdeal.main_arg6).trans (Cert.ReferenceIdeal.RefRun.args_kept _ _ (by decide)),
     (h c Cert.ReferenceIdeal.main_arg7).trans (Cert.ReferenceIdeal.RefRun.args_kept _ _ (by decide))⟩)
    (Cert.ReferenceIdeal.RefRun.run_main (F := Ideal) m ρ)

/-- The ideal pass rewrote nothing. -/
theorem preserves : Cert.preserves_Kernel_KernelIdeal := trivial

/-- Both programs run; the kernel program's result is its last region's output array, the reference's is its buffer
    after the whole operation list, and the two are equal arrays (the walk along both programs' boundaries). -/
theorem algebraic : Cert.algebraic_KernelIdeal_ReferenceIdeal := by
  intro m ρ m' ρ' _ hagree
  refine ⟨fun c => Cert.KernelIdeal.Gen.W20 m ρ c (Proc.devRef .tc Cert.KernelIdeal.main_v150),
    Cert.KernelIdeal.KRun.run_main m ρ, ?_⟩
  refine (θ_run Cert.ReferenceIdeal.defs _ _).mono (fun _ h c =>
    ⟨(h c Cert.ReferenceIdeal.main_v156).trans
        (Cert.Bridge.result_eq m ρ m' c (hagree c).1 (hagree c).2.1 (hagree c).2.2.1 (hagree c).2.2.2.1 (hagree c).2.2.2.2.1 (hagree c).2.2.2.2.2.1 (hagree c).2.2.2.2.2.2.1 (hagree c).2.2.2.2.2.2.2).symm,
     (h c Cert.ReferenceIdeal.main_arg0).trans (Cert.ReferenceIdeal.RefRun.args_kept _ _ (by decide)),
     (h c Cert.ReferenceIdeal.main_arg1).trans (Cert.ReferenceIdeal.RefRun.args_kept _ _ (by decide)),
     (h c Cert.ReferenceIdeal.main_arg2).trans (Cert.ReferenceIdeal.RefRun.args_kept _ _ (by decide)),
     (h c Cert.ReferenceIdeal.main_arg3).trans (Cert.ReferenceIdeal.RefRun.args_kept _ _ (by decide)),
     (h c Cert.ReferenceIdeal.main_arg4).trans (Cert.ReferenceIdeal.RefRun.args_kept _ _ (by decide)),
     (h c Cert.ReferenceIdeal.main_arg5).trans (Cert.ReferenceIdeal.RefRun.args_kept _ _ (by decide)),
     (h c Cert.ReferenceIdeal.main_arg6).trans (Cert.ReferenceIdeal.RefRun.args_kept _ _ (by decide)),
     (h c Cert.ReferenceIdeal.main_arg7).trans (Cert.ReferenceIdeal.RefRun.args_kept _ _ (by decide))⟩)
    (Cert.ReferenceIdeal.RefRun.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
